-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x3 : Shape := ⟨3, ![4, 4096, 3]⟩
abbrev S64x4096 : Shape := ⟨2, ![64, 4096]⟩
abbrev S64 : Shape := ⟨1, ![64]⟩
abbrev S_ : Shape := ⟨0, ![]⟩

class Facts : Prop where
  bcast_S_S4x4096x3 : S_.BroadcastsInDim S4x4096x3 (![] : Fin 0 → Fin S4x4096x3.rank)
  reducesTo_S4x4096x3_S_d0_1_2 : S4x4096x3.ReducesTo [0, 1, 2] S_
  h_S_ : 0 < S_.numel
  bcast_S_S64x4096 : S_.BroadcastsInDim S64x4096 (![] : Fin 0 → Fin S64x4096.rank)
  reducesTo_S64x4096_S_d0_1 : S64x4096.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S4x4096x3 .f32) (main_arg1 : FVec F S64x4096 .f32) (main_arg2 : FVec F S64 .f32) (main_arg3 : FVec F S64 .f32) (main_arg4 : FVec F S64 .f32) : IVec S_ 1 :=
  let main_v0 : FVec F S4x4096x3 .f32 := Host.absf main_arg0
  let main_cst : FVec F S_ .f32 := constant S_ .f32 0x7F800000#32
  let main_v1 : FVec F S4x4096x3 .f32 := broadcastInDim S4x4096x3 ![] bcast_S_S4x4096x3 main_cst
  let main_v2 : IVec S4x4096x3 1 := cmpf .olt main_v0 main_v1
  let main_c : IVec S_ 1 := constantI S_ 1 1#1
  let main_v3 : IVec S_ 1 := (fun x v => Host.reduce IntOp.andi x v reducesTo_S4x4096x3_S_d0_1_2 h_S_) main_v2 main_c
  let main_v4 : FVec F S64x4096 .f32 := Host.absf main_arg1
  let main_cst_0 : FVec F S_ .f32 := constant S_ .f32 0x7F800000#32
  let main_v5 : FVec F S64x4096 .f32 := broadcastInDim S64x4096 ![] bcast_S_S64x4096 main_cst_0
  let main_v6 : IVec S64x4096 1 := cmpf .olt main_v4 main_v5
  let main_c_1 : IVec S_ 1 := constantI S_ 1 1#1
  let main_v7 : IVec S_ 1 := (fun x v => Host.reduce IntOp.andi x v reducesTo_S64x4096_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_v13 main_v16
-- ==== Kernel.lean ====
abbrev S4x4096x3 : Shape := ⟨3, ![4, 4096, 3]⟩
abbrev S64x4096 : Shape := ⟨2, ![64, 4096]⟩
abbrev S64 : Shape := ⟨1, ![64]⟩
abbrev S_ : Shape := ⟨0, ![]⟩
abbrev S4x4096 : Shape := ⟨2, ![4, 4096]⟩
abbrev S4x4096x1 : Shape := ⟨3, ![4, 4096, 1]⟩
abbrev S4x1x4096 : Shape := ⟨3, ![4, 1, 4096]⟩
abbrev S4096x64 : Shape := ⟨2, ![4096, 64]⟩
abbrev S1x64 : Shape := ⟨2, ![1, 64]⟩
abbrev S4x4096x64 : Shape := ⟨3, ![4, 4096, 64]⟩
abbrev S1x2048x3 : Shape := ⟨3, ![1, 2048, 3]⟩
abbrev S1x1024x3 : Shape := ⟨3, ![1, 1024, 3]⟩
abbrev S1x2048x1 : Shape := ⟨3, ![1, 2048, 1]⟩
abbrev S1x1x1024 : Shape := ⟨3, ![1, 1, 1024]⟩
abbrev S1024x64 : Shape := ⟨2, ![1024, 64]⟩
abbrev S1x2048x64 : Shape := ⟨3, ![1, 2048, 64]⟩
abbrev S2048x64 : Shape := ⟨2, ![2048, 64]⟩
abbrev S2048x3 : Shape := ⟨2, ![2048, 3]⟩
abbrev S1024x3 : Shape := ⟨2, ![1024, 3]⟩
abbrev S2048x1 : Shape := ⟨2, ![2048, 1]⟩
abbrev S1x1024 : Shape := ⟨2, ![1, 1024]⟩
abbrev S2048x1024 : Shape := ⟨2, ![2048, 1024]⟩
abbrev S2048 : Shape := ⟨1, ![2048]⟩

abbrev nBuf : Space → Nat
  | .hbm => 15
  | .vmem => 16
  | .smem => 0
  | _ => 0

abbrev bufTy : (tb : Table) → Fin (tcTables nBuf tb) → BufTy
  | .hbm, ⟨0, _⟩ => ⟨S4x4096x3, .f32⟩
  | .hbm, ⟨1, _⟩ => ⟨S64x4096, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S4x4096x3, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S4x1x4096, .f32⟩
  | .hbm, ⟨10, _⟩ => ⟨S4096x64, .f32⟩
  | .hbm, ⟨11, _⟩ => ⟨S1x64, .f32⟩
  | .hbm, ⟨12, _⟩ => ⟨S1x64, .f32⟩
  | .hbm, ⟨13, _⟩ => ⟨S1x64, .f32⟩
  | .hbm, ⟨14, _⟩ => ⟨S4x4096x64, .f32⟩
  | .local _ .vmem, ⟨0, _⟩ => ⟨S1x2048x3, .f32⟩
  | .local _ .vmem, ⟨1, _⟩ => ⟨S1x2048x3, .f32⟩
  | .local _ .vmem, ⟨2, _⟩ => ⟨S1x1024x3, .f32⟩
  | .local _ .vmem, ⟨3, _⟩ => ⟨S1x1024x3, .f32⟩
  | .local _ .vmem, ⟨4, _⟩ => ⟨S1x2048x1, .f32⟩
  | .local _ .vmem, ⟨5, _⟩ => ⟨S1x2048x1, .f32⟩
  | .local _ .vmem, ⟨6, _⟩ => ⟨S1x1x1024, .f32⟩
  | .local _ .vmem, ⟨7, _⟩ => ⟨S1x1x1024, .f32⟩
  | .local _ .vmem, ⟨8, _⟩ => ⟨S1024x64, .f32⟩
  | .local _ .vmem, ⟨9, _⟩ => ⟨S1024x64, .f32⟩
  | .local _ .vmem, ⟨10, _⟩ => ⟨S1x64, .f32⟩
  | .local _ .vmem, ⟨11, _⟩ => ⟨S1x64, .f32⟩
  | .local _ .vmem, ⟨12, _⟩ => ⟨S1x64, .f32⟩
  | .local _ .vmem, ⟨13, _⟩ => ⟨S1x2048x64, .f32⟩
  | .local _ .vmem, ⟨14, _⟩ => ⟨S1x2048x64, .f32⟩
  | .local _ .vmem, ⟨15, _⟩ => ⟨S2048x64, .f32⟩
  | _, _ => ⟨S4x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v29 : BitVec 1 := Scalar.cmpi .eq arg2 c3_i32
  let v30 : BitVec 32 := Scalar.extui v29
  let c0_i32_21 : BitVec 32 := 0#32
  let v31 : BitVec 1 := Scalar.cmpi .ne v30 c0_i32_21
  v31

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x2048x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1x2048x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

class Facts₀ : Prop where
  reducesTo_S4x4096x3_S4x4096_d2 : S4x4096x3.ReducesTo [2] S4x4096
  h_S_ : 0 < S_.numel
  bcast_S4x4096_S4x4096x1_0_1 : S4x4096.BroadcastsInDim S4x4096x1 (![0, 1] : Fin 2 → Fin S4x4096x1.rank)
  bcast_S4x4096_S4x1x4096_0_2 : S4x4096.BroadcastsInDim S4x1x4096 (![0, 2] : Fin 2 → Fin S4x1x4096.rank)
  transposes_S64x4096_S4096x64_1_0 : S64x4096.Transposes [1, 0] S4096x64
  shapeCasts_S64_S1x64 : S64.ShapeCasts S1x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S1x2048x3_S1x2048x3_0_0_0 : ∀ a, (![0, 0, 0] : Fin 3 → Nat) a + S1x2048x3.size a ≤ S1x2048x3.size a
  h_S1x2048x3 : 0 < S1x2048x3.numel
  shapeCasts_S1x2048x3_S2048x3 : S1x2048x3.ShapeCasts S2048x3
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  inb_S1x2048x1_S1x2048x1_0_0_0 : ∀ a, (![0, 0, 0] : Fin 3 → Nat) a + S1x2048x1.size a ≤ S1x2048x1.size a
  h_S1x2048x1 : 0 < S1x2048x1.numel
  shapeCasts_S1x2048x1_S2048x1 : S1x2048x1.ShapeCasts S2048x1
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S2048x1_S2048x1024 : S2048x1.Broadcasts S2048x1024
  broadcasts_S1x1024_S2048x1024 : S1x1024.Broadcasts S2048x1024
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  reduces_S2048x64_S2048 : S2048x64.Reduces [1] S2048
  shapeCasts_S2048_S2048x1 : S2048.ShapeCasts S2048x1
  broadcasts_S2048x1_S2048x64 : S2048x1.Broadcasts S2048x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  shapeCasts_S2048x64_S1x2048x64 : S2048x64.ShapeCasts S1x2048x64
  dot_S2048x3_S1024x3_S2048x1024_1_1_0_0_n_n_wf : DotDims.WF S2048x3 S1024x3 S2048x1024 [1] [1] [0] [0] [] []
  dot_S2048x1024_S1024x64_S2048x64_1_0_0_1_n_n_wf : DotDims.WF S2048x1024 S1024x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x3.size a ≤ S4x4096x3.size a
  hwx0_0 : ∀ i : grid0.Coords, EltTy.bits .f32 = 32 ∨ (Rect.block (s := S4x4096x3) S1x2048x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x3.size a ≤ S4x4096x3.size a
  hwx0_1 : ∀ i : grid0.Coords, EltTy.bits .f32 = 32 ∨ (Rect.block (s := S4x4096x3) S1x1024x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x1.size a ≤ S4x4096x1.size a
  hwx0_2 : ∀ i : grid0.Coords, EltTy.bits .f32 = 32 ∨ (Rect.block (s := S4x4096x1) S1x2048x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024.size a ≤ S4x1x4096.size a
  hwx0_3 : ∀ i : grid0.Coords, EltTy.bits .f32 = 32 ∨ (Rect.block (s := S4x1x4096) S1x1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x64.size a ≤ S4096x64.size a
  hwx0_4 : ∀ i : grid0.Coords, EltTy.bits .f32 = 32 ∨ (Rect.block (s := S4096x64) S1024x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x2048x64.size a ≤ S4x4096x64.size a
  hwx0_8 : ∀ i : grid0.Coords, EltTy.bits .f32 = 32 ∨ (Rect.block (s := S4x4096x64) S1x2048x64.size (cc0_transform_8 i) (hinb0_8 i)).WholeWords (EltTy.packing .f32)

variable [Facts₀]

def dot_S2048x3_S1024x3_S2048x1024_1_1_0_0_n_n : DotDims S2048x3 S1024x3 S2048x1024 where
  lhsContracting := [1]
  rhsContracting := [1]
  lhsNonContracting := [0]
  rhsNonContracting := [0]
  lhsBatch := []
  rhsBatch := []
  wf := dot_S2048x3_S1024x3_S2048x1024_1_1_0_0_n_n_wf
def dot_S2048x1024_S1024x64_S2048x64_1_0_0_1_n_n : DotDims S2048x1024 S1024x64 S2048x64 where
  lhsContracting := [1]
  rhsContracting := [0]
  lhsNonContracting := [0]
  rhsNonContracting := [1]
  lhsBatch := []
  rhsBatch := []
  wf := dot_S2048x1024_S1024x64_S2048x64_1_0_0_1_n_n_wf

abbrev win0_0 : Pipeline.Window sig grid0 :=
  Pipeline.Window.ofSpec (Memref.whole main_arg0) S1x2048x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x1024x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1024x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S1x2048x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | ⟨_ + 9, h⟩ => absurd h (Nat.not_lt.2 (Nat.le_add_left _ _))

class Facts : Prop extends Facts₀ where

variable [Facts]
-- ==== ReferenceIdeal.lean ====
abbrev S4x4096x3 : Shape := ⟨3, ![4, 4096, 3]⟩
abbrev S64x4096 : Shape := ⟨2, ![64, 4096]⟩
abbrev S64 : Shape := ⟨1, ![64]⟩
abbrev S4x4096x1x3 : Shape := ⟨4, ![4, 4096, 1, 3]⟩
abbrev S4x1x4096x3 : Shape := ⟨4, ![4, 1, 4096, 3]⟩
abbrev S4x4096x4096x3 : Shape := ⟨4, ![4, 4096, 4096, 3]⟩
abbrev S_ : Shape := ⟨0, ![]⟩
abbrev S4x4096x4096 : Shape := ⟨3, ![4, 4096, 4096]⟩
abbrev S4x4096x64 : Shape := ⟨3, ![4, 4096, 64]⟩
abbrev S1x1x64 : Shape := ⟨3, ![1, 1, 64]⟩
abbrev S4x4096 : Shape := ⟨2, ![4, 4096]⟩
abbrev S4x4096x1 : Shape := ⟨3, ![4, 4096, 1]⟩

abbrev nBuf : Space → Nat
  | .hbm => 70
  | .vmem => 0
  | .smem => 0
  | _ => 0

abbrev bufTy : (tb : Table) → Fin (tcTables nBuf tb) → BufTy
  | .hbm, ⟨0, _⟩ => ⟨S4x4096x3, .f32⟩
  | .hbm, ⟨1, _⟩ => ⟨S64x4096, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S4x4096x1x3, .f32⟩
  | .hbm, ⟨6, _⟩ => ⟨S4x1x4096x3, .f32⟩
  | .hbm, ⟨7, _⟩ => ⟨S4x4096x4096x3, .f32⟩
  | .hbm, ⟨8, _⟩ => ⟨S4x4096x4096x3, .f32⟩
  | .hbm, ⟨9, _⟩ => ⟨S4x4096x4096x3, .f32⟩
  | .hbm, ⟨10, _⟩ => ⟨S4x4096x4096x3, .f32⟩
  | .hbm, ⟨11, _⟩ => ⟨S_, .f32⟩
  | .hbm, ⟨12, _⟩ => ⟨S4x4096x4096, .f32⟩
  | .hbm, ⟨13, _⟩ => ⟨S_, .f32⟩
  | .hbm, ⟨14, _⟩ => ⟨S4x4096x4096, .f32⟩
  | .hbm, ⟨15, _⟩ => ⟨S4x4096x4096, .i1⟩
  | .hbm, ⟨16, _⟩ => ⟨S_, .f32⟩
  | .hbm, ⟨17, _⟩ => ⟨S_, .f32⟩
  | .hbm, ⟨18, _⟩ => ⟨S4x4096x4096, .f32⟩
  | .hbm, ⟨19, _⟩ => ⟨S4x4096x4096, .f32⟩
  | .hbm, ⟨20, _⟩ => ⟨S_, .f32⟩
  | .hbm, ⟨21, _⟩ => ⟨S4x4096x4096, .f32⟩
  | .hbm, ⟨22, _⟩ => ⟨S4x4096x4096, .i1⟩
  | .hbm, ⟨23, _⟩ => ⟨S4x4096x4096, .f32⟩
  | .hbm, ⟨24, _⟩ => ⟨S_, .f32⟩
  | .hbm, ⟨25, _⟩ => ⟨S_, .f32⟩
  | .hbm, ⟨26, _⟩ => ⟨S4x4096x4096, .f32⟩
  | .hbm, ⟨27, _⟩ => ⟨S4x4096x4096, .f32⟩
  | .hbm, ⟨28, _⟩ => ⟨S4x4096x64, .f32⟩
  | .hbm, ⟨29, _⟩ => ⟨S1x1x64, .f32⟩
  | .hbm, ⟨30, _⟩ => ⟨S4x4096x64, .f32⟩
  | .hbm, ⟨31, _⟩ => ⟨S4x4096x64, .f32⟩
  | .hbm, ⟨32, _⟩ => ⟨S_, .f32⟩
  | .hbm, ⟨33, _⟩ => ⟨S4x4096, .f32⟩
  | .hbm, ⟨34, _⟩ => ⟨S4x4096x1, .f32⟩
  | .hbm, ⟨35, _⟩ => ⟨S_, .f32⟩
  | .hbm, ⟨36, _⟩ => ⟨S4x4096x1, .f32⟩
  | .hbm, ⟨37, _⟩ => ⟨S4x4096x1, .f32⟩
  | .hbm, ⟨38, _⟩ => ⟨S4x4096x64, .f32⟩
  | .hbm, ⟨39, _⟩ => ⟨S4x4096x64, .f32⟩
  | .hbm, ⟨40, _⟩ => ⟨S4x4096x64, .f32⟩
  | .hbm, ⟨41, _⟩ => ⟨S_, .f32⟩
  | .hbm, ⟨42, _⟩ => ⟨S4x4096, .f32⟩
  | .hbm, ⟨43, _⟩ => ⟨S4x4096x1, .f32⟩
  | .hbm, ⟨44, _⟩ => ⟨S_, .f32⟩
  | .hbm, ⟨45, _⟩ => ⟨S4x4096x1, .f32⟩
  | .hbm, ⟨46, _⟩ => ⟨S4x4096x1, .f32⟩
  | .hbm, ⟨47, _⟩ => ⟨S4x4096x64, .f32⟩
  | .hbm, ⟨48, _⟩ => ⟨S4x4096x64, .f32⟩
  | .hbm, ⟨49, _⟩ => ⟨S_, .f32⟩
  | .hbm, ⟨50, _⟩ => ⟨S4x4096x1, .f32⟩
  | .hbm, ⟨51, _⟩ => ⟨S4x4096x1, .f32⟩
  | .hbm, ⟨52, _⟩ => ⟨S4x4096x1, .f32⟩
  | .hbm, ⟨53, _⟩ => ⟨S4x4096x64, .f32⟩
  | .hbm, ⟨54, _⟩ => ⟨S4x4096x64, .f32⟩
  | .hbm, ⟨55, _⟩ => ⟨S1x1x64, .f32⟩
  | .hbm, ⟨56, _⟩ => ⟨S4x4096x64, .f32⟩
  | .hbm, ⟨57, _⟩ => ⟨S4x4096x64, .f32⟩
  | .hbm, ⟨58, _⟩ => ⟨S1x1x64, .f32⟩
  | .hbm, ⟨59, _⟩ => ⟨S4x4096x64, .f32⟩
  | .hbm, ⟨60, _⟩ => ⟨S4x4096x64, .f32⟩
  | .hbm, ⟨61, _⟩ => ⟨S4x4096x64, .f32⟩
  | .hbm, ⟨62, _⟩ => ⟨S4x4096x64, .f32⟩
  | .hbm, ⟨63, _⟩ => ⟨S_, .f32⟩
  | .hbm, ⟨64, _⟩ => ⟨S4x4096x64, .f32⟩
  | .hbm, ⟨65, _⟩ => ⟨S4x4096x64, .f32⟩
  | .hbm, ⟨66, _⟩ => ⟨S_, .f32⟩
  | .hbm, ⟨67, _⟩ => ⟨S4x4096x64, .f32⟩
  | .hbm, ⟨68, _⟩ => ⟨S4x4096x64, .f32⟩
  | .hbm, ⟨69, _⟩ => ⟨S4x4096x64, .f32⟩
  | _, _ => ⟨S4x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_call1_v0 : Ref sig .tc := ⟨.hbm, 25, rfl⟩
abbrev main_call1_v1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_6 : Ref sig .tc := ⟨.hbm, 41, rfl⟩
abbrev main_v25 : Ref sig .tc := ⟨.hbm, 42, rfl⟩
abbrev main_v26 : Ref sig .tc := ⟨.hbm, 43, rfl⟩
abbrev main_cst_7 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_8 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_9 : Ref sig .tc := ⟨.hbm, 63, rfl⟩
abbrev main_v44 : Ref sig .tc := ⟨.hbm, 64, rfl⟩
abbrev main_v45 : Ref sig .tc := ⟨.hbm, 65, rfl⟩
abbrev main_cst_10 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩

abbrev nD : Nat := 1
abbrev τ : Topo := Topo.v7x

variable {F : FTy → Type} [FloatOps F]

class Facts₀ : Prop where
  bcast_S4x4096x3_S4x4096x1x3_0_1_3 : S4x4096x3.BroadcastsInDim S4x4096x1x3 (![0, 1, 3] : Fin 3 → Fin S4x4096x1x3.rank)
  bcast_S4x4096x3_S4x1x4096x3_0_2_3 : S4x4096x3.BroadcastsInDim S4x1x4096x3 (![0, 2, 3] : Fin 3 → Fin S4x1x4096x3.rank)
  bcast_S4x4096x1x3_S4x4096x4096x3_0_1_2_3 : S4x4096x1x3.BroadcastsInDim S4x4096x4096x3 (![0, 1, 2, 3] : Fin 4 → Fin S4x4096x4096x3.rank)
  bcast_S4x1x4096x3_S4x4096x4096x3_0_1_2_3 : S4x1x4096x3.BroadcastsInDim S4x4096x4096x3 (![0, 1, 2, 3] : Fin 4 → Fin S4x4096x4096x3.rank)
  reducesTo_S4x4096x4096x3_S4x4096x4096_d3 : S4x4096x4096x3.ReducesTo [3] S4x4096x4096
  h_S_ : 0 < S_.numel
  bcast_S_S4x4096x4096 : S_.BroadcastsInDim S4x4096x4096 (![] : Fin 0 → Fin S4x4096x4096.rank)
  bcast_S64_S1x1x64_2 : S64.BroadcastsInDim S1x1x64 (![2] : Fin 1 → Fin S1x1x64.rank)
  bcast_S1x1x64_S4x4096x64_0_1_2 : S1x1x64.BroadcastsInDim S4x4096x64 (![0, 1, 2] : Fin 3 → Fin S4x4096x64.rank)
  reducesTo_S4x4096x64_S4x4096_d2 : S4x4096x64.ReducesTo [2] S4x4096
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4x4096x1_S4x4096x64_0_1_2 : S4x4096x1.BroadcastsInDim S4x4096x64 (![0, 1, 2] : Fin 3 → Fin S4x4096x64.rank)
  bcast_S_S4x4096x64 : S_.BroadcastsInDim S4x4096x64 (![] : Fin 0 → Fin S4x4096x64.rank)
  dot_S4x4096x4096_S64x4096_S4x4096x64_2_1_01_0_n_n_wf : DotDims.WF S4x4096x4096 S64x4096 S4x4096x64 [2] [1] [0, 1] [0] [] []

variable [Facts₀]

def dot_S4x4096x4096_S64x4096_S4x4096x64_2_1_01_0_n_n : DotDims S4x4096x4096 S64x4096 S4x4096x64 where
  lhsContracting := [2]
  rhsContracting := [1]
  lhsNonContracting := [0, 1]
  rhsNonContracting := [0]
  lhsBatch := []
  rhsBatch := []
  wf := dot_S4x4096x4096_S64x4096_S4x4096x64_2_1_01_0_n_n_wf

class Facts : Prop extends Facts₀ where

variable [Facts]
-- ==== Proof.K.Kit.lean ====
/-
  What the runs of the kernel's body and the launch share, for the kernel as printed, at any float instance.

  The region is entered after nine host operations (the squared norms of the points, their two column/row
  layouts, the transposed weights and the three reshaped feature vectors); `V` is what the buffers hold there.
  The grid has 4 · 2 · 4 = 32 points (batch, row tile, column tile), the column tile innermost. The body
  zeroes its accumulator where the column tile is 0, adds one tile's partial product at every point, and
  writes the normalised, activated rows to the output where the column tile is 3 — the only points at which
  the output block is written back.
-/
import proofs.«178833_j3178275799379_2_alg».proof.Proof.Gen.Kernel.Launch
import proofs.«178833_j3178275799379_2_alg».proof.Proof.Gen.Kernel.Skeleton
import proofs.«178833_j3178275799379_2_alg».proof.Proof.Gen.Kernel.Points
import Idealize.ShloMosaic.Lib.Pipeline.FrameBody
import Idealize.ShloMosaic.Lib.Pipeline.Frame
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- What core `c`'s buffers hold when the region is entered: the initial memory after the nine host operations. -/
abbrev V (c : Dev nD) (b : Ref sig .tc) : Buf (Elt F) ((c : Thread nD τ).loc b) :=
  StableHlo.after hostOps0 (fun b => m (c, b)) (Proc.devRef .tc b)

/-- The host operations allocate nothing. -/
theorem hostOps0_fresh : (hostOps0 : List (HloOp τ sig (Elt F))).Forall fun op => op.fresh = ∅ := by
  simp only [List.Forall]; repeat' constructor

/-- The program is its host operations followed by the region. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's two branch conditions, decided over the grid -/

/-- The body zeroes its accumulator: the column-tile coordinate is 0. -/
abbrev cond0 (i : grid0.Coords) : Prop :=
  (Scalar.cmpi .ne (Scalar.extui (Scalar.cmpi .eq (BitVec.ofNat 32 (i 2).val) 0#32)) 0#32) = 1#1
theorem hcond0 : ∀ t : Fin cfg0.N, cond0 (grid0.coords t) ↔ t.val % 4 = 0 :=
  (by decide +kernel : ∀ t : Fin grid0.N, cond0 (grid0.coords t) ↔ t.val % 4 = 0)

/-- The body finishes a row tile: the column-tile coordinate is 3. -/
abbrev cond1 (i : grid0.Coords) : Prop := k0_cond2 i = 1#1
theorem hcond1 : ∀ t : Fin cfg0.N, cond1 (grid0.coords t) ↔ t.val % 4 = 3 :=
  (by decide +kernel : ∀ t : Fin grid0.N, cond1 (grid0.coords t) ↔ t.val % 4 = 3)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
theorem live7 : ∀ t : Fin cfg0.N, cfg0.idle 7 (grid0.coords t) = false := by decide +kernel
/-- Off the last column tile the output window is idle and not written back; on it, it is live. -/
theorem idle8 : ∀ t : Fin cfg0.N, ¬cond1 (grid0.coords t) → cfg0.idle 8 (grid0.coords t) = true := by decide +kernel
theorem noFlush8 : ∀ t : Fin cfg0.N, ¬cond1 (grid0.coords t) → (cfg0.win 8).flush t = false := by decide +kernel
theorem live8 : ∀ t : Fin cfg0.N, cond1 (grid0.coords t) → cfg0.idle 8 (grid0.coords t) = false := by decide +kernel

/-! ## The staging memrefs the body is called with -/

abbrev ms0 (t : Fin cfg0.N) : Memref sig .tc .vmem S1x2048x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1024x3 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x2048x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x64 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x64 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x64 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x64 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x2048x64 .f32 := win0_8.stage (cfg0.slots t 8)
abbrev hs8 (t : Fin cfg0.N) : (ms8 t).IsWhole := hstage0_8 ((cfg0.slots t 8).cast nbuf0_8)
/-- The accumulator: a whole scoped buffer of the kernel's own. -/
abbrev scM : Memref sig .tc .vmem S2048x64 .f32 := Memref.whole cc0_scratch0

/-- The scoped buffers the pipeline does not stage are the accumulator alone, owned at some contents. -/
theorem scopedRest_eq (c : Dev nD) :
    (Pipeline.scopedRest spec0 c : sProp 𝕄) = iprop(∃ d, owns (c : Thread nD τ) scM fullShare d) := by
  rw [scopedRest0_eq]; simp only [scM, owns_whole]; try rfl

end Cert.Kernel.Hand

end
-- ==== Proof.K.Run.lean ====
/-
  The kernel's body run on whole staging buffers, once per control case (the column-tile coordinate 0, 1–2, or 3).
  Each run says: given the input buffers at their contents (and the accumulator at what the point before left, or at
  anything where the body first zeroes it), the body runs to its end, leaves every input buffer as it was, and leaves
  each buffer it stored into holding the pieces its stores wrote, in the order of the stores.
-/
import proofs.«178833_j3178275799379_2_alg».proof.Proof.K.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The first column tile: the accumulator, whatever it held, is zeroed and then takes this tile's partial product. -/
noncomputable def runA (c : Dev nD) (i : grid0.Coords) (arg3 : Memref sig .tc .vmem S1x2048x3 .f32) (harg3 : arg3.IsWhole) (arg4 : Memref sig .tc .vmem S1x1024x3 .f32) (harg4 : arg4.IsWhole) (arg5 : Memref sig .tc .vmem S1x2048x1 .f32) (harg5 : arg5.IsWhole) (arg6 : Memref sig .tc .vmem S1x1x1024 .f32) (harg6 : arg6.IsWhole) (arg7 : Memref sig .tc .vmem S1024x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x2048x64 .f32) (harg11 : arg11.IsWhole) (arg12 : Memref sig .tc .vmem S2048x64 .f32) (harg12 : arg12.IsWhole) (hc0 : cond0 i) (hc1 : ¬cond1 i)
    (x0 : Vec F S1x2048x3 .f32) (x1 : Vec F S1x1024x3 .f32) (x2 : Vec F S1x2048x1 .f32) (x3 : Vec F S1x1x1024 .f32) (x4 : Vec F S1024x64 .f32) :
    { LS : List (View.Piece (Elt F) S2048x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg12.view.loc (c : Thread nD τ) ↦[arg12.view.set]{fullShare} arg12.view.writes (Elt F) f LS)) -∗ K ⟨⟩))
          ⊢ wp frame (wpE (defs₀ (F := F)) Variants.none c none) E (cc0__kernel i arg3 harg3 arg4 harg4 arg5 harg5 arg6 harg6 arg7 harg7 arg8 harg8 arg9 harg9 arg10 harg10 arg11 harg11 arg12 harg12) K } := by
  refine ⟨?_, fun E K => ?run⟩
  case run =>
    simp only [cc0__kernel_eq_skeleton]; unfold cc0__kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg3.eq_unread hf0; obtain rfl := harg4.eq_unread hf1; obtain rfl := harg5.eq_unread hf2
    obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS

set_option maxHeartbeats 4000000 in
/-- A middle column tile: the accumulator takes what it held plus this tile's partial product. -/
noncomputable def runB (c : Dev nD) (i : grid0.Coords) (arg3 : Memref sig .tc .vmem S1x2048x3 .f32) (harg3 : arg3.IsWhole) (arg4 : Memref sig .tc .vmem S1x1024x3 .f32) (harg4 : arg4.IsWhole) (arg5 : Memref sig .tc .vmem S1x2048x1 .f32) (harg5 : arg5.IsWhole) (arg6 : Memref sig .tc .vmem S1x1x1024 .f32) (harg6 : arg6.IsWhole) (arg7 : Memref sig .tc .vmem S1024x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x2048x64 .f32) (harg11 : arg11.IsWhole) (arg12 : Memref sig .tc .vmem S2048x64 .f32) (harg12 : arg12.IsWhole) (hc0 : ¬cond0 i) (hc1 : ¬cond1 i)
    (x0 : Vec F S1x2048x3 .f32) (x1 : Vec F S1x1024x3 .f32) (x2 : Vec F S1x2048x1 .f32) (x3 : Vec F S1x1x1024 .f32) (x4 : Vec F S1024x64 .f32) (xs : Vec F S2048x64 .f32) :
    { LS : List (View.Piece (Elt F) S2048x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg12 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg12.view.loc (c : Thread nD τ) ↦[arg12.view.set]{fullShare} arg12.view.writes (Elt F) f LS)) -∗ K ⟨⟩))
          ⊢ wp frame (wpE (defs₀ (F := F)) Variants.none c none) E (cc0__kernel i arg3 harg3 arg4 harg4 arg5 harg5 arg6 harg6 arg7 harg7 arg8 harg8 arg9 harg9 arg10 harg10 arg11 harg11 arg12 harg12) K } := by
  refine ⟨?_, fun E K => ?run⟩
  case run =>
    simp only [cc0__kernel_eq_skeleton]; unfold cc0__kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg3.eq_unread hf0; obtain rfl := harg4.eq_unread hf1; obtain rfl := harg5.eq_unread hf2
    obtain rfl := harg6.eq_unread hf3; obtain rfl := harg7.eq_unread hf4; obtain rfl := harg12.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS

set_option maxHeartbeats 8000000 in
/-- The last column tile: the accumulator takes this tile's partial product, and the output buffer takes the
    normalised, activated rows computed from the accumulator and the three feature vectors. -/
noncomputable def runC (c : Dev nD) (i : grid0.Coords) (arg3 : Memref sig .tc .vmem S1x2048x3 .f32) (harg3 : arg3.IsWhole) (arg4 : Memref sig .tc .vmem S1x1024x3 .f32) (harg4 : arg4.IsWhole) (arg5 : Memref sig .tc .vmem S1x2048x1 .f32) (harg5 : arg5.IsWhole) (arg6 : Memref sig .tc .vmem S1x1x1024 .f32) (harg6 : arg6.IsWhole) (arg7 : Memref sig .tc .vmem S1024x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x2048x64 .f32) (harg11 : arg11.IsWhole) (arg12 : Memref sig .tc .vmem S2048x64 .f32) (harg12 : arg12.IsWhole) (hc0 : ¬cond0 i) (hc1 : cond1 i)
    (x0 : Vec F S1x2048x3 .f32) (x1 : Vec F S1x1024x3 .f32) (x2 : Vec F S1x2048x1 .f32) (x3 : Vec F S1x1x1024 .f32) (x4 : Vec F S1024x64 .f32) (x5 : Vec F S1x64 .f32) (x6 : Vec F S1x64 .f32) (x7 : Vec F S1x64 .f32) (xs : Vec F S2048x64 .f32) :
    Σ' (L8 : List (View.Piece (Elt F) S1x2048x64 .f32)), { LS : List (View.Piece (Elt F) S2048x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ owns (c : Thread nD τ) arg12 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f LS)) -∗ K ⟨⟩))
          ⊢ wp frame (wpE (defs₀ (F := F)) Variants.none c none) E (cc0__kernel i arg3 harg3 arg4 harg4 arg5 harg5 arg6 harg6 arg7 harg7 arg8 harg8 arg9 harg9 arg10 harg10 arg11 harg11 arg12 harg12) K } := by
  refine ⟨?_, ?_, fun E K => ?run⟩
  case run =>
    simp only [cc0__kernel_eq_skeleton]; unfold cc0__kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs, %hfs, HS⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg9.eq_unread hf6; obtain rfl := harg10.eq_unread hf7; obtain rfl := harg12.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]; · iexists _; iexact H8
    iexists _; iexact HS

end Cert.Kernel.Hand

end
-- ==== Proof.K.Data.lean ====
/-
  What the kernel leaves, point by point, and the launch's proof data.

  The accumulator after point `n`: this point's update applied to the zero block where the column tile is 0
  (`n % 4 = 0`), and to what the point before left otherwise. The output block after a point on the last column
  tile (`n % 4 = 3`): the epilogue applied to the accumulator just updated and the three feature vectors.
  The points array feeds two windows (the row tile and the column tile): each holds half of its share.
-/
import proofs.«178833_j3178275799379_2_alg».proof.Proof.K.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The accumulator and the output block after each point -/

/-- The accumulator after the body at point `n`. -/
def accAt (c : Dev nD) : (n : ℕ) → n < cfg0.N → Vec F S2048x64 .f32
  | 0, hn => k0_pay3 (iblk m c 0 ⟨0, hn⟩) (iblk m c 1 ⟨0, hn⟩) (iblk m c 2 ⟨0, hn⟩) (iblk m c 3 ⟨0, hn⟩) (iblk m c 4 ⟨0, hn⟩) (k0_pay2 (F := F))
  | n + 1, hn =>
    if (n + 1) % 4 = 0 then k0_pay3 (iblk m c 0 ⟨n + 1, hn⟩) (iblk m c 1 ⟨n + 1, hn⟩) (iblk m c 2 ⟨n + 1, hn⟩) (iblk m c 3 ⟨n + 1, hn⟩) (iblk m c 4 ⟨n + 1, hn⟩) (k0_pay2 (F := F))
    else k0_pay3 (iblk m c 0 ⟨n + 1, hn⟩) (iblk m c 1 ⟨n + 1, hn⟩) (iblk m c 2 ⟨n + 1, hn⟩) (iblk m c 3 ⟨n + 1, hn⟩) (iblk m c 4 ⟨n + 1, hn⟩) (accAt c n (Nat.lt_of_succ_lt hn))

theorem accAt_first (c : Dev nD) (t : Fin cfg0.N) (h0 : t.val % 4 = 0) :
    accAt m c t.val t.isLt = k0_pay3 (iblk m c 0 t) (iblk m c 1 t) (iblk m c 2 t) (iblk m c 3 t) (iblk m c 4 t) (k0_pay2 (F := F)) := by
  obtain ⟨n, hn⟩ := t
  cases n with
  | zero => rfl
  | succ n => exact if_pos h0

theorem accAt_next (c : Dev nD) (t : Fin cfg0.N) (h0 : ¬t.val % 4 = 0) :
    accAt m c t.val t.isLt = k0_pay3 (iblk m c 0 t) (iblk m c 1 t) (iblk m c 2 t) (iblk m c 3 t) (iblk m c 4 t) (accAt m c (t.val - 1) (Nat.lt_of_le_of_lt (Nat.sub_le _ _) t.isLt)) := by
  obtain ⟨n, hn⟩ := t
  cases n with
  | zero => exact absurd (Nat.zero_mod _) h0
  | succ n => exact if_neg h0

/-- The output block the body stores at a point on the last column tile. -/
def outAt (c : Dev nD) (t : Fin cfg0.N) : Vec F S1x2048x64 .f32 :=
  k0_pay1 (accAt m c t.val t.isLt) (iblk m c 5 t) (iblk m c 6 t) (iblk m c 7 t)

/-! ## The invariant: the accumulator between points -/

/-- Before the first point the accumulator holds anything; before point `n + 1`, what point `n` left. -/
def PhiS (c : Dev nD) : (n : ℕ) → n ≤ cfg0.N → sProp 𝕄
  | 0, _ => iprop(∃ d, owns (c : Thread nD τ) scM fullShare d)
  | n + 1, hn => owns (c : Thread nD τ) scM fullShare (accAt m c n hn)

theorem PhiS_zero (c : Dev nD) (n : ℕ) (h : n ≤ cfg0.N) (hz : n = 0) :
    PhiS m c n h = iprop(∃ d, owns (c : Thread nD τ) scM fullShare d) := by
  subst hz; rfl

theorem PhiS_succ (c : Dev nD) (n : ℕ) (hn : n < cfg0.N) :
    PhiS m c (n + 1) hn = owns (c : Thread nD τ) scM fullShare (accAt m c n hn) := rfl

theorem PhiS_pos (c : Dev nD) (n : ℕ) (h : n ≤ cfg0.N) (hz : n ≠ 0) :
    PhiS m c n h = owns (c : Thread nD τ) scM fullShare (accAt m c (n - 1) (by omega)) := by
  cases n with
  | zero => exact absurd rfl hz
  | succ n => rfl

/-! ## The proof data -/

/-- The arrays as the region finds them; after the body each input's buffer still at its block, the output's at the
    stored block; the accumulator carried by the invariant; nothing owed; the points array's share halved between
    its two windows, every other array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt m c t
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = outAt m c t := by dsimp only [dats]

/-! ## Each input's buffer holds its block at every point, fetched there or not -/

theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl)
    (fun t => by rw [after4]; unfold Dat.blockOf iblk; rw [A_eq]; try rfl) t d).trans
    (by unfold Dat.fetched Dat.blockOf iblk; rw [A_eq]; try rfl)
theorem before5 (c : Dev nD) (t : Fin cfg0.N) (d) : (dats m 0 c).before 5 t d = iblk m c 5 t :=
  ((dats m 0 c).before_in_eq_fetched 5 rfl (fun _ => rfl) (fun _ _ _ => rfl)
    (fun t => by rw [after5]; unfold Dat.blockOf iblk; rw [A_eq]; try rfl) t d).trans
    (by unfold Dat.fetched Dat.blockOf iblk; rw [A_eq]; try rfl)
theorem before6 (c : Dev nD) (t : Fin cfg0.N) (d) : (dats m 0 c).before 6 t d = iblk m c 6 t :=
  ((dats m 0 c).before_in_eq_fetched 6 rfl (fun _ => rfl) (fun _ _ _ => rfl)
    (fun t => by rw [after6]; unfold Dat.blockOf iblk; rw [A_eq]; try rfl) t d).trans
    (by unfold Dat.fetched Dat.blockOf iblk; rw [A_eq]; try rfl)
theorem before7 (c : Dev nD) (t : Fin cfg0.N) (d) : (dats m 0 c).before 7 t d = iblk m c 7 t :=
  ((dats m 0 c).before_in_eq_fetched 7 rfl (fun _ => rfl) (fun _ _ _ => rfl)
    (fun t => by rw [after7]; unfold Dat.blockOf iblk; rw [A_eq]; try rfl) t d).trans
    (by unfold Dat.fetched Dat.blockOf iblk; rw [A_eq]; try rfl)

end Cert.Kernel.Hand

end
-- ==== Proof.LibCoveredLoad.lean ====
/-
  A load of a whole block, after a list of stores whose LAST store covers the whole block, reads that last store's
  payload, whatever the earlier stores were: an accumulator that is stored whole and read back whole, again and again.
  (The library has the case of a single store; this is the same with any earlier stores under it.)
-/
import Idealize.ShloMosaic.Lib.Pipeline.Value

noncomputable section

namespace Idealize.ShloMosaic.View

open Idealize.ShloMosaic

/-- A load through the whole-shape rectangle at zero offsets, of what a list of stores left whose last store went through
    that same rectangle, reads the last store's payload. -/
theorem readCov_cons_unit_zero {Val : EltTy → Type} [∀ e, Nonempty (Val e)] {S : Shape} {e : EltTy} {sig : RefSig}
    {κ : Kind} {sp : Space} (v : View sig κ sp S e) {off : Fin S.rank → Nat} (h : off = fun _ => 0)
    (inb : ∀ a, off a + S.size a ≤ S.size a) (w : S.Idx → Val e) (L : List (Piece Val S e)) :
    v.readCov ((⟨Rect.unit off S.size inb, w⟩ : Piece Val S e) :: L) (Rect.unit off S.size inb).toLoadRect = w := by
  subst h
  rw [readCov_eq_canon_ld _ _ _ (fun y => ⟨_, List.mem_cons_self, by
    show y ∈ (Rect.whole S).set; rw [Rect.set_whole]; exact Finset.mem_univ y⟩), canon_cons_unit_zero rfl, ld_unit_zero rfl]

end Idealize.ShloMosaic.View

end
-- ==== Proof.K.Pieces.lean ====
/-
  What the body's stores leave, read back: in each control case the accumulator ends holding the update applied to the
  loaded blocks (over the zero block where the body first zeroes it), and on the last column tile the output buffer ends
  holding the epilogue of that updated accumulator. Each buffer is stored whole, so its contents are its last store's value.
-/
import proofs.«178833_j3178275799379_2_alg».proof.Proof.K.Run
import proofs.«178833_j3178275799379_2_alg».proof.Proof.LibCoveredLoad
import Idealize.ShloMosaic.Lib.Ring

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → ℕ) = fun _ => 0 := by funext a; fin_cases a <;> rfl
theorem hz3 : (![0, 0, 0] : Fin 3 → ℕ) = fun _ => 0 := by funext a; fin_cases a <;> rfl

/-! ## A middle column tile -/

theorem runB_cover (c : Dev nD) (i : grid0.Coords) (arg3 : Memref sig .tc .vmem S1x2048x3 .f32) (harg3 : arg3.IsWhole) (arg4 : Memref sig .tc .vmem S1x1024x3 .f32) (harg4 : arg4.IsWhole) (arg5 : Memref sig .tc .vmem S1x2048x1 .f32) (harg5 : arg5.IsWhole) (arg6 : Memref sig .tc .vmem S1x1x1024 .f32) (harg6 : arg6.IsWhole) (arg7 : Memref sig .tc .vmem S1024x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x2048x64 .f32) (harg11 : arg11.IsWhole) (arg12 : Memref sig .tc .vmem S2048x64 .f32) (harg12 : arg12.IsWhole) (hc0 : ¬cond0 i) (hc1 : ¬cond1 i)
    (x0 : Vec F S1x2048x3 .f32) (x1 : Vec F S1x1024x3 .f32) (x2 : Vec F S1x2048x1 .f32) (x3 : Vec F S1x1x1024 .f32) (x4 : Vec F S1024x64 .f32) (xs : Vec F S2048x64 .f32) (y : S2048x64.Idx) :
    ∃ pc ∈ (runB c i arg3 harg3 arg4 harg4 arg5 harg5 arg6 harg6 arg7 harg7 arg8 harg8 arg9 harg9 arg10 harg10 arg11 harg11 arg12 harg12 hc0 hc1 x0 x1 x2 x3 x4 xs).1, y ∈ pc.1.set :=
  View.cover_of_tiledL (runB c i arg3 harg3 arg4 harg4 arg5 harg5 arg6 harg6 arg7 harg7 arg8 harg8 arg9 harg9 arg10 harg10 arg11 harg11 arg12 harg12 hc0 hc1 x0 x1 x2 x3 x4 xs).1 S2048x64.size (by sl_kernel_rfl) y

theorem runB_read (c : Dev nD) (i : grid0.Coords) (arg3 : Memref sig .tc .vmem S1x2048x3 .f32) (harg3 : arg3.IsWhole) (arg4 : Memref sig .tc .vmem S1x1024x3 .f32) (harg4 : arg4.IsWhole) (arg5 : Memref sig .tc .vmem S1x2048x1 .f32) (harg5 : arg5.IsWhole) (arg6 : Memref sig .tc .vmem S1x1x1024 .f32) (harg6 : arg6.IsWhole) (arg7 : Memref sig .tc .vmem S1024x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x2048x64 .f32) (harg11 : arg11.IsWhole) (arg12 : Memref sig .tc .vmem S2048x64 .f32) (harg12 : arg12.IsWhole) (hc0 : ¬cond0 i) (hc1 : ¬cond1 i)
    (x0 : Vec F S1x2048x3 .f32) (x1 : Vec F S1x1024x3 .f32) (x2 : Vec F S1x2048x1 .f32) (x3 : Vec F S1x1x1024 .f32) (x4 : Vec F S1024x64 .f32) (xs : Vec F S2048x64 .f32) (v : View sig .tc .vmem S2048x64 .f32) (f : v.ty.Contents (Elt F)) :
    v.read (Elt F) (v.writes (Elt F) f (runB c i arg3 harg3 arg4 harg4 arg5 harg5 arg6 harg6 arg7 harg7 arg8 harg8 arg9 harg9 arg10 harg10 arg11 harg11 arg12 harg12 hc0 hc1 x0 x1 x2 x3 x4 xs).1) = k0_pay3 x0 x1 x2 x3 x4 xs := by
  rw [View.read_writes_eq_canon _ _ _ (runB_cover c i arg3 harg3 arg4 harg4 arg5 harg5 arg6 harg6 arg7 harg7 arg8 harg8 arg9 harg9 arg10 harg10 arg11 harg11 arg12 harg12 hc0 hc1 x0 x1 x2 x3 x4 xs)]
  unfold runB; dsimp only; sl_unfold_words
  rw [View.canon_unit_zero hz2]
  simp only [View.readAt_eq_ld, harg3.read_unread, harg4.read_unread, harg5.read_unread, harg6.read_unread, harg7.read_unread, harg8.read_unread, harg9.read_unread, harg10.read_unread, harg12.read_unread,
    View.ld_unit_zero (S := S1x2048x3) hz3, View.ld_unit_zero (S := S1x1024x3) hz3, View.ld_unit_zero (S := S1x2048x1) hz3, View.ld_unit_zero (S := S1x1x1024) hz3,
    View.ld_unit_zero (S := S1024x64) hz2, View.ld_unit_zero (S := S2048x64) hz2, View.ld_unit_zero (S := S1x64) hz2]

/-! ## The first column tile -/

theorem runA_cover (c : Dev nD) (i : grid0.Coords) (arg3 : Memref sig .tc .vmem S1x2048x3 .f32) (harg3 : arg3.IsWhole) (arg4 : Memref sig .tc .vmem S1x1024x3 .f32) (harg4 : arg4.IsWhole) (arg5 : Memref sig .tc .vmem S1x2048x1 .f32) (harg5 : arg5.IsWhole) (arg6 : Memref sig .tc .vmem S1x1x1024 .f32) (harg6 : arg6.IsWhole) (arg7 : Memref sig .tc .vmem S1024x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x2048x64 .f32) (harg11 : arg11.IsWhole) (arg12 : Memref sig .tc .vmem S2048x64 .f32) (harg12 : arg12.IsWhole) (hc0 : cond0 i) (hc1 : ¬cond1 i)
    (x0 : Vec F S1x2048x3 .f32) (x1 : Vec F S1x1024x3 .f32) (x2 : Vec F S1x2048x1 .f32) (x3 : Vec F S1x1x1024 .f32) (x4 : Vec F S1024x64 .f32) (y : S2048x64.Idx) :
    ∃ pc ∈ (runA c i arg3 harg3 arg4 harg4 arg5 harg5 arg6 harg6 arg7 harg7 arg8 harg8 arg9 harg9 arg10 harg10 arg11 harg11 arg12 harg12 hc0 hc1 x0 x1 x2 x3 x4).1, y ∈ pc.1.set :=
  View.cover_of_tiledL (runA c i arg3 harg3 arg4 harg4 arg5 harg5 arg6 harg6 arg7 harg7 arg8 harg8 arg9 harg9 arg10 harg10 arg11 harg11 arg12 harg12 hc0 hc1 x0 x1 x2 x3 x4).1 S2048x64.size (by sl_kernel_rfl) y

theorem runA_read (c : Dev nD) (i : grid0.Coords) (arg3 : Memref sig .tc .vmem S1x2048x3 .f32) (harg3 : arg3.IsWhole) (arg4 : Memref sig .tc .vmem S1x1024x3 .f32) (harg4 : arg4.IsWhole) (arg5 : Memref sig .tc .vmem S1x2048x1 .f32) (harg5 : arg5.IsWhole) (arg6 : Memref sig .tc .vmem S1x1x1024 .f32) (harg6 : arg6.IsWhole) (arg7 : Memref sig .tc .vmem S1024x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x2048x64 .f32) (harg11 : arg11.IsWhole) (arg12 : Memref sig .tc .vmem S2048x64 .f32) (harg12 : arg12.IsWhole) (hc0 : cond0 i) (hc1 : ¬cond1 i)
    (x0 : Vec F S1x2048x3 .f32) (x1 : Vec F S1x1024x3 .f32) (x2 : Vec F S1x2048x1 .f32) (x3 : Vec F S1x1x1024 .f32) (x4 : Vec F S1024x64 .f32) (v : View sig .tc .vmem S2048x64 .f32) (f : v.ty.Contents (Elt F)) :
    v.read (Elt F) (v.writes (Elt F) f (runA c i arg3 harg3 arg4 harg4 arg5 harg5 arg6 harg6 arg7 harg7 arg8 harg8 arg9 harg9 arg10 harg10 arg11 harg11 arg12 harg12 hc0 hc1 x0 x1 x2 x3 x4).1) = k0_pay3 x0 x1 x2 x3 x4 (k0_pay2 (F := F)) := by
  rw [View.read_writes_eq_canon _ _ _ (runA_cover c i arg3 harg3 arg4 harg4 arg5 harg5 arg6 harg6 arg7 harg7 arg8 harg8 arg9 harg9 arg10 harg10 arg11 harg11 arg12 harg12 hc0 hc1 x0 x1 x2 x3 x4)]
  unfold runA; dsimp only; sl_unfold_words
  rw [View.canon_cons_unit_zero hz2]
  simp only [View.readCov_unit_zero (S := S2048x64) arg12.view hz2, View.readAt_eq_ld, harg3.read_unread, harg4.read_unread, harg5.read_unread, harg6.read_unread, harg7.read_unread, harg8.read_unread, harg9.read_unread, harg10.read_unread, harg12.read_unread,
    View.ld_unit_zero (S := S1x2048x3) hz3, View.ld_unit_zero (S := S1x1024x3) hz3, View.ld_unit_zero (S := S1x2048x1) hz3, View.ld_unit_zero (S := S1x1x1024) hz3,
    View.ld_unit_zero (S := S1024x64) hz2, View.ld_unit_zero (S := S2048x64) hz2, View.ld_unit_zero (S := S1x64) hz2]

/-! ## The last column tile -/

theorem runC_coverS (c : Dev nD) (i : grid0.Coords) (arg3 : Memref sig .tc .vmem S1x2048x3 .f32) (harg3 : arg3.IsWhole) (arg4 : Memref sig .tc .vmem S1x1024x3 .f32) (harg4 : arg4.IsWhole) (arg5 : Memref sig .tc .vmem S1x2048x1 .f32) (harg5 : arg5.IsWhole) (arg6 : Memref sig .tc .vmem S1x1x1024 .f32) (harg6 : arg6.IsWhole) (arg7 : Memref sig .tc .vmem S1024x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x2048x64 .f32) (harg11 : arg11.IsWhole) (arg12 : Memref sig .tc .vmem S2048x64 .f32) (harg12 : arg12.IsWhole) (hc0 : ¬cond0 i) (hc1 : cond1 i)
    (x0 : Vec F S1x2048x3 .f32) (x1 : Vec F S1x1024x3 .f32) (x2 : Vec F S1x2048x1 .f32) (x3 : Vec F S1x1x1024 .f32) (x4 : Vec F S1024x64 .f32) (x5 : Vec F S1x64 .f32) (x6 : Vec F S1x64 .f32) (x7 : Vec F S1x64 .f32) (xs : Vec F S2048x64 .f32) (y : S2048x64.Idx) :
    ∃ pc ∈ (runC c i arg3 harg3 arg4 harg4 arg5 harg5 arg6 harg6 arg7 harg7 arg8 harg8 arg9 harg9 arg10 harg10 arg11 harg11 arg12 harg12 hc0 hc1 x0 x1 x2 x3 x4 x5 x6 x7 xs).2.1, y ∈ pc.1.set :=
  View.cover_of_tiledL (runC c i arg3 harg3 arg4 harg4 arg5 harg5 arg6 harg6 arg7 harg7 arg8 harg8 arg9 harg9 arg10 harg10 arg11 harg11 arg12 harg12 hc0 hc1 x0 x1 x2 x3 x4 x5 x6 x7 xs).2.1 S2048x64.size (by sl_kernel_rfl) y

theorem runC_cover8 (c : Dev nD) (i : grid0.Coords) (arg3 : Memref sig .tc .vmem S1x2048x3 .f32) (harg3 : arg3.IsWhole) (arg4 : Memref sig .tc .vmem S1x1024x3 .f32) (harg4 : arg4.IsWhole) (arg5 : Memref sig .tc .vmem S1x2048x1 .f32) (harg5 : arg5.IsWhole) (arg6 : Memref sig .tc .vmem S1x1x1024 .f32) (harg6 : arg6.IsWhole) (arg7 : Memref sig .tc .vmem S1024x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x2048x64 .f32) (harg11 : arg11.IsWhole) (arg12 : Memref sig .tc .vmem S2048x64 .f32) (harg12 : arg12.IsWhole) (hc0 : ¬cond0 i) (hc1 : cond1 i)
    (x0 : Vec F S1x2048x3 .f32) (x1 : Vec F S1x1024x3 .f32) (x2 : Vec F S1x2048x1 .f32) (x3 : Vec F S1x1x1024 .f32) (x4 : Vec F S1024x64 .f32) (x5 : Vec F S1x64 .f32) (x6 : Vec F S1x64 .f32) (x7 : Vec F S1x64 .f32) (xs : Vec F S2048x64 .f32) (y : S1x2048x64.Idx) :
    ∃ pc ∈ (runC c i arg3 harg3 arg4 harg4 arg5 harg5 arg6 harg6 arg7 harg7 arg8 harg8 arg9 harg9 arg10 harg10 arg11 harg11 arg12 harg12 hc0 hc1 x0 x1 x2 x3 x4 x5 x6 x7 xs).1, y ∈ pc.1.set :=
  View.cover_of_tiledL (runC c i arg3 harg3 arg4 harg4 arg5 harg5 arg6 harg6 arg7 harg7 arg8 harg8 arg9 harg9 arg10 harg10 arg11 harg11 arg12 harg12 hc0 hc1 x0 x1 x2 x3 x4 x5 x6 x7 xs).1 S1x2048x64.size (by sl_kernel_rfl) y

theorem runC_readS (c : Dev nD) (i : grid0.Coords) (arg3 : Memref sig .tc .vmem S1x2048x3 .f32) (harg3 : arg3.IsWhole) (arg4 : Memref sig .tc .vmem S1x1024x3 .f32) (harg4 : arg4.IsWhole) (arg5 : Memref sig .tc .vmem S1x2048x1 .f32) (harg5 : arg5.IsWhole) (arg6 : Memref sig .tc .vmem S1x1x1024 .f32) (harg6 : arg6.IsWhole) (arg7 : Memref sig .tc .vmem S1024x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x2048x64 .f32) (harg11 : arg11.IsWhole) (arg12 : Memref sig .tc .vmem S2048x64 .f32) (harg12 : arg12.IsWhole) (hc0 : ¬cond0 i) (hc1 : cond1 i)
    (x0 : Vec F S1x2048x3 .f32) (x1 : Vec F S1x1024x3 .f32) (x2 : Vec F S1x2048x1 .f32) (x3 : Vec F S1x1x1024 .f32) (x4 : Vec F S1024x64 .f32) (x5 : Vec F S1x64 .f32) (x6 : Vec F S1x64 .f32) (x7 : Vec F S1x64 .f32) (xs : Vec F S2048x64 .f32) (v : View sig .tc .vmem S2048x64 .f32) (f : v.ty.Contents (Elt F)) :
    v.read (Elt F) (v.writes (Elt F) f (runC c i arg3 harg3 arg4 harg4 arg5 harg5 arg6 harg6 arg7 harg7 arg8 harg8 arg9 harg9 arg10 harg10 arg11 harg11 arg12 harg12 hc0 hc1 x0 x1 x2 x3 x4 x5 x6 x7 xs).2.1) = k0_pay3 x0 x1 x2 x3 x4 xs := by
  rw [View.read_writes_eq_canon _ _ _ (runC_coverS c i arg3 harg3 arg4 harg4 arg5 harg5 arg6 harg6 arg7 harg7 arg8 harg8 arg9 harg9 arg10 harg10 arg11 harg11 arg12 harg12 hc0 hc1 x0 x1 x2 x3 x4 x5 x6 x7 xs)]
  unfold runC; dsimp only; sl_unfold_words
  rw [View.canon_unit_zero hz2]
  simp only [View.readAt_eq_ld, harg3.read_unread, harg4.read_unread, harg5.read_unread, harg6.read_unread, harg7.read_unread, harg8.read_unread, harg9.read_unread, harg10.read_unread, harg12.read_unread,
    View.ld_unit_zero (S := S1x2048x3) hz3, View.ld_unit_zero (S := S1x1024x3) hz3, View.ld_unit_zero (S := S1x2048x1) hz3, View.ld_unit_zero (S := S1x1x1024) hz3,
    View.ld_unit_zero (S := S1024x64) hz2, View.ld_unit_zero (S := S2048x64) hz2, View.ld_unit_zero (S := S1x64) hz2]

theorem runC_read8 (c : Dev nD) (i : grid0.Coords) (arg3 : Memref sig .tc .vmem S1x2048x3 .f32) (harg3 : arg3.IsWhole) (arg4 : Memref sig .tc .vmem S1x1024x3 .f32) (harg4 : arg4.IsWhole) (arg5 : Memref sig .tc .vmem S1x2048x1 .f32) (harg5 : arg5.IsWhole) (arg6 : Memref sig .tc .vmem S1x1x1024 .f32) (harg6 : arg6.IsWhole) (arg7 : Memref sig .tc .vmem S1024x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x2048x64 .f32) (harg11 : arg11.IsWhole) (arg12 : Memref sig .tc .vmem S2048x64 .f32) (harg12 : arg12.IsWhole) (hc0 : ¬cond0 i) (hc1 : cond1 i)
    (x0 : Vec F S1x2048x3 .f32) (x1 : Vec F S1x1024x3 .f32) (x2 : Vec F S1x2048x1 .f32) (x3 : Vec F S1x1x1024 .f32) (x4 : Vec F S1024x64 .f32) (x5 : Vec F S1x64 .f32) (x6 : Vec F S1x64 .f32) (x7 : Vec F S1x64 .f32) (xs : Vec F S2048x64 .f32) (v : View sig .tc .vmem S1x2048x64 .f32) (f : v.ty.Contents (Elt F)) :
    v.read (Elt F) (v.writes (Elt F) f (runC c i arg3 harg3 arg4 harg4 arg5 harg5 arg6 harg6 arg7 harg7 arg8 harg8 arg9 harg9 arg10 harg10 arg11 harg11 arg12 harg12 hc0 hc1 x0 x1 x2 x3 x4 x5 x6 x7 xs).1) = k0_pay1 (k0_pay3 x0 x1 x2 x3 x4 xs) x5 x6 x7 := by
  rw [View.read_writes_eq_canon _ _ _ (runC_cover8 c i arg3 harg3 arg4 harg4 arg5 harg5 arg6 harg6 arg7 harg7 arg8 harg8 arg9 harg9 arg10 harg10 arg11 harg11 arg12 harg12 hc0 hc1 x0 x1 x2 x3 x4 x5 x6 x7 xs)]
  unfold runC; dsimp only; sl_unfold_words
  rw [View.canon_unit_zero hz3]
  simp only [View.readCov_unit_zero (S := S2048x64) arg12.view hz2, View.readAt_eq_ld, harg3.read_unread, harg4.read_unread, harg5.read_unread, harg6.read_unread, harg7.read_unread, harg8.read_unread, harg9.read_unread, harg10.read_unread, harg12.read_unread,
    View.ld_unit_zero (S := S1x2048x3) hz3, View.ld_unit_zero (S := S1x1024x3) hz3, View.ld_unit_zero (S := S1x2048x1) hz3, View.ld_unit_zero (S := S1x1x1024) hz3,
    View.ld_unit_zero (S := S1024x64) hz2, View.ld_unit_zero (S := S2048x64) hz2, View.ld_unit_zero (S := S1x64) hz2]

end Cert.Kernel.Hand

end
-- ==== Proof.K.Body.lean ====
/-
  The body obligation: at every grid point, from the invariant and the windows' buffers as the pipeline hands them over,
  the body runs to the invariant of the next point and the buffers as the proof data says it leaves them. By cases on the
  column tile: first (the accumulator restarts from the zero block), middle, last (the output block is stored).
-/
import proofs.«178833_j3178275799379_2_alg».proof.Proof.K.Data
import proofs.«178833_j3178275799379_2_alg».proof.Proof.K.Pieces

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`: the invariant, nothing owed, and each window's current buffer. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  rw [show (dats m 0 c).leavesExact 5 t = owns (c : Thread nD τ) (ms5 t) fullShare ((dats m 0 c).after 5 t) from by
    unfold Dat.leavesExact; rw [live5 t], after5]
  rw [show (dats m 0 c).leavesExact 6 t = owns (c : Thread nD τ) (ms6 t) fullShare ((dats m 0 c).after 6 t) from by
    unfold Dat.leavesExact; rw [live6 t], after6]
  rw [show (dats m 0 c).leavesExact 7 t = owns (c : Thread nD τ) (ms7 t) fullShare ((dats m 0 c).after 7 t) from by
    unfold Dat.leavesExact; rw [live7 t], after7]
  rw [PhiS_castSucc m c t]
  by_cases h0 : t.val % 4 = 0
  · -- the first column tile
    have h1 : ¬t.val % 4 = 3 := by omega
    have hc0 : cond0 (grid0.coords t) := (hcond0 t).mpr h0
    have hc1 : ¬cond1 (grid0.coords t) := fun h => h1 ((hcond1 t).mp h)
    rw [Dat.leavesExact_idle (dats m 0 c) 8 t (idle8 t hc1) (noFlush8 t hc1)]
    rw [accAt_first m c t h0]
    have hΦ : PhiS m c t.val (Nat.le_of_lt t.isLt) ⊢ (iprop(∃ d, owns (c : Thread nD τ) scM fullShare d) : sProp 𝕄) := by
      by_cases hz : t.val = 0
      · rw [PhiS_zero m c _ _ hz]
      · rw [PhiS_pos m c _ _ hz]; iintro H; iexists _; iexact H
    iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    ihave HS := hΦ $$ HS
    iapply ((runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) hc0 hc1 (iblk m c 0 t) (iblk m c 1 t) (iblk m c 2 t) (iblk m c 3 t) (iblk m c 4 t)).2 Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, ⟨%es, HS⟩⟩
    isplitl [HS]
    · unfold owns; iexists _; isplitr
      swap; · iexact HS
      ipureintro; exact runA_read c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) hc0 hc1 (iblk m c 0 t) (iblk m c 1 t) (iblk m c 2 t) (iblk m c 3 t) (iblk m c 4 t) scM.view es
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists _; iexact H8
  · have hz : t.val ≠ 0 := fun h => h0 (by rw [h])
    have hc0 : ¬cond0 (grid0.coords t) := fun h => h0 ((hcond0 t).mp h)
    rw [PhiS_pos m c _ _ hz, accAt_next m c t h0]
    by_cases h1 : t.val % 4 = 3
    · -- the last column tile
      have hc1 : cond1 (grid0.coords t) := (hcond1 t).mpr h1
      rw [show (dats m 0 c).leavesExact 8 t = owns (c : Thread nD τ) (ms8 t) fullShare ((dats m 0 c).after 8 t) from by
        unfold Dat.leavesExact; rw [live8 t hc1], after8]
      unfold outAt
      rw [accAt_next m c t h0]
      iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) hc0 hc1 (iblk m c 0 t) (iblk m c 1 t) (iblk m c 2 t) (iblk m c 3 t) (iblk m c 4 t) (iblk m c 5 t) (iblk m c 6 t) (iblk m c 7 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS]; · iexact HS
      iintro ⟨H0, H1, H2, H3, H4, H5, H6, H7, ⟨%e8, H8⟩, ⟨%es, HS⟩⟩
      isplitl [HS]
      · unfold owns; iexists _; isplitr
        swap; · iexact HS
        ipureintro; exact runC_readS c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) hc0 hc1 (iblk m c 0 t) (iblk m c 1 t) (iblk m c 2 t) (iblk m c 3 t) (iblk m c 4 t) (iblk m c 5 t) (iblk m c 6 t) (iblk m c 7 t) _ scM.view es
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact runC_read8 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) hc0 hc1 (iblk m c 0 t) (iblk m c 1 t) (iblk m c 2 t) (iblk m c 3 t) (iblk m c 4 t) (iblk m c 5 t) (iblk m c 6 t) (iblk m c 7 t) _ (ms8 t).view e8
    · -- a middle column tile
      have hc1 : ¬cond1 (grid0.coords t) := fun h => h1 ((hcond1 t).mp h)
      rw [Dat.leavesExact_idle (dats m 0 c) 8 t (idle8 t hc1) (noFlush8 t hc1)]
      iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) hc0 hc1 (iblk m c 0 t) (iblk m c 1 t) (iblk m c 2 t) (iblk m c 3 t) (iblk m c 4 t) _).2 Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS]
      · unfold owns; iexists _; isplitr
        swap; · iexact HS
        ipureintro; exact runB_read c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) hc0 hc1 (iblk m c 0 t) (iblk m c 1 t) (iblk m c 2 t) (iblk m c 3 t) (iblk m c 4 t) _ scM.view es
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

/-- The body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.K.Launch.lean ====
/-
  The launch. The region's nine windows stand on eight arrays: the points array is read through two windows (the row
  tile and the column tile), so its full share is dealt to them in halves; every other array is one window's, whole.
  From there the pipeline's rule runs the body at the 32 points (the body obligation), and the final state has every
  windowed array at what the write-backs leave and every other unscoped buffer as the region found it.
-/
import proofs.«178833_j3178275799379_2_alg».proof.Proof.K.Body
import Idealize.ShloMosaic.Lib.Pipeline.Launch
import Idealize.ShloMosaic.Lib.Pipeline.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Dealing the arrays to the windows -/

/-- The eight distinct arrays behind the nine windows, listed. -/
theorem arrBufs_eq (c : Dev nD) (W : (b : Ref sig .tc) → Buf (Elt F) ((c.tc : Thread nD τ).loc b)) :
    (Pipeline.arrBufs spec0 c W : sProp 𝕄)
      = iprop((((c.tc : Thread nD τ).loc main_arg0) ↦{fullShare} W main_arg0) ∗ (((c.tc : Thread nD τ).loc main_v2) ↦{fullShare} W main_v2) ∗ (((c.tc : Thread nD τ).loc main_v3) ↦{fullShare} W main_v3) ∗ (((c.tc : Thread nD τ).loc main_v4) ↦{fullShare} W main_v4) ∗ (((c.tc : Thread nD τ).loc main_v5) ↦{fullShare} W main_v5) ∗ (((c.tc : Thread nD τ).loc main_v6) ↦{fullShare} W main_v6) ∗ (((c.tc : Thread nD τ).loc main_v7) ↦{fullShare} W main_v7) ∗ (((c.tc : Thread nD τ).loc main_v8) ↦{fullShare} W main_v8)) := by
  unfold Pipeline.arrBufs
  exact bigSep_eq_bigSepL_of_eq [main_arg0, main_v2, main_v3, main_v4, main_v5, main_v6, main_v7, main_v8] (by decide) (by decide) _

/-- The windows' arrays are whole buffers, so each is held as its buffer at the window's share. -/
theorem arrays_eq (c : Dev nD) (Fn : (w : Fin cfg0.W) → Buf (Elt F) ((cfg0.win w).arr.view.loc (c.tc : Thread nD τ))) :
    ((dats m 0 c).arrays Fn : sProp 𝕄)
      = bigSep Finset.univ fun w : Fin 9 => (((c.tc : Thread nD τ).loc (Pipeline.arrRef spec0 w)) ↦{(dats m 0 c).share w} Fn w : sProp 𝕄) := by
  unfold Dat.arrays
  exact bigSep_congr fun w _ => by rw [(arr_whole0 w).set_eq_univ]

theorem share0 (c : Dev nD) : (dats m 0 c).share 0 = fullShare.left := rfl
theorem share1 (c : Dev nD) : (dats m 0 c).share 1 = fullShare.right := rfl
theorem share2 (c : Dev nD) : (dats m 0 c).share 2 = fullShare := rfl
theorem share3 (c : Dev nD) : (dats m 0 c).share 3 = fullShare := rfl
theorem share4 (c : Dev nD) : (dats m 0 c).share 4 = fullShare := rfl
theorem share5 (c : Dev nD) : (dats m 0 c).share 5 = fullShare := rfl
theorem share6 (c : Dev nD) : (dats m 0 c).share 6 = fullShare := rfl
theorem share7 (c : Dev nD) : (dats m 0 c).share 7 = fullShare := rfl
theorem share8 (c : Dev nD) : (dats m 0 c).share 8 = fullShare := rfl

/-- The points array's share is halved between its two windows; the others go over whole. -/
theorem hsplit (c : Dev nD) :
    (Pipeline.arrBufs spec0 c (V m c) : sProp 𝕄) ⊢ (dats m 0 c).arrays ((dats m 0 c).arrAt · 0) := by
  rw [arrBufs_eq, arrays_eq, bigSep_W0]
  simp only [share0, share1, share2, share3, share4, share5, share6, share7, share8]
  iintro ⟨H0, H2, H3, H4, H5, H6, H7, H8⟩
  ihave ⟨Ha, Hb⟩ := (pointsTo_share (PosShare.mem_left_op_right fullShare)).1 $$ H0
  isplitl [Ha]; · iexact Ha
  isplitl [Hb]; · iexact Hb
  isplitl [H2]; · iexact H2
  isplitl [H3]; · iexact H3
  isplitl [H4]; · iexact H4
  isplitl [H5]; · iexact H5
  isplitl [H6]; · iexact H6
  isplitl [H7]; · iexact H7
  iexact H8

/-! ## The invariant at the two ends -/

theorem hin (c : Dev nD) : (iprop(emp ∗ Pipeline.scopedRest spec0 c) : sProp 𝕄) ⊢ (dats m 0 c).Φ 0 := by
  rw [show (dats m 0 c).Φ 0 = PhiS m c 0 (Nat.zero_le _) from rfl, PhiS_zero m c 0 _ rfl, scopedRest_eq]
  iintro ⟨-, H⟩; iexact H

theorem hout (c : Dev nD) : (dats m 0 c).Φ (Fin.last cfg0.N) ⊢ (iprop(emp ∗ Pipeline.scopedRest spec0 c) : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 32 := N_0; omega), scopedRest_eq]
  iintro H
  isplitr; · iempintro
  iexists _; iexact H

/-! ## The run -/

/-- What the run ends in: every windowed array at what the write-backs of all 32 points leave, every other unscoped
    buffer as the region found it. -/
def RunPost (r : PUnit × MemSt nD τ sig (Elt F)) : Prop :=
  ∀ c : Dev nD, (∀ w, r.2.mem ((spec0 w).arr.view.loc (c.tc : Thread nD τ)) = (dats m 0 c).arrAt w cfg0.N)
    ∧ ∀ b ∈ Pipeline.restRefs sig spec0, r.2.mem ((c.tc : Thread nD τ).loc b) = V m c b

set_option backward.isDefEq.respectTransparency.types false in
theorem run_main : θ_run defs (onTc (τ := τ) (main (F := F))) ⟨m, fun _ => 0, ρ⟩ (RunPost m) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj))
    (hu₀ := .rfl)
    (V := V m) (hmain := hmain m Variants.none) (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := hin m) (hout := hout m)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

end Cert.Kernel.Hand

end
-- ==== Proof.K.Frame.lean ====
/-
  The frame: the program runs to its end without a fault and its five argument arrays end as they began. The points
  array is a windowed input, never written back; the other four arguments are no window's array, and the region
  leaves such buffers as it found them — which is as launched, no host operation writing an argument.
-/
import proofs.«178833_j3178275799379_2_alg».proof.Proof.K.Launch

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))

theorem mem_rest1 : main_arg1 ∈ Pipeline.restRefs sig spec0 := by decide
theorem mem_rest2 : main_arg2 ∈ Pipeline.restRefs sig spec0 := by decide
theorem mem_rest3 : main_arg3 ∈ Pipeline.restRefs sig spec0 := by decide
theorem mem_rest4 : main_arg4 ∈ Pipeline.restRefs sig spec0 := by decide

/-- The arguments after the run, from the run's post. -/
theorem kept_args (r : PUnit × MemSt nD τ sig (Elt F)) (h : RunPost m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).1 0).trans (((dats m 0 c).arrAt_in 0 rfl _).trans ((A_eq m c 0).trans (V_main_arg0 m c))),
   ((h c).2 main_arg1 mem_rest1).trans (V_main_arg1 m c),
   ((h c).2 main_arg2 mem_rest2).trans (V_main_arg2 m c),
   ((h c).2 main_arg3 mem_rest3).trans (V_main_arg3 m c),
   ((h c).2 main_arg4 mem_rest4).trans (V_main_arg4 m c)⟩

/-- The frame claim's statement, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => kept_args m r h c) (run_main m ρ)

end Cert.Kernel.Hand

end
-- ==== Proof.KI.Kit.lean ====
/-
  What the runs of the kernel's body and the launch share, for the idealized kernel, at any float instance.

  The region is entered after nine host operations (the squared norms of the points, their two column/row
  layouts, the transposed weights and the three reshaped feature vectors); `V` is what the buffers hold there.
  The grid has 4 · 2 · 4 = 32 points (batch, row tile, column tile), the column tile innermost. The body
  zeroes its accumulator where the column tile is 0, adds one tile's partial product at every point, and
  writes the normalised, activated rows to the output where the column tile is 3 — the only points at which
  the output block is written back.
-/
import proofs.«178833_j3178275799379_2_alg».proof.Proof.Gen.KernelIdeal.Launch
import proofs.«178833_j3178275799379_2_alg».proof.Proof.Gen.KernelIdeal.Skeleton
import proofs.«178833_j3178275799379_2_alg».proof.Proof.Gen.KernelIdeal.Points
import Idealize.ShloMosaic.Lib.Pipeline.FrameBody
import Idealize.ShloMosaic.Lib.Pipeline.Frame
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- What core `c`'s buffers hold when the region is entered: the initial memory after the nine host operations. -/
abbrev V (c : Dev nD) (b : Ref sig .tc) : Buf (Elt F) ((c : Thread nD τ).loc b) :=
  StableHlo.after hostOps0 (fun b => m (c, b)) (Proc.devRef .tc b)

/-- The host operations allocate nothing. -/
theorem hostOps0_fresh : (hostOps0 : List (HloOp τ sig (Elt F))).Forall fun op => op.fresh = ∅ := by
  simp only [List.Forall]; repeat' constructor

/-- The program is its host operations followed by the region. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's two branch conditions, decided over the grid -/

/-- The body zeroes its accumulator: the column-tile coordinate is 0. -/
abbrev cond0 (i : grid0.Coords) : Prop :=
  (Scalar.cmpi .ne (Scalar.extui (Scalar.cmpi .eq (BitVec.ofNat 32 (i 2).val) 0#32)) 0#32) = 1#1
theorem hcond0 : ∀ t : Fin cfg0.N, cond0 (grid0.coords t) ↔ t.val % 4 = 0 :=
  (by decide +kernel : ∀ t : Fin grid0.N, cond0 (grid0.coords t) ↔ t.val % 4 = 0)

/-- The body finishes a row tile: the column-tile coordinate is 3. -/
abbrev cond1 (i : grid0.Coords) : Prop := k0_cond2 i = 1#1
theorem hcond1 : ∀ t : Fin cfg0.N, cond1 (grid0.coords t) ↔ t.val % 4 = 3 :=
  (by decide +kernel : ∀ t : Fin grid0.N, cond1 (grid0.coords t) ↔ t.val % 4 = 3)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
theorem live7 : ∀ t : Fin cfg0.N, cfg0.idle 7 (grid0.coords t) = false := by decide +kernel
/-- Off the last column tile the output window is idle and not written back; on it, it is live. -/
theorem idle8 : ∀ t : Fin cfg0.N, ¬cond1 (grid0.coords t) → cfg0.idle 8 (grid0.coords t) = true := by decide +kernel
theorem noFlush8 : ∀ t : Fin cfg0.N, ¬cond1 (grid0.coords t) → (cfg0.win 8).flush t = false := by decide +kernel
theorem live8 : ∀ t : Fin cfg0.N, cond1 (grid0.coords t) → cfg0.idle 8 (grid0.coords t) = false := by decide +kernel

/-! ## The staging memrefs the body is called with -/

abbrev ms0 (t : Fin cfg0.N) : Memref sig .tc .vmem S1x2048x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1024x3 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x2048x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x64 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x64 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x64 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x64 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x2048x64 .f32 := win0_8.stage (cfg0.slots t 8)
abbrev hs8 (t : Fin cfg0.N) : (ms8 t).IsWhole := hstage0_8 ((cfg0.slots t 8).cast nbuf0_8)
/-- The accumulator: a whole scoped buffer of the kernel's own. -/
abbrev scM : Memref sig .tc .vmem S2048x64 .f32 := Memref.whole cc0_scratch0

/-- The scoped buffers the pipeline does not stage are the accumulator alone, owned at some contents. -/
theorem scopedRest_eq (c : Dev nD) :
    (Pipeline.scopedRest spec0 c : sProp 𝕄) = iprop(∃ d, owns (c : Thread nD τ) scM fullShare d) := by
  rw [scopedRest0_eq]; simp only [scM, owns_whole]; try rfl

end Cert.KernelIdeal.Hand

end
-- ==== Proof.KI.Run.lean ====
/-
  The kernel's body run on whole staging buffers, once per control case (the column-tile coordinate 0, 1–2, or 3).
  Each run says: given the input buffers at their contents (and the accumulator at what the point before left, or at
  anything where the body first zeroes it), the body runs to its end, leaves every input buffer as it was, and leaves
  each buffer it stored into holding the pieces its stores wrote, in the order of the stores.
-/
import proofs.«178833_j3178275799379_2_alg».proof.Proof.KI.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The first column tile: the accumulator, whatever it held, is zeroed and then takes this tile's partial product. -/
noncomputable def runA (c : Dev nD) (i : grid0.Coords) (arg3 : Memref sig .tc .vmem S1x2048x3 .f32) (harg3 : arg3.IsWhole) (arg4 : Memref sig .tc .vmem S1x1024x3 .f32) (harg4 : arg4.IsWhole) (arg5 : Memref sig .tc .vmem S1x2048x1 .f32) (harg5 : arg5.IsWhole) (arg6 : Memref sig .tc .vmem S1x1x1024 .f32) (harg6 : arg6.IsWhole) (arg7 : Memref sig .tc .vmem S1024x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x2048x64 .f32) (harg11 : arg11.IsWhole) (arg12 : Memref sig .tc .vmem S2048x64 .f32) (harg12 : arg12.IsWhole) (hc0 : cond0 i) (hc1 : ¬cond1 i)
    (x0 : Vec F S1x2048x3 .f32) (x1 : Vec F S1x1024x3 .f32) (x2 : Vec F S1x2048x1 .f32) (x3 : Vec F S1x1x1024 .f32) (x4 : Vec F S1024x64 .f32) :
    { LS : List (View.Piece (Elt F) S2048x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg12.view.loc (c : Thread nD τ) ↦[arg12.view.set]{fullShare} arg12.view.writes (Elt F) f LS)) -∗ K ⟨⟩))
          ⊢ wp frame (wpE (defs₀ (F := F)) Variants.none c none) E (cc0__kernel i arg3 harg3 arg4 harg4 arg5 harg5 arg6 harg6 arg7 harg7 arg8 harg8 arg9 harg9 arg10 harg10 arg11 harg11 arg12 harg12) K } := by
  refine ⟨?_, fun E K => ?run⟩
  case run =>
    simp only [cc0__kernel_eq_skeleton]; unfold cc0__kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg3.eq_unread hf0; obtain rfl := harg4.eq_unread hf1; obtain rfl := harg5.eq_unread hf2
    obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS

set_option maxHeartbeats 4000000 in
/-- A middle column tile: the accumulator takes what it held plus this tile's partial product. -/
noncomputable def runB (c : Dev nD) (i : grid0.Coords) (arg3 : Memref sig .tc .vmem S1x2048x3 .f32) (harg3 : arg3.IsWhole) (arg4 : Memref sig .tc .vmem S1x1024x3 .f32) (harg4 : arg4.IsWhole) (arg5 : Memref sig .tc .vmem S1x2048x1 .f32) (harg5 : arg5.IsWhole) (arg6 : Memref sig .tc .vmem S1x1x1024 .f32) (harg6 : arg6.IsWhole) (arg7 : Memref sig .tc .vmem S1024x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x2048x64 .f32) (harg11 : arg11.IsWhole) (arg12 : Memref sig .tc .vmem S2048x64 .f32) (harg12 : arg12.IsWhole) (hc0 : ¬cond0 i) (hc1 : ¬cond1 i)
    (x0 : Vec F S1x2048x3 .f32) (x1 : Vec F S1x1024x3 .f32) (x2 : Vec F S1x2048x1 .f32) (x3 : Vec F S1x1x1024 .f32) (x4 : Vec F S1024x64 .f32) (xs : Vec F S2048x64 .f32) :
    { LS : List (View.Piece (Elt F) S2048x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg12 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg12.view.loc (c : Thread nD τ) ↦[arg12.view.set]{fullShare} arg12.view.writes (Elt F) f LS)) -∗ K ⟨⟩))
          ⊢ wp frame (wpE (defs₀ (F := F)) Variants.none c none) E (cc0__kernel i arg3 harg3 arg4 harg4 arg5 harg5 arg6 harg6 arg7 harg7 arg8 harg8 arg9 harg9 arg10 harg10 arg11 harg11 arg12 harg12) K } := by
  refine ⟨?_, fun E K => ?run⟩
  case run =>
    simp only [cc0__kernel_eq_skeleton]; unfold cc0__kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg3.eq_unread hf0; obtain rfl := harg4.eq_unread hf1; obtain rfl := harg5.eq_unread hf2
    obtain rfl := harg6.eq_unread hf3; obtain rfl := harg7.eq_unread hf4; obtain rfl := harg12.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS

set_option maxHeartbeats 8000000 in
/-- The last column tile: the accumulator takes this tile's partial product, and the output buffer takes the
    normalised, activated rows computed from the accumulator and the three feature vectors. -/
noncomputable def runC (c : Dev nD) (i : grid0.Coords) (arg3 : Memref sig .tc .vmem S1x2048x3 .f32) (harg3 : arg3.IsWhole) (arg4 : Memref sig .tc .vmem S1x1024x3 .f32) (harg4 : arg4.IsWhole) (arg5 : Memref sig .tc .vmem S1x2048x1 .f32) (harg5 : arg5.IsWhole) (arg6 : Memref sig .tc .vmem S1x1x1024 .f32) (harg6 : arg6.IsWhole) (arg7 : Memref sig .tc .vmem S1024x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x2048x64 .f32) (harg11 : arg11.IsWhole) (arg12 : Memref sig .tc .vmem S2048x64 .f32) (harg12 : arg12.IsWhole) (hc0 : ¬cond0 i) (hc1 : cond1 i)
    (x0 : Vec F S1x2048x3 .f32) (x1 : Vec F S1x1024x3 .f32) (x2 : Vec F S1x2048x1 .f32) (x3 : Vec F S1x1x1024 .f32) (x4 : Vec F S1024x64 .f32) (x5 : Vec F S1x64 .f32) (x6 : Vec F S1x64 .f32) (x7 : Vec F S1x64 .f32) (xs : Vec F S2048x64 .f32) :
    Σ' (L8 : List (View.Piece (Elt F) S1x2048x64 .f32)), { LS : List (View.Piece (Elt F) S2048x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ owns (c : Thread nD τ) arg12 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f LS)) -∗ K ⟨⟩))
          ⊢ wp frame (wpE (defs₀ (F := F)) Variants.none c none) E (cc0__kernel i arg3 harg3 arg4 harg4 arg5 harg5 arg6 harg6 arg7 harg7 arg8 harg8 arg9 harg9 arg10 harg10 arg11 harg11 arg12 harg12) K } := by
  refine ⟨?_, ?_, fun E K => ?run⟩
  case run =>
    simp only [cc0__kernel_eq_skeleton]; unfold cc0__kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs, %hfs, HS⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg9.eq_unread hf6; obtain rfl := harg10.eq_unread hf7; obtain rfl := harg12.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]; · iexists _; iexact H8
    iexists _; iexact HS

end Cert.KernelIdeal.Hand

end
-- ==== Proof.KI.Data.lean ====
/-
  What the kernel leaves, point by point, and the launch's proof data.

  The accumulator after point `n`: this point's update applied to the zero block where the column tile is 0
  (`n % 4 = 0`), and to what the point before left otherwise. The output block after a point on the last column
  tile (`n % 4 = 3`): the epilogue applied to the accumulator just updated and the three feature vectors.
  The points array feeds two windows (the row tile and the column tile): each holds half of its share.
-/
import proofs.«178833_j3178275799379_2_alg».proof.Proof.KI.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The accumulator and the output block after each point -/

/-- The accumulator after the body at point `n`. -/
def accAt (c : Dev nD) : (n : ℕ) → n < cfg0.N → Vec F S2048x64 .f32
  | 0, hn => k0_pay3 (iblk m c 0 ⟨0, hn⟩) (iblk m c 1 ⟨0, hn⟩) (iblk m c 2 ⟨0, hn⟩) (iblk m c 3 ⟨0, hn⟩) (iblk m c 4 ⟨0, hn⟩) (k0_pay2 (F := F))
  | n + 1, hn =>
    if (n + 1) % 4 = 0 then k0_pay3 (iblk m c 0 ⟨n + 1, hn⟩) (iblk m c 1 ⟨n + 1, hn⟩) (iblk m c 2 ⟨n + 1, hn⟩) (iblk m c 3 ⟨n + 1, hn⟩) (iblk m c 4 ⟨n + 1, hn⟩) (k0_pay2 (F := F))
    else k0_pay3 (iblk m c 0 ⟨n + 1, hn⟩) (iblk m c 1 ⟨n + 1, hn⟩) (iblk m c 2 ⟨n + 1, hn⟩) (iblk m c 3 ⟨n + 1, hn⟩) (iblk m c 4 ⟨n + 1, hn⟩) (accAt c n (Nat.lt_of_succ_lt hn))

theorem accAt_first (c : Dev nD) (t : Fin cfg0.N) (h0 : t.val % 4 = 0) :
    accAt m c t.val t.isLt = k0_pay3 (iblk m c 0 t) (iblk m c 1 t) (iblk m c 2 t) (iblk m c 3 t) (iblk m c 4 t) (k0_pay2 (F := F)) := by
  obtain ⟨n, hn⟩ := t
  cases n with
  | zero => rfl
  | succ n => exact if_pos h0

theorem accAt_next (c : Dev nD) (t : Fin cfg0.N) (h0 : ¬t.val % 4 = 0) :
    accAt m c t.val t.isLt = k0_pay3 (iblk m c 0 t) (iblk m c 1 t) (iblk m c 2 t) (iblk m c 3 t) (iblk m c 4 t) (accAt m c (t.val - 1) (Nat.lt_of_le_of_lt (Nat.sub_le _ _) t.isLt)) := by
  obtain ⟨n, hn⟩ := t
  cases n with
  | zero => exact absurd (Nat.zero_mod _) h0
  | succ n => exact if_neg h0

/-- The output block the body stores at a point on the last column tile. -/
def outAt (c : Dev nD) (t : Fin cfg0.N) : Vec F S1x2048x64 .f32 :=
  k0_pay1 (accAt m c t.val t.isLt) (iblk m c 5 t) (iblk m c 6 t) (iblk m c 7 t)

/-! ## The invariant: the accumulator between points -/

/-- Before the first point the accumulator holds anything; before point `n + 1`, what point `n` left. -/
def PhiS (c : Dev nD) : (n : ℕ) → n ≤ cfg0.N → sProp 𝕄
  | 0, _ => iprop(∃ d, owns (c : Thread nD τ) scM fullShare d)
  | n + 1, hn => owns (c : Thread nD τ) scM fullShare (accAt m c n hn)

theorem PhiS_zero (c : Dev nD) (n : ℕ) (h : n ≤ cfg0.N) (hz : n = 0) :
    PhiS m c n h = iprop(∃ d, owns (c : Thread nD τ) scM fullShare d) := by
  subst hz; rfl

theorem PhiS_succ (c : Dev nD) (n : ℕ) (hn : n < cfg0.N) :
    PhiS m c (n + 1) hn = owns (c : Thread nD τ) scM fullShare (accAt m c n hn) := rfl

theorem PhiS_pos (c : Dev nD) (n : ℕ) (h : n ≤ cfg0.N) (hz : n ≠ 0) :
    PhiS m c n h = owns (c : Thread nD τ) scM fullShare (accAt m c (n - 1) (by omega)) := by
  cases n with
  | zero => exact absurd rfl hz
  | succ n => rfl

/-! ## The proof data -/

/-- The arrays as the region finds them; after the body each input's buffer still at its block, the output's at the
    stored block; the accumulator carried by the invariant; nothing owed; the points array's share halved between
    its two windows, every other array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt m c t
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = outAt m c t := by dsimp only [dats]

/-! ## Each input's buffer holds its block at every point, fetched there or not -/

theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl)
    (fun t => by rw [after4]; unfold Dat.blockOf iblk; rw [A_eq]; try rfl) t d).trans
    (by unfold Dat.fetched Dat.blockOf iblk; rw [A_eq]; try rfl)
theorem before5 (c : Dev nD) (t : Fin cfg0.N) (d) : (dats m 0 c).before 5 t d = iblk m c 5 t :=
  ((dats m 0 c).before_in_eq_fetched 5 rfl (fun _ => rfl) (fun _ _ _ => rfl)
    (fun t => by rw [after5]; unfold Dat.blockOf iblk; rw [A_eq]; try rfl) t d).trans
    (by unfold Dat.fetched Dat.blockOf iblk; rw [A_eq]; try rfl)
theorem before6 (c : Dev nD) (t : Fin cfg0.N) (d) : (dats m 0 c).before 6 t d = iblk m c 6 t :=
  ((dats m 0 c).before_in_eq_fetched 6 rfl (fun _ => rfl) (fun _ _ _ => rfl)
    (fun t => by rw [after6]; unfold Dat.blockOf iblk; rw [A_eq]; try rfl) t d).trans
    (by unfold Dat.fetched Dat.blockOf iblk; rw [A_eq]; try rfl)
theorem before7 (c : Dev nD) (t : Fin cfg0.N) (d) : (dats m 0 c).before 7 t d = iblk m c 7 t :=
  ((dats m 0 c).before_in_eq_fetched 7 rfl (fun _ => rfl) (fun _ _ _ => rfl)
    (fun t => by rw [after7]; unfold Dat.blockOf iblk; rw [A_eq]; try rfl) t d).trans
    (by unfold Dat.fetched Dat.blockOf iblk; rw [A_eq]; try rfl)

end Cert.KernelIdeal.Hand

end
-- ==== Proof.KI.Pieces.lean ====
/-
  What the body's stores leave, read back: in each control case the accumulator ends holding the update applied to the
  loaded blocks (over the zero block where the body first zeroes it), and on the last column tile the output buffer ends
  holding the epilogue of that updated accumulator. Each buffer is stored whole, so its contents are its last store's value.
-/
import proofs.«178833_j3178275799379_2_alg».proof.Proof.KI.Run
import proofs.«178833_j3178275799379_2_alg».proof.Proof.LibCoveredLoad
import Idealize.ShloMosaic.Lib.Ring

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → ℕ) = fun _ => 0 := by funext a; fin_cases a <;> rfl
theorem hz3 : (![0, 0, 0] : Fin 3 → ℕ) = fun _ => 0 := by funext a; fin_cases a <;> rfl

/-! ## A middle column tile -/

theorem runB_cover (c : Dev nD) (i : grid0.Coords) (arg3 : Memref sig .tc .vmem S1x2048x3 .f32) (harg3 : arg3.IsWhole) (arg4 : Memref sig .tc .vmem S1x1024x3 .f32) (harg4 : arg4.IsWhole) (arg5 : Memref sig .tc .vmem S1x2048x1 .f32) (harg5 : arg5.IsWhole) (arg6 : Memref sig .tc .vmem S1x1x1024 .f32) (harg6 : arg6.IsWhole) (arg7 : Memref sig .tc .vmem S1024x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x2048x64 .f32) (harg11 : arg11.IsWhole) (arg12 : Memref sig .tc .vmem S2048x64 .f32) (harg12 : arg12.IsWhole) (hc0 : ¬cond0 i) (hc1 : ¬cond1 i)
    (x0 : Vec F S1x2048x3 .f32) (x1 : Vec F S1x1024x3 .f32) (x2 : Vec F S1x2048x1 .f32) (x3 : Vec F S1x1x1024 .f32) (x4 : Vec F S1024x64 .f32) (xs : Vec F S2048x64 .f32) (y : S2048x64.Idx) :
    ∃ pc ∈ (runB c i arg3 harg3 arg4 harg4 arg5 harg5 arg6 harg6 arg7 harg7 arg8 harg8 arg9 harg9 arg10 harg10 arg11 harg11 arg12 harg12 hc0 hc1 x0 x1 x2 x3 x4 xs).1, y ∈ pc.1.set :=
  View.cover_of_tiledL (runB c i arg3 harg3 arg4 harg4 arg5 harg5 arg6 harg6 arg7 harg7 arg8 harg8 arg9 harg9 arg10 harg10 arg11 harg11 arg12 harg12 hc0 hc1 x0 x1 x2 x3 x4 xs).1 S2048x64.size (by sl_kernel_rfl) y

theorem runB_read (c : Dev nD) (i : grid0.Coords) (arg3 : Memref sig .tc .vmem S1x2048x3 .f32) (harg3 : arg3.IsWhole) (arg4 : Memref sig .tc .vmem S1x1024x3 .f32) (harg4 : arg4.IsWhole) (arg5 : Memref sig .tc .vmem S1x2048x1 .f32) (harg5 : arg5.IsWhole) (arg6 : Memref sig .tc .vmem S1x1x1024 .f32) (harg6 : arg6.IsWhole) (arg7 : Memref sig .tc .vmem S1024x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x2048x64 .f32) (harg11 : arg11.IsWhole) (arg12 : Memref sig .tc .vmem S2048x64 .f32) (harg12 : arg12.IsWhole) (hc0 : ¬cond0 i) (hc1 : ¬cond1 i)
    (x0 : Vec F S1x2048x3 .f32) (x1 : Vec F S1x1024x3 .f32) (x2 : Vec F S1x2048x1 .f32) (x3 : Vec F S1x1x1024 .f32) (x4 : Vec F S1024x64 .f32) (xs : Vec F S2048x64 .f32) (v : View sig .tc .vmem S2048x64 .f32) (f : v.ty.Contents (Elt F)) :
    v.read (Elt F) (v.writes (Elt F) f (runB c i arg3 harg3 arg4 harg4 arg5 harg5 arg6 harg6 arg7 harg7 arg8 harg8 arg9 harg9 arg10 harg10 arg11 harg11 arg12 harg12 hc0 hc1 x0 x1 x2 x3 x4 xs).1) = k0_pay3 x0 x1 x2 x3 x4 xs := by
  rw [View.read_writes_eq_canon _ _ _ (runB_cover c i arg3 harg3 arg4 harg4 arg5 harg5 arg6 harg6 arg7 harg7 arg8 harg8 arg9 harg9 arg10 harg10 arg11 harg11 arg12 harg12 hc0 hc1 x0 x1 x2 x3 x4 xs)]
  unfold runB; dsimp only; sl_unfold_words
  rw [View.canon_unit_zero hz2]
  simp only [View.readAt_eq_ld, harg3.read_unread, harg4.read_unread, harg5.read_unread, harg6.read_unread, harg7.read_unread, harg8.read_unread, harg9.read_unread, harg10.read_unread, harg12.read_unread,
    View.ld_unit_zero (S := S1x2048x3) hz3, View.ld_unit_zero (S := S1x1024x3) hz3, View.ld_unit_zero (S := S1x2048x1) hz3, View.ld_unit_zero (S := S1x1x1024) hz3,
    View.ld_unit_zero (S := S1024x64) hz2, View.ld_unit_zero (S := S2048x64) hz2, View.ld_unit_zero (S := S1x64) hz2]

/-! ## The first column tile -/

theorem runA_cover (c : Dev nD) (i : grid0.Coords) (arg3 : Memref sig .tc .vmem S1x2048x3 .f32) (harg3 : arg3.IsWhole) (arg4 : Memref sig .tc .vmem S1x1024x3 .f32) (harg4 : arg4.IsWhole) (arg5 : Memref sig .tc .vmem S1x2048x1 .f32) (harg5 : arg5.IsWhole) (arg6 : Memref sig .tc .vmem S1x1x1024 .f32) (harg6 : arg6.IsWhole) (arg7 : Memref sig .tc .vmem S1024x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x2048x64 .f32) (harg11 : arg11.IsWhole) (arg12 : Memref sig .tc .vmem S2048x64 .f32) (harg12 : arg12.IsWhole) (hc0 : cond0 i) (hc1 : ¬cond1 i)
    (x0 : Vec F S1x2048x3 .f32) (x1 : Vec F S1x1024x3 .f32) (x2 : Vec F S1x2048x1 .f32) (x3 : Vec F S1x1x1024 .f32) (x4 : Vec F S1024x64 .f32) (y : S2048x64.Idx) :
    ∃ pc ∈ (runA c i arg3 harg3 arg4 harg4 arg5 harg5 arg6 harg6 arg7 harg7 arg8 harg8 arg9 harg9 arg10 harg10 arg11 harg11 arg12 harg12 hc0 hc1 x0 x1 x2 x3 x4).1, y ∈ pc.1.set :=
  View.cover_of_tiledL (runA c i arg3 harg3 arg4 harg4 arg5 harg5 arg6 harg6 arg7 harg7 arg8 harg8 arg9 harg9 arg10 harg10 arg11 harg11 arg12 harg12 hc0 hc1 x0 x1 x2 x3 x4).1 S2048x64.size (by sl_kernel_rfl) y

theorem runA_read (c : Dev nD) (i : grid0.Coords) (arg3 : Memref sig .tc .vmem S1x2048x3 .f32) (harg3 : arg3.IsWhole) (arg4 : Memref sig .tc .vmem S1x1024x3 .f32) (harg4 : arg4.IsWhole) (arg5 : Memref sig .tc .vmem S1x2048x1 .f32) (harg5 : arg5.IsWhole) (arg6 : Memref sig .tc .vmem S1x1x1024 .f32) (harg6 : arg6.IsWhole) (arg7 : Memref sig .tc .vmem S1024x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x2048x64 .f32) (harg11 : arg11.IsWhole) (arg12 : Memref sig .tc .vmem S2048x64 .f32) (harg12 : arg12.IsWhole) (hc0 : cond0 i) (hc1 : ¬cond1 i)
    (x0 : Vec F S1x2048x3 .f32) (x1 : Vec F S1x1024x3 .f32) (x2 : Vec F S1x2048x1 .f32) (x3 : Vec F S1x1x1024 .f32) (x4 : Vec F S1024x64 .f32) (v : View sig .tc .vmem S2048x64 .f32) (f : v.ty.Contents (Elt F)) :
    v.read (Elt F) (v.writes (Elt F) f (runA c i arg3 harg3 arg4 harg4 arg5 harg5 arg6 harg6 arg7 harg7 arg8 harg8 arg9 harg9 arg10 harg10 arg11 harg11 arg12 harg12 hc0 hc1 x0 x1 x2 x3 x4).1) = k0_pay3 x0 x1 x2 x3 x4 (k0_pay2 (F := F)) := by
  rw [View.read_writes_eq_canon _ _ _ (runA_cover c i arg3 harg3 arg4 harg4 arg5 harg5 arg6 harg6 arg7 harg7 arg8 harg8 arg9 harg9 arg10 harg10 arg11 harg11 arg12 harg12 hc0 hc1 x0 x1 x2 x3 x4)]
  unfold runA; dsimp only; sl_unfold_words
  rw [View.canon_cons_unit_zero hz2]
  simp only [View.readCov_unit_zero (S := S2048x64) arg12.view hz2, View.readAt_eq_ld, harg3.read_unread, harg4.read_unread, harg5.read_unread, harg6.read_unread, harg7.read_unread, harg8.read_unread, harg9.read_unread, harg10.read_unread, harg12.read_unread,
    View.ld_unit_zero (S := S1x2048x3) hz3, View.ld_unit_zero (S := S1x1024x3) hz3, View.ld_unit_zero (S := S1x2048x1) hz3, View.ld_unit_zero (S := S1x1x1024) hz3,
    View.ld_unit_zero (S := S1024x64) hz2, View.ld_unit_zero (S := S2048x64) hz2, View.ld_unit_zero (S := S1x64) hz2]

/-! ## The last column tile -/

theorem runC_coverS (c : Dev nD) (i : grid0.Coords) (arg3 : Memref sig .tc .vmem S1x2048x3 .f32) (harg3 : arg3.IsWhole) (arg4 : Memref sig .tc .vmem S1x1024x3 .f32) (harg4 : arg4.IsWhole) (arg5 : Memref sig .tc .vmem S1x2048x1 .f32) (harg5 : arg5.IsWhole) (arg6 : Memref sig .tc .vmem S1x1x1024 .f32) (harg6 : arg6.IsWhole) (arg7 : Memref sig .tc .vmem S1024x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x2048x64 .f32) (harg11 : arg11.IsWhole) (arg12 : Memref sig .tc .vmem S2048x64 .f32) (harg12 : arg12.IsWhole) (hc0 : ¬cond0 i) (hc1 : cond1 i)
    (x0 : Vec F S1x2048x3 .f32) (x1 : Vec F S1x1024x3 .f32) (x2 : Vec F S1x2048x1 .f32) (x3 : Vec F S1x1x1024 .f32) (x4 : Vec F S1024x64 .f32) (x5 : Vec F S1x64 .f32) (x6 : Vec F S1x64 .f32) (x7 : Vec F S1x64 .f32) (xs : Vec F S2048x64 .f32) (y : S2048x64.Idx) :
    ∃ pc ∈ (runC c i arg3 harg3 arg4 harg4 arg5 harg5 arg6 harg6 arg7 harg7 arg8 harg8 arg9 harg9 arg10 harg10 arg11 harg11 arg12 harg12 hc0 hc1 x0 x1 x2 x3 x4 x5 x6 x7 xs).2.1, y ∈ pc.1.set :=
  View.cover_of_tiledL (runC c i arg3 harg3 arg4 harg4 arg5 harg5 arg6 harg6 arg7 harg7 arg8 harg8 arg9 harg9 arg10 harg10 arg11 harg11 arg12 harg12 hc0 hc1 x0 x1 x2 x3 x4 x5 x6 x7 xs).2.1 S2048x64.size (by sl_kernel_rfl) y

theorem runC_cover8 (c : Dev nD) (i : grid0.Coords) (arg3 : Memref sig .tc .vmem S1x2048x3 .f32) (harg3 : arg3.IsWhole) (arg4 : Memref sig .tc .vmem S1x1024x3 .f32) (harg4 : arg4.IsWhole) (arg5 : Memref sig .tc .vmem S1x2048x1 .f32) (harg5 : arg5.IsWhole) (arg6 : Memref sig .tc .vmem S1x1x1024 .f32) (harg6 : arg6.IsWhole) (arg7 : Memref sig .tc .vmem S1024x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x2048x64 .f32) (harg11 : arg11.IsWhole) (arg12 : Memref sig .tc .vmem S2048x64 .f32) (harg12 : arg12.IsWhole) (hc0 : ¬cond0 i) (hc1 : cond1 i)
    (x0 : Vec F S1x2048x3 .f32) (x1 : Vec F S1x1024x3 .f32) (x2 : Vec F S1x2048x1 .f32) (x3 : Vec F S1x1x1024 .f32) (x4 : Vec F S1024x64 .f32) (x5 : Vec F S1x64 .f32) (x6 : Vec F S1x64 .f32) (x7 : Vec F S1x64 .f32) (xs : Vec F S2048x64 .f32) (y : S1x2048x64.Idx) :
    ∃ pc ∈ (runC c i arg3 harg3 arg4 harg4 arg5 harg5 arg6 harg6 arg7 harg7 arg8 harg8 arg9 harg9 arg10 harg10 arg11 harg11 arg12 harg12 hc0 hc1 x0 x1 x2 x3 x4 x5 x6 x7 xs).1, y ∈ pc.1.set :=
  View.cover_of_tiledL (runC c i arg3 harg3 arg4 harg4 arg5 harg5 arg6 harg6 arg7 harg7 arg8 harg8 arg9 harg9 arg10 harg10 arg11 harg11 arg12 harg12 hc0 hc1 x0 x1 x2 x3 x4 x5 x6 x7 xs).1 S1x2048x64.size (by sl_kernel_rfl) y

theorem runC_readS (c : Dev nD) (i : grid0.Coords) (arg3 : Memref sig .tc .vmem S1x2048x3 .f32) (harg3 : arg3.IsWhole) (arg4 : Memref sig .tc .vmem S1x1024x3 .f32) (harg4 : arg4.IsWhole) (arg5 : Memref sig .tc .vmem S1x2048x1 .f32) (harg5 : arg5.IsWhole) (arg6 : Memref sig .tc .vmem S1x1x1024 .f32) (harg6 : arg6.IsWhole) (arg7 : Memref sig .tc .vmem S1024x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x2048x64 .f32) (harg11 : arg11.IsWhole) (arg12 : Memref sig .tc .vmem S2048x64 .f32) (harg12 : arg12.IsWhole) (hc0 : ¬cond0 i) (hc1 : cond1 i)
    (x0 : Vec F S1x2048x3 .f32) (x1 : Vec F S1x1024x3 .f32) (x2 : Vec F S1x2048x1 .f32) (x3 : Vec F S1x1x1024 .f32) (x4 : Vec F S1024x64 .f32) (x5 : Vec F S1x64 .f32) (x6 : Vec F S1x64 .f32) (x7 : Vec F S1x64 .f32) (xs : Vec F S2048x64 .f32) (v : View sig .tc .vmem S2048x64 .f32) (f : v.ty.Contents (Elt F)) :
    v.read (Elt F) (v.writes (Elt F) f (runC c i arg3 harg3 arg4 harg4 arg5 harg5 arg6 harg6 arg7 harg7 arg8 harg8 arg9 harg9 arg10 harg10 arg11 harg11 arg12 harg12 hc0 hc1 x0 x1 x2 x3 x4 x5 x6 x7 xs).2.1) = k0_pay3 x0 x1 x2 x3 x4 xs := by
  rw [View.read_writes_eq_canon _ _ _ (runC_coverS c i arg3 harg3 arg4 harg4 arg5 harg5 arg6 harg6 arg7 harg7 arg8 harg8 arg9 harg9 arg10 harg10 arg11 harg11 arg12 harg12 hc0 hc1 x0 x1 x2 x3 x4 x5 x6 x7 xs)]
  unfold runC; dsimp only; sl_unfold_words
  rw [View.canon_unit_zero hz2]
  simp only [View.readAt_eq_ld, harg3.read_unread, harg4.read_unread, harg5.read_unread, harg6.read_unread, harg7.read_unread, harg8.read_unread, harg9.read_unread, harg10.read_unread, harg12.read_unread,
    View.ld_unit_zero (S := S1x2048x3) hz3, View.ld_unit_zero (S := S1x1024x3) hz3, View.ld_unit_zero (S := S1x2048x1) hz3, View.ld_unit_zero (S := S1x1x1024) hz3,
    View.ld_unit_zero (S := S1024x64) hz2, View.ld_unit_zero (S := S2048x64) hz2, View.ld_unit_zero (S := S1x64) hz2]

theorem runC_read8 (c : Dev nD) (i : grid0.Coords) (arg3 : Memref sig .tc .vmem S1x2048x3 .f32) (harg3 : arg3.IsWhole) (arg4 : Memref sig .tc .vmem S1x1024x3 .f32) (harg4 : arg4.IsWhole) (arg5 : Memref sig .tc .vmem S1x2048x1 .f32) (harg5 : arg5.IsWhole) (arg6 : Memref sig .tc .vmem S1x1x1024 .f32) (harg6 : arg6.IsWhole) (arg7 : Memref sig .tc .vmem S1024x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x2048x64 .f32) (harg11 : arg11.IsWhole) (arg12 : Memref sig .tc .vmem S2048x64 .f32) (harg12 : arg12.IsWhole) (hc0 : ¬cond0 i) (hc1 : cond1 i)
    (x0 : Vec F S1x2048x3 .f32) (x1 : Vec F S1x1024x3 .f32) (x2 : Vec F S1x2048x1 .f32) (x3 : Vec F S1x1x1024 .f32) (x4 : Vec F S1024x64 .f32) (x5 : Vec F S1x64 .f32) (x6 : Vec F S1x64 .f32) (x7 : Vec F S1x64 .f32) (xs : Vec F S2048x64 .f32) (v : View sig .tc .vmem S1x2048x64 .f32) (f : v.ty.Contents (Elt F)) :
    v.read (Elt F) (v.writes (Elt F) f (runC c i arg3 harg3 arg4 harg4 arg5 harg5 arg6 harg6 arg7 harg7 arg8 harg8 arg9 harg9 arg10 harg10 arg11 harg11 arg12 harg12 hc0 hc1 x0 x1 x2 x3 x4 x5 x6 x7 xs).1) = k0_pay1 (k0_pay3 x0 x1 x2 x3 x4 xs) x5 x6 x7 := by
  rw [View.read_writes_eq_canon _ _ _ (runC_cover8 c i arg3 harg3 arg4 harg4 arg5 harg5 arg6 harg6 arg7 harg7 arg8 harg8 arg9 harg9 arg10 harg10 arg11 harg11 arg12 harg12 hc0 hc1 x0 x1 x2 x3 x4 x5 x6 x7 xs)]
  unfold runC; dsimp only; sl_unfold_words
  rw [View.canon_unit_zero hz3]
  simp only [View.readCov_unit_zero (S := S2048x64) arg12.view hz2, View.readAt_eq_ld, harg3.read_unread, harg4.read_unread, harg5.read_unread, harg6.read_unread, harg7.read_unread, harg8.read_unread, harg9.read_unread, harg10.read_unread, harg12.read_unread,
    View.ld_unit_zero (S := S1x2048x3) hz3, View.ld_unit_zero (S := S1x1024x3) hz3, View.ld_unit_zero (S := S1x2048x1) hz3, View.ld_unit_zero (S := S1x1x1024) hz3,
    View.ld_unit_zero (S := S1024x64) hz2, View.ld_unit_zero (S := S2048x64) hz2, View.ld_unit_zero (S := S1x64) hz2]

end Cert.KernelIdeal.Hand

end
-- ==== Proof.KI.Body.lean ====
/-
  The body obligation: at every grid point, from the invariant and the windows' buffers as the pipeline hands them over,
  the body runs to the invariant of the next point and the buffers as the proof data says it leaves them. By cases on the
  column tile: first (the accumulator restarts from the zero block), middle, last (the output block is stored).
-/
import proofs.«178833_j3178275799379_2_alg».proof.Proof.KI.Data
import proofs.«178833_j3178275799379_2_alg».proof.Proof.KI.Pieces

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`: the invariant, nothing owed, and each window's current buffer. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  rw [show (dats m 0 c).leavesExact 5 t = owns (c : Thread nD τ) (ms5 t) fullShare ((dats m 0 c).after 5 t) from by
    unfold Dat.leavesExact; rw [live5 t], after5]
  rw [show (dats m 0 c).leavesExact 6 t = owns (c : Thread nD τ) (ms6 t) fullShare ((dats m 0 c).after 6 t) from by
    unfold Dat.leavesExact; rw [live6 t], after6]
  rw [show (dats m 0 c).leavesExact 7 t = owns (c : Thread nD τ) (ms7 t) fullShare ((dats m 0 c).after 7 t) from by
    unfold Dat.leavesExact; rw [live7 t], after7]
  rw [PhiS_castSucc m c t]
  by_cases h0 : t.val % 4 = 0
  · -- the first column tile
    have h1 : ¬t.val % 4 = 3 := by omega
    have hc0 : cond0 (grid0.coords t) := (hcond0 t).mpr h0
    have hc1 : ¬cond1 (grid0.coords t) := fun h => h1 ((hcond1 t).mp h)
    rw [Dat.leavesExact_idle (dats m 0 c) 8 t (idle8 t hc1) (noFlush8 t hc1)]
    rw [accAt_first m c t h0]
    have hΦ : PhiS m c t.val (Nat.le_of_lt t.isLt) ⊢ (iprop(∃ d, owns (c : Thread nD τ) scM fullShare d) : sProp 𝕄) := by
      by_cases hz : t.val = 0
      · rw [PhiS_zero m c _ _ hz]
      · rw [PhiS_pos m c _ _ hz]; iintro H; iexists _; iexact H
    iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    ihave HS := hΦ $$ HS
    iapply ((runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) hc0 hc1 (iblk m c 0 t) (iblk m c 1 t) (iblk m c 2 t) (iblk m c 3 t) (iblk m c 4 t)).2 Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, ⟨%es, HS⟩⟩
    isplitl [HS]
    · unfold owns; iexists _; isplitr
      swap; · iexact HS
      ipureintro; exact runA_read c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) hc0 hc1 (iblk m c 0 t) (iblk m c 1 t) (iblk m c 2 t) (iblk m c 3 t) (iblk m c 4 t) scM.view es
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists _; iexact H8
  · have hz : t.val ≠ 0 := fun h => h0 (by rw [h])
    have hc0 : ¬cond0 (grid0.coords t) := fun h => h0 ((hcond0 t).mp h)
    rw [PhiS_pos m c _ _ hz, accAt_next m c t h0]
    by_cases h1 : t.val % 4 = 3
    · -- the last column tile
      have hc1 : cond1 (grid0.coords t) := (hcond1 t).mpr h1
      rw [show (dats m 0 c).leavesExact 8 t = owns (c : Thread nD τ) (ms8 t) fullShare ((dats m 0 c).after 8 t) from by
        unfold Dat.leavesExact; rw [live8 t hc1], after8]
      unfold outAt
      rw [accAt_next m c t h0]
      iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) hc0 hc1 (iblk m c 0 t) (iblk m c 1 t) (iblk m c 2 t) (iblk m c 3 t) (iblk m c 4 t) (iblk m c 5 t) (iblk m c 6 t) (iblk m c 7 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS]; · iexact HS
      iintro ⟨H0, H1, H2, H3, H4, H5, H6, H7, ⟨%e8, H8⟩, ⟨%es, HS⟩⟩
      isplitl [HS]
      · unfold owns; iexists _; isplitr
        swap; · iexact HS
        ipureintro; exact runC_readS c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) hc0 hc1 (iblk m c 0 t) (iblk m c 1 t) (iblk m c 2 t) (iblk m c 3 t) (iblk m c 4 t) (iblk m c 5 t) (iblk m c 6 t) (iblk m c 7 t) _ scM.view es
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact runC_read8 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) hc0 hc1 (iblk m c 0 t) (iblk m c 1 t) (iblk m c 2 t) (iblk m c 3 t) (iblk m c 4 t) (iblk m c 5 t) (iblk m c 6 t) (iblk m c 7 t) _ (ms8 t).view e8
    · -- a middle column tile
      have hc1 : ¬cond1 (grid0.coords t) := fun h => h1 ((hcond1 t).mp h)
      rw [Dat.leavesExact_idle (dats m 0 c) 8 t (idle8 t hc1) (noFlush8 t hc1)]
      iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) hc0 hc1 (iblk m c 0 t) (iblk m c 1 t) (iblk m c 2 t) (iblk m c 3 t) (iblk m c 4 t) _).2 Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS]
      · unfold owns; iexists _; isplitr
        swap; · iexact HS
        ipureintro; exact runB_read c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) hc0 hc1 (iblk m c 0 t) (iblk m c 1 t) (iblk m c 2 t) (iblk m c 3 t) (iblk m c 4 t) _ scM.view es
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

/-- The body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KI.Launch.lean ====
/-
  The launch. The region's nine windows stand on eight arrays: the points array is read through two windows (the row
  tile and the column tile), so its full share is dealt to them in halves; every other array is one window's, whole.
  From there the pipeline's rule runs the body at the 32 points (the body obligation), and the final state has every
  windowed array at what the write-backs leave and every other unscoped buffer as the region found it.
-/
import proofs.«178833_j3178275799379_2_alg».proof.Proof.KI.Body
import Idealize.ShloMosaic.Lib.Pipeline.Launch
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Dealing the arrays to the windows -/

/-- The eight distinct arrays behind the nine windows, listed. -/
theorem arrBufs_eq (c : Dev nD) (W : (b : Ref sig .tc) → Buf (Elt F) ((c.tc : Thread nD τ).loc b)) :
    (Pipeline.arrBufs spec0 c W : sProp 𝕄)
      = iprop((((c.tc : Thread nD τ).loc main_arg0) ↦{fullShare} W main_arg0) ∗ (((c.tc : Thread nD τ).loc main_v2) ↦{fullShare} W main_v2) ∗ (((c.tc : Thread nD τ).loc main_v3) ↦{fullShare} W main_v3) ∗ (((c.tc : Thread nD τ).loc main_v4) ↦{fullShare} W main_v4) ∗ (((c.tc : Thread nD τ).loc main_v5) ↦{fullShare} W main_v5) ∗ (((c.tc : Thread nD τ).loc main_v6) ↦{fullShare} W main_v6) ∗ (((c.tc : Thread nD τ).loc main_v7) ↦{fullShare} W main_v7) ∗ (((c.tc : Thread nD τ).loc main_v8) ↦{fullShare} W main_v8)) := by
  unfold Pipeline.arrBufs
  exact bigSep_eq_bigSepL_of_eq [main_arg0, main_v2, main_v3, main_v4, main_v5, main_v6, main_v7, main_v8] (by decide) (by decide) _

/-- The windows' arrays are whole buffers, so each is held as its buffer at the window's share. -/
theorem arrays_eq (c : Dev nD) (Fn : (w : Fin cfg0.W) → Buf (Elt F) ((cfg0.win w).arr.view.loc (c.tc : Thread nD τ))) :
    ((dats m 0 c).arrays Fn : sProp 𝕄)
      = bigSep Finset.univ fun w : Fin 9 => (((c.tc : Thread nD τ).loc (Pipeline.arrRef spec0 w)) ↦{(dats m 0 c).share w} Fn w : sProp 𝕄) := by
  unfold Dat.arrays
  exact bigSep_congr fun w _ => by rw [(arr_whole0 w).set_eq_univ]

theorem share0 (c : Dev nD) : (dats m 0 c).share 0 = fullShare.left := rfl
theorem share1 (c : Dev nD) : (dats m 0 c).share 1 = fullShare.right := rfl
theorem share2 (c : Dev nD) : (dats m 0 c).share 2 = fullShare := rfl
theorem share3 (c : Dev nD) : (dats m 0 c).share 3 = fullShare := rfl
theorem share4 (c : Dev nD) : (dats m 0 c).share 4 = fullShare := rfl
theorem share5 (c : Dev nD) : (dats m 0 c).share 5 = fullShare := rfl
theorem share6 (c : Dev nD) : (dats m 0 c).share 6 = fullShare := rfl
theorem share7 (c : Dev nD) : (dats m 0 c).share 7 = fullShare := rfl
theorem share8 (c : Dev nD) : (dats m 0 c).share 8 = fullShare := rfl

/-- The points array's share is halved between its two windows; the others go over whole. -/
theorem hsplit (c : Dev nD) :
    (Pipeline.arrBufs spec0 c (V m c) : sProp 𝕄) ⊢ (dats m 0 c).arrays ((dats m 0 c).arrAt · 0) := by
  rw [arrBufs_eq, arrays_eq, bigSep_W0]
  simp only [share0, share1, share2, share3, share4, share5, share6, share7, share8]
  iintro ⟨H0, H2, H3, H4, H5, H6, H7, H8⟩
  ihave ⟨Ha, Hb⟩ := (pointsTo_share (PosShare.mem_left_op_right fullShare)).1 $$ H0
  isplitl [Ha]; · iexact Ha
  isplitl [Hb]; · iexact Hb
  isplitl [H2]; · iexact H2
  isplitl [H3]; · iexact H3
  isplitl [H4]; · iexact H4
  isplitl [H5]; · iexact H5
  isplitl [H6]; · iexact H6
  isplitl [H7]; · iexact H7
  iexact H8

/-! ## The invariant at the two ends -/

theorem hin (c : Dev nD) : (iprop(emp ∗ Pipeline.scopedRest spec0 c) : sProp 𝕄) ⊢ (dats m 0 c).Φ 0 := by
  rw [show (dats m 0 c).Φ 0 = PhiS m c 0 (Nat.zero_le _) from rfl, PhiS_zero m c 0 _ rfl, scopedRest_eq]
  iintro ⟨-, H⟩; iexact H

theorem hout (c : Dev nD) : (dats m 0 c).Φ (Fin.last cfg0.N) ⊢ (iprop(emp ∗ Pipeline.scopedRest spec0 c) : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 32 := N_0; omega), scopedRest_eq]
  iintro H
  isplitr; · iempintro
  iexists _; iexact H

/-! ## The run -/

/-- What the run ends in: every windowed array at what the write-backs of all 32 points leave, every other unscoped
    buffer as the region found it. -/
def RunPost (r : PUnit × MemSt nD τ sig (Elt F)) : Prop :=
  ∀ c : Dev nD, (∀ w, r.2.mem ((spec0 w).arr.view.loc (c.tc : Thread nD τ)) = (dats m 0 c).arrAt w cfg0.N)
    ∧ ∀ b ∈ Pipeline.restRefs sig spec0, r.2.mem ((c.tc : Thread nD τ).loc b) = V m c b

set_option backward.isDefEq.respectTransparency.types false in
theorem run_main : θ_run defs (onTc (τ := τ) (main (F := F))) ⟨m, fun _ => 0, ρ⟩ (RunPost m) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj))
    (hu₀ := .rfl)
    (V := V m) (hmain := hmain m Variants.none) (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := hin m) (hout := hout m)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

end Cert.KernelIdeal.Hand

end
-- ==== Proof.KI.Frame.lean ====
/-
  The frame: the program runs to its end without a fault and its five argument arrays end as they began. The points
  array is a windowed input, never written back; the other four arguments are no window's array, and the region
  leaves such buffers as it found them — which is as launched, no host operation writing an argument.
-/
import proofs.«178833_j3178275799379_2_alg».proof.Proof.KI.Launch

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))

theorem mem_rest1 : main_arg1 ∈ Pipeline.restRefs sig spec0 := by decide
theorem mem_rest2 : main_arg2 ∈ Pipeline.restRefs sig spec0 := by decide
theorem mem_rest3 : main_arg3 ∈ Pipeline.restRefs sig spec0 := by decide
theorem mem_rest4 : main_arg4 ∈ Pipeline.restRefs sig spec0 := by decide

/-- The arguments after the run, from the run's post. -/
theorem kept_args (r : PUnit × MemSt nD τ sig (Elt F)) (h : RunPost m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).1 0).trans (((dats m 0 c).arrAt_in 0 rfl _).trans ((A_eq m c 0).trans (V_main_arg0 m c))),
   ((h c).2 main_arg1 mem_rest1).trans (V_main_arg1 m c),
   ((h c).2 main_arg2 mem_rest2).trans (V_main_arg2 m c),
   ((h c).2 main_arg3 mem_rest3).trans (V_main_arg3 m c),
   ((h c).2 main_arg4 mem_rest4).trans (V_main_arg4 m c)⟩

/-- The frame claim's statement, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => kept_args m r h c) (run_main m ρ)

end Cert.KernelIdeal.Hand

end
-- ==== Proof.KI.Blocks.lean ====
/-
  The windows' blocks, read at an index. Point `t` of the 32 is (batch, row tile, column tile) =
  (t / 8, (t / 4) % 2, t % 4). The row-tile windows (points, their squared norms, the output) stand at rows
  [2048·(row tile), +2048) of batch t / 8; the column-tile windows (points, their squared norms, the transposed
  weights) at points [1024·(column tile), +1024); the three feature vectors are read whole.
-/
import proofs.«178833_j3178275799379_2_alg».proof.Proof.KI.Kit
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open ValueIdx

variable (m : (ℓ : Loc nD τ sig) → Buf (Elt F) ℓ)

theorem tlt (t : Fin cfg0.N) : t.val < 32 := lt_of_lt_of_eq t.isLt (show cfg0.N = 32 from N_0)

/-- The batch, the row within the 4096 points, and the column within the 4096 points, of a point and a block coordinate. -/
def bOf (t : Fin cfg0.N) : Fin 4 := ⟨t.val / 8, by have := tlt t; omega⟩
def rowOf (t : Fin cfg0.N) (r : Fin 2048) : Fin 4096 := ⟨(t.val / 4) % 2 * 2048 + r.val, by have := r.isLt; omega⟩
def colOf (t : Fin cfg0.N) (k : Fin 1024) : Fin 4096 := ⟨t.val % 4 * 1024 + k.val, by have := k.isLt; omega⟩

/-- The printed index maps, decided over the grid. -/
theorem idx_facts : ∀ t : Fin cfg0.N,
    (win0_0.index t (0 : Fin 3) = t.val / 8 ∧ win0_0.index t (1 : Fin 3) = (t.val / 4) % 2 ∧ win0_0.index t (2 : Fin 3) = 0)
    ∧ (win0_1.index t (0 : Fin 3) = t.val / 8 ∧ win0_1.index t (1 : Fin 3) = t.val % 4 ∧ win0_1.index t (2 : Fin 3) = 0)
    ∧ (win0_2.index t (0 : Fin 3) = t.val / 8 ∧ win0_2.index t (1 : Fin 3) = (t.val / 4) % 2 ∧ win0_2.index t (2 : Fin 3) = 0)
    ∧ (win0_3.index t (0 : Fin 3) = t.val / 8 ∧ win0_3.index t (1 : Fin 3) = 0 ∧ win0_3.index t (2 : Fin 3) = t.val % 4)
    ∧ (win0_4.index t (0 : Fin 2) = t.val % 4 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 3) = t.val / 8 ∧ win0_8.index t (1 : Fin 3) = (t.val / 4) % 2 ∧ win0_8.index t (2 : Fin 3) = 0) :=
  (by decide +kernel : ∀ t : Fin grid0.N, _)

/-- The row tile of the points. -/
theorem blk0_at (c : Dev nD) (t : Fin cfg0.N) (j : S1x2048x3.Idx) :
    iblk m c 0 t j = V m c main_arg0 (ix3 (bOf t) (rowOf t (j 1)) (j 2)) := by
  obtain ⟨⟨e0, e1, e2⟩, -⟩ := idx_facts t
  unfold iblk; rw [View.read_apply]
  refine congrArg (V m c main_arg0) (funext fun a => Fin.ext ?_)
  match a with
  | ⟨0, _⟩ => show win0_0.index t (0 : Fin 3) * 1 + 1 * (j 0).val = t.val / 8; have hj0 : (j 0).val < 1 := (j 0).isLt; omega
  | ⟨1, _⟩ => show win0_0.index t (1 : Fin 3) * 2048 + 1 * (j 1).val = (t.val / 4) % 2 * 2048 + (j 1).val; omega
  | ⟨2, _⟩ => show win0_0.index t (2 : Fin 3) * 3 + 1 * (j 2).val = (j 2).val; omega

/-- The column tile of the points. -/
theorem blk1_at (c : Dev nD) (t : Fin cfg0.N) (j : S1x1024x3.Idx) :
    iblk m c 1 t j = V m c main_arg0 (ix3 (bOf t) (colOf t (j 1)) (j 2)) := by
  obtain ⟨-, ⟨e0, e1, e2⟩, -⟩ := idx_facts t
  unfold iblk; rw [View.read_apply]
  refine congrArg (V m c main_arg0) (funext fun a => Fin.ext ?_)
  match a with
  | ⟨0, _⟩ => show win0_1.index t (0 : Fin 3) * 1 + 1 * (j 0).val = t.val / 8; have hj0 : (j 0).val < 1 := (j 0).isLt; omega
  | ⟨1, _⟩ => show win0_1.index t (1 : Fin 3) * 1024 + 1 * (j 1).val = t.val % 4 * 1024 + (j 1).val; omega
  | ⟨2, _⟩ => show win0_1.index t (2 : Fin 3) * 3 + 1 * (j 2).val = (j 2).val; omega

/-- The squared norms of the row tile. -/
theorem blk2_at (c : Dev nD) (t : Fin cfg0.N) (j : S1x2048x1.Idx) :
    iblk m c 2 t j = V m c main_v2 (ix3 (bOf t) (rowOf t (j 1)) (j 2)) := by
  obtain ⟨-, -, ⟨e0, e1, e2⟩, -⟩ := idx_facts t
  unfold iblk; rw [View.read_apply]
  refine congrArg (V m c main_v2) (funext fun a => Fin.ext ?_)
  match a with
  | ⟨0, _⟩ => show win0_2.index t (0 : Fin 3) * 1 + 1 * (j 0).val = t.val / 8; have hj0 : (j 0).val < 1 := (j 0).isLt; omega
  | ⟨1, _⟩ => show win0_2.index t (1 : Fin 3) * 2048 + 1 * (j 1).val = (t.val / 4) % 2 * 2048 + (j 1).val; omega
  | ⟨2, _⟩ => show win0_2.index t (2 : Fin 3) * 1 + 1 * (j 2).val = (j 2).val; omega

/-- The squared norms of the column tile. -/
theorem blk3_at (c : Dev nD) (t : Fin cfg0.N) (j : S1x1x1024.Idx) :
    iblk m c 3 t j = V m c main_v3 (ix3 (bOf t) (j 1) (colOf t (j 2))) := by
  obtain ⟨-, -, -, ⟨e0, e1, e2⟩, -⟩ := idx_facts t
  unfold iblk; rw [View.read_apply]
  refine congrArg (V m c main_v3) (funext fun a => Fin.ext ?_)
  match a with
  | ⟨0, _⟩ => show win0_3.index t (0 : Fin 3) * 1 + 1 * (j 0).val = t.val / 8; have hj0 : (j 0).val < 1 := (j 0).isLt; omega
  | ⟨1, _⟩ => show win0_3.index t (1 : Fin 3) * 1 + 1 * (j 1).val = (j 1).val; omega
  | ⟨2, _⟩ => show win0_3.index t (2 : Fin 3) * 1024 + 1 * (j 2).val = t.val % 4 * 1024 + (j 2).val; omega

/-- The column tile of the transposed weights. -/
theorem blk4_at (c : Dev nD) (t : Fin cfg0.N) (j : S1024x64.Idx) :
    iblk m c 4 t j = V m c main_v4 (ix2 (colOf t (j 0)) (j 1)) := by
  obtain ⟨-, -, -, -, ⟨e0, e1⟩, -⟩ := idx_facts t
  unfold iblk; rw [View.read_apply]
  refine congrArg (V m c main_v4) (funext fun a => Fin.ext ?_)
  match a with
  | ⟨0, _⟩ => show win0_4.index t (0 : Fin 2) * 1024 + 1 * (j 0).val = t.val % 4 * 1024 + (j 0).val; omega
  | ⟨1, _⟩ => show win0_4.index t (1 : Fin 2) * 64 + 1 * (j 1).val = (j 1).val; omega

/-- The three feature vectors, whole. -/
theorem blk5_at (c : Dev nD) (t : Fin cfg0.N) (j : S1x64.Idx) : iblk m c 5 t j = V m c main_v5 j := by
  obtain ⟨-, -, -, -, -, ⟨e0, e1⟩, -⟩ := idx_facts t
  unfold iblk; rw [View.read_apply]
  refine congrArg (V m c main_v5) (funext fun a => Fin.ext ?_)
  match a with
  | ⟨0, _⟩ => show win0_5.index t (0 : Fin 2) * 1 + 1 * (j 0).val = (j 0).val; omega
  | ⟨1, _⟩ => show win0_5.index t (1 : Fin 2) * 64 + 1 * (j 1).val = (j 1).val; omega

theorem blk6_at (c : Dev nD) (t : Fin cfg0.N) (j : S1x64.Idx) : iblk m c 6 t j = V m c main_v6 j := by
  obtain ⟨-, -, -, -, -, -, ⟨e0, e1⟩, -⟩ := idx_facts t
  unfold iblk; rw [View.read_apply]
  refine congrArg (V m c main_v6) (funext fun a => Fin.ext ?_)
  match a with
  | ⟨0, _⟩ => show win0_6.index t (0 : Fin 2) * 1 + 1 * (j 0).val = (j 0).val; omega
  | ⟨1, _⟩ => show win0_6.index t (1 : Fin 2) * 64 + 1 * (j 1).val = (j 1).val; omega

theorem blk7_at (c : Dev nD) (t : Fin cfg0.N) (j : S1x64.Idx) : iblk m c 7 t j = V m c main_v7 j := by
  obtain ⟨-, -, -, -, -, -, -, ⟨e0, e1⟩, -⟩ := idx_facts t
  unfold iblk; rw [View.read_apply]
  refine congrArg (V m c main_v7) (funext fun a => Fin.ext ?_)
  match a with
  | ⟨0, _⟩ => show win0_7.index t (0 : Fin 2) * 1 + 1 * (j 0).val = (j 0).val; omega
  | ⟨1, _⟩ => show win0_7.index t (1 : Fin 2) * 64 + 1 * (j 1).val = (j 1).val; omega

/-! ## The output's blocks tile its array -/

/-- An index of the output array is in point `t`'s block iff each coordinate is in the block's range on its axis. -/
theorem mem_blk8 (t : Fin cfg0.N) (i : S4x4096x64.Idx) :
    i ∈ ((cfg0.win 8).blk t).view.set ↔ ∀ a : Fin 3, win0_8.index t a * S1x2048x64.size a ≤ (i a).val ∧ (i a).val < win0_8.index t a * S1x2048x64.size a + S1x2048x64.size a := by
  show i ∈ ((View.whole main_v8).slice (win0_8.rect t)).set ↔ _
  rw [View.set_slice_whole, Rect.mem_set_unit]
  exact Iff.rfl

/-- The point that writes row `n` of batch `b` back: the last column tile of that row tile. -/
def ptOf (i : S4x4096x64.Idx) : Fin cfg0.N :=
  ⟨(i 0).val * 8 + (i 1).val / 2048 * 4 + 3, by
    have h0 := (i 0).isLt; have h1 := (i 1).isLt
    show _ < cfg0.N; rw [show cfg0.N = 32 from N_0]
    have h0' : (i 0).val < 4 := h0; have h1' : (i 1).val < 4096 := h1; omega⟩

/-- Every index of the output array is in the block some point writes back. -/
theorem cover8 (i : S4x4096x64.Idx) : ∃ t : Fin cfg0.N, (cfg0.win 8).flush t = true ∧ i ∈ ((cfg0.win 8).blk t).view.set := by
  have h0 : (i 0).val < 4 := (i 0).isLt; have h1 : (i 1).val < 4096 := (i 1).isLt; have h2 : (i 2).val < 64 := (i 2).isLt
  refine ⟨ptOf i, (flush0_8 (ptOf i)).mpr (by show ((i 0).val * 8 + (i 1).val / 2048 * 4 + 3) % 4 = 3; omega), ?_⟩
  obtain ⟨-, -, -, -, -, -, -, -, ⟨e0, e1, e2⟩⟩ := idx_facts (ptOf i)
  have hv : (ptOf i).val = (i 0).val * 8 + (i 1).val / 2048 * 4 + 3 := rfl
  rw [mem_blk8]
  intro a
  match a with
  | ⟨0, _⟩ => show win0_8.index (ptOf i) (0 : Fin 3) * 1 ≤ (i 0).val ∧ (i 0).val < win0_8.index (ptOf i) (0 : Fin 3) * 1 + 1; omega
  | ⟨1, _⟩ => show win0_8.index (ptOf i) (1 : Fin 3) * 2048 ≤ (i 1).val ∧ (i 1).val < win0_8.index (ptOf i) (1 : Fin 3) * 2048 + 2048; omega
  | ⟨2, _⟩ => show win0_8.index (ptOf i) (2 : Fin 3) * 64 ≤ (i 2).val ∧ (i 2).val < win0_8.index (ptOf i) (2 : Fin 3) * 64 + 64; omega

end Cert.KernelIdeal.Hand

end
-- ==== Proof.KI.HostAt.lean ====
/-
  The nine host operations before the region, read at an index at the ideal instance.

  Before the region the program squares the points' coordinates and sums them over the coordinate axis from
  the initial value zero (the squared norm of every point), lays the norms out as a column ([4, 4096, 1]) and
  as a row ([4, 1, 4096]), transposes the weights ([64, 4096] to [4096, 64]) and views each of the three
  feature vectors as a one-row matrix ([64] to [1, 64]). None of them writes an argument. Each array the
  region then finds is first named as its operations' term of the arguments, then read at coordinates:
    the column of norms at (b, n, 0) and the row of norms at (b, 0, j) are  0 + Σ_d P(b, ·, d)²,
    the transposed weights at (j, g) are the weights at (g, j),
    a feature row at (0, g) is the feature vector at g.
-/
import proofs.«178833_j3178275799379_2_alg».proof.Proof.KI.Kit
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ)

/-- The five argument arrays of core `c`, typed as functions of their index. -/
abbrev in0 (c : Dev nD) : S4x4096x3.Idx → EReal := m ((c : Thread nD τ).loc main_arg0)
abbrev in1 (c : Dev nD) : S64x4096.Idx → EReal := m ((c : Thread nD τ).loc main_arg1)
abbrev in2 (c : Dev nD) : S64.Idx → EReal := m ((c : Thread nD τ).loc main_arg2)
abbrev in3 (c : Dev nD) : S64.Idx → EReal := m ((c : Thread nD τ).loc main_arg3)
abbrev in4 (c : Dev nD) : S64.Idx → EReal := m ((c : Thread nD τ).loc main_arg4)

/-! ## The arguments are not written -/

theorem V_arg0 (c : Dev nD) : V m c main_arg0 = m ((c : Thread nD τ).loc main_arg0) := by
  dsimp only [V, hostOps0]; after_results
theorem V_arg1 (c : Dev nD) : V m c main_arg1 = m ((c : Thread nD τ).loc main_arg1) := by
  dsimp only [V, hostOps0]; after_results
theorem V_arg2 (c : Dev nD) : V m c main_arg2 = m ((c : Thread nD τ).loc main_arg2) := by
  dsimp only [V, hostOps0]; after_results
theorem V_arg3 (c : Dev nD) : V m c main_arg3 = m ((c : Thread nD τ).loc main_arg3) := by
  dsimp only [V, hostOps0]; after_results
theorem V_arg4 (c : Dev nD) : V m c main_arg4 = m ((c : Thread nD τ).loc main_arg4) := by
  dsimp only [V, hostOps0]; after_results

/-! ## The squared norms -/

/-- The sum of a point's squared coordinates, from the initial value zero. -/
theorem sqnorm_at (x : S4x4096x3.Idx → EReal) (b : Fin 4) (n : Fin 4096) :
    Host.reduceAdd (F := Ideal) (mulf (F := Ideal) x x) (constant (F := Ideal) S_ .f32 0x00000000#32)
        reducesTo_S4x4096x3_S4x4096_d2 h_S_ (ix2 b n)
      = Ideal.ofBits .f32 0x00000000#32 + ∑ d : Fin 3, x (ix3 b n d) * x (ix3 b n d) := by
  simp only [Host.reduceAdd, Ideal.hostReduceAdd_def]
  rw [Ideal.hostReduceAdd_single reducesTo_S4x4096x3_S4x4096_d2 (by decide)]
  refine congrArg₂ (· + ·) rfl (Finset.sum_congr rfl fun k _ => ?_)
  have hi : ∀ h : S4x4096x3.Reduces [2] S4x4096, h.lift (ix2 b n) k = ix3 b n k := fun h =>
    funext fun a => Fin.ext (by match a with | ⟨0, _⟩ => rfl | ⟨1, _⟩ => rfl | ⟨2, _⟩ => rfl)
  rw [hi]
  rfl

theorem V_v2_stage (c : Dev nD) :
    (V m c main_v2 : S4x4096x1.Idx → EReal)
      = broadcastInDim S4x4096x1 ![0, 1] bcast_S4x4096_S4x4096x1_0_1
          (Host.reduceAdd (F := Ideal) (mulf (F := Ideal) (in0 m c) (in0 m c))
            (constant (F := Ideal) S_ .f32 0x00000000#32) reducesTo_S4x4096x3_S4x4096_d2 h_S_) := by
  dsimp only [V, hostOps0]; after_results

theorem V_v3_stage (c : Dev nD) :
    (V m c main_v3 : S4x1x4096.Idx → EReal)
      = broadcastInDim S4x1x4096 ![0, 2] bcast_S4x4096_S4x1x4096_0_2
          (Host.reduceAdd (F := Ideal) (mulf (F := Ideal) (in0 m c) (in0 m c))
            (constant (F := Ideal) S_ .f32 0x00000000#32) reducesTo_S4x4096x3_S4x4096_d2 h_S_) := by
  dsimp only [V, hostOps0]; after_results

theorem V_v2_at (c : Dev nD) (b : Fin 4) (n : Fin 4096) (z : Fin 1) :
    (V m c main_v2 : S4x4096x1.Idx → EReal) (ix3 b n z)
      = Ideal.ofBits .f32 0x00000000#32 + ∑ d : Fin 3, in0 m c (ix3 b n d) * in0 m c (ix3 b n d) := by
  rw [V_v2_stage m c, ← sqnorm_at (in0 m c) b n]
  exact broadcastInDim_apply _ bcast_S4x4096_S4x4096x1_0_1 _ (ix3 b n z) (ix2 b n) (fun a => match a with
    | ⟨0, _⟩ => by show b.val = if (4 : Nat) = 1 then 0 else b.val; rw [if_neg (by decide)]
    | ⟨1, _⟩ => by show n.val = if (4096 : Nat) = 1 then 0 else n.val; rw [if_neg (by decide)])

theorem V_v3_at (c : Dev nD) (b : Fin 4) (z : Fin 1) (j : Fin 4096) :
    (V m c main_v3 : S4x1x4096.Idx → EReal) (ix3 b z j)
      = Ideal.ofBits .f32 0x00000000#32 + ∑ d : Fin 3, in0 m c (ix3 b j d) * in0 m c (ix3 b j d) := by
  rw [V_v3_stage m c, ← sqnorm_at (in0 m c) b j]
  exact broadcastInDim_apply _ bcast_S4x4096_S4x1x4096_0_2 _ (ix3 b z j) (ix2 b j) (fun a => match a with
    | ⟨0, _⟩ => by show b.val = if (4 : Nat) = 1 then 0 else b.val; rw [if_neg (by decide)]
    | ⟨1, _⟩ => by show j.val = if (4096 : Nat) = 1 then 0 else j.val; rw [if_neg (by decide)])

/-! ## The transposed weights -/

theorem V_v4_stage (c : Dev nD) :
    (V m c main_v4 : S4096x64.Idx → EReal)
      = transpose S4096x64 [1, 0] (in1 m c) transposes_S64x4096_S4096x64_1_0 := by
  dsimp only [V, hostOps0]; after_results

theorem V_v4_at (c : Dev nD) (j : Fin 4096) (g : Fin 64) :
    (V m c main_v4 : S4096x64.Idx → EReal) (ix2 j g) = in1 m c (ix2 g j) := by
  rw [V_v4_stage m c]
  exact transpose_ix2_apply (in1 m c) transposes_S64x4096_S4096x64_1_0 j g

/-! ## The three feature vectors as rows -/

theorem V_v5_stage (c : Dev nD) :
    (V m c main_v5 : S1x64.Idx → EReal) = shapeCast S1x64 (in2 m c) shapeCasts_S64_S1x64 := by
  dsimp only [V, hostOps0]; after_results; rfl
theorem V_v6_stage (c : Dev nD) :
    (V m c main_v6 : S1x64.Idx → EReal) = shapeCast S1x64 (in3 m c) shapeCasts_S64_S1x64 := by
  dsimp only [V, hostOps0]; after_results; rfl
theorem V_v7_stage (c : Dev nD) :
    (V m c main_v7 : S1x64.Idx → EReal) = shapeCast S1x64 (in4 m c) shapeCasts_S64_S1x64 := by
  dsimp only [V, hostOps0]; after_results; rfl

theorem V_v5_at (c : Dev nD) (z : Fin 1) (g : Fin 64) :
    (V m c main_v5 : S1x64.Idx → EReal) (ix2 z g) = in2 m c (ix1 g) := by
  rw [V_v5_stage m c]
  exact shapeCast_a_1a_apply (in2 m c) shapeCasts_S64_S1x64 z g
theorem V_v6_at (c : Dev nD) (z : Fin 1) (g : Fin 64) :
    (V m c main_v6 : S1x64.Idx → EReal) (ix2 z g) = in3 m c (ix1 g) := by
  rw [V_v6_stage m c]
  exact shapeCast_a_1a_apply (in3 m c) shapeCasts_S64_S1x64 z g
theorem V_v7_at (c : Dev nD) (z : Fin 1) (g : Fin 64) :
    (V m c main_v7 : S1x64.Idx → EReal) (ix2 z g) = in4 m c (ix1 g) := by
  rw [V_v7_stage m c]
  exact shapeCast_a_1a_apply (in4 m c) shapeCasts_S64_S1x64 z g

end Cert.KernelIdeal.Hand

end
-- ==== Proof.LibColumn.lean ====
/-
  Column forms of two layout operations, read at an index: a length-a vector cast to an a-by-1 column,
  and an a-by-1 column broadcast across b columns. (A row sum kept as a column, then spread back over the row.)
-/
import Idealize.ShloMosaic.Lib.Pipeline.Value
import Idealize.ShloMosaic.Lib.ValueIdx

noncomputable section

namespace Cert.Lib.Column

open Idealize.ShloMosaic Idealize.ShloMosaic.ValueIdx

variable {α : Type}

/-- A length-`a` vector cast to an `a`-by-1 column reads, at `(i, u)`, the vector at `i`: both sit at
    row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `a`-by-1 column broadcast to `a`-by-`b` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Column

end
-- ==== Proof.PayAt.lean ====
/-
  The kernel body's three stored values, each read at one index at the ideal values: the zero block, the
  accumulator update (accumulator plus the distance tile contracted with the weight tile), and the epilogue
  (bias, normalisation over the 64 features, scale, shift, and the product with the logistic function).
  Pure functions of the values the body loads.
-/
import proofs.«178833_j3178275799379_2_alg».proof.Proof.Gen.KernelIdeal.Skeleton
import proofs.«178833_j3178275799379_2_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

namespace Cert.PayAt

open Cert.KernelIdeal Cert.KernelIdeal.Gen Idealize.ShloMosaic Idealize.ShloMosaic.ValueIdx

/-! ## The zero block -/

/-- The zero block stored at the first reduction step, read at (r, f): the zero word. -/
theorem pay2_at (r : Fin 2048) (f : Fin 64) :
    k0_pay2 (F := Ideal) (ix2 r f) = Ideal.ofBits .f32 0x00000000#32 := by
  unfold k0_pay2
  rw [shapeCast_self]
  rfl

/-! ## The two contractions read at an index -/

theorem dotCoord_lhsNon (i : S2048x1024.Idx) (q : dot_S2048x3_S1024x3_S2048x1024_1_1_0_0_n_n.contr.Idx) :
    (dot_S2048x3_S1024x3_S2048x1024_1_1_0_0_n_n.lhsIdx i q 0).val = (i 0).val := by
  unfold DotDims.lhsIdx
  rw [dif_neg (show ¬(0 : Fin S2048x3.rank) ∈ dot_S2048x3_S1024x3_S2048x1024_1_1_0_0_n_n.lhsBatch by decide), dif_pos (show (0 : Fin S2048x3.rank) ∈ dot_S2048x3_S1024x3_S2048x1024_1_1_0_0_n_n.lhsNonContracting by decide)]
  rfl
theorem dotCoord_lhsCon (i : S2048x1024.Idx) (q : dot_S2048x3_S1024x3_S2048x1024_1_1_0_0_n_n.contr.Idx) :
    (dot_S2048x3_S1024x3_S2048x1024_1_1_0_0_n_n.lhsIdx i q 1).val = (q ⟨0, by decide⟩).val :=
  dot_S2048x3_S1024x3_S2048x1024_1_1_0_0_n_n.lhsIdx_val_of_single rfl i q
theorem dotCoord_rhsNon (i : S2048x1024.Idx) (q : dot_S2048x3_S1024x3_S2048x1024_1_1_0_0_n_n.contr.Idx) :
    (dot_S2048x3_S1024x3_S2048x1024_1_1_0_0_n_n.rhsIdx i q 0).val = (i 1).val := by
  unfold DotDims.rhsIdx
  rw [dif_neg (show ¬(0 : Fin S1024x3.rank) ∈ dot_S2048x3_S1024x3_S2048x1024_1_1_0_0_n_n.rhsBatch by decide), dif_pos (show (0 : Fin S1024x3.rank) ∈ dot_S2048x3_S1024x3_S2048x1024_1_1_0_0_n_n.rhsNonContracting by decide)]
  rfl
theorem dotCoord_rhsCon (i : S2048x1024.Idx) (q : dot_S2048x3_S1024x3_S2048x1024_1_1_0_0_n_n.contr.Idx) :
    (dot_S2048x3_S1024x3_S2048x1024_1_1_0_0_n_n.rhsIdx i q 1).val = (q ⟨0, by decide⟩).val :=
  dot_S2048x3_S1024x3_S2048x1024_1_1_0_0_n_n.rhsIdx_val_of_single rfl i q

/-- The row tile against the column tile, contracted over the three coordinates into the zero block, at (r, k): the inner product of the two points. -/
theorem dotCoord_at (A : FVec Ideal S2048x3 .f32) (B : FVec Ideal S1024x3 .f32) (r : Fin 2048) (k : Fin 1024) :
    matmul dot_S2048x3_S1024x3_S2048x1024_1_1_0_0_n_n none A B (constant (F := Ideal) S2048x1024 .f32 0x00000000#32) (ix2 r k)
      = ∑ d : Fin 3, A (ix2 r d) * B (ix2 k d) := by
  refine (Ideal.matmul_constant_zero_apply dot_S2048x3_S1024x3_S2048x1024_1_1_0_0_n_n none A B (ix2 r k)).trans ?_
  rw [← Equiv.sum_comp (contrEquiv1 dot_S2048x3_S1024x3_S2048x1024_1_1_0_0_n_n 3 rfl rfl).symm]
  refine Finset.sum_congr rfl fun d _ => ?_
  have hd := contrEquiv1_symm_val dot_S2048x3_S1024x3_S2048x1024_1_1_0_0_n_n 3 rfl rfl d
  have el : dot_S2048x3_S1024x3_S2048x1024_1_1_0_0_n_n.lhsIdx (ix2 r k) ((contrEquiv1 dot_S2048x3_S1024x3_S2048x1024_1_1_0_0_n_n 3 rfl rfl).symm d) = ix2 r d := funext fun a => Fin.ext (by
    match a with
    | ⟨0, _⟩ => exact dotCoord_lhsNon _ _
    | ⟨1, _⟩ => exact (dotCoord_lhsCon _ _).trans hd)
  have er : dot_S2048x3_S1024x3_S2048x1024_1_1_0_0_n_n.rhsIdx (ix2 r k) ((contrEquiv1 dot_S2048x3_S1024x3_S2048x1024_1_1_0_0_n_n 3 rfl rfl).symm d) = ix2 k d := funext fun a => Fin.ext (by
    match a with
    | ⟨0, _⟩ => exact dotCoord_rhsNon _ _
    | ⟨1, _⟩ => exact (dotCoord_rhsCon _ _).trans hd)
  rw [el, er]

theorem dotWeight_lhsNon (i : S2048x64.Idx) (q : dot_S2048x1024_S1024x64_S2048x64_1_0_0_1_n_n.contr.Idx) :
    (dot_S2048x1024_S1024x64_S2048x64_1_0_0_1_n_n.lhsIdx i q 0).val = (i 0).val := by
  unfold DotDims.lhsIdx
  rw [dif_neg (show ¬(0 : Fin S2048x1024.rank) ∈ dot_S2048x1024_S1024x64_S2048x64_1_0_0_1_n_n.lhsBatch by decide), dif_pos (show (0 : Fin S2048x1024.rank) ∈ dot_S2048x1024_S1024x64_S2048x64_1_0_0_1_n_n.lhsNonContracting by decide)]
  rfl
theorem dotWeight_lhsCon (i : S2048x64.Idx) (q : dot_S2048x1024_S1024x64_S2048x64_1_0_0_1_n_n.contr.Idx) :
    (dot_S2048x1024_S1024x64_S2048x64_1_0_0_1_n_n.lhsIdx i q 1).val = (q ⟨0, by decide⟩).val :=
  dot_S2048x1024_S1024x64_S2048x64_1_0_0_1_n_n.lhsIdx_val_of_single rfl i q
theorem dotWeight_rhsNon (i : S2048x64.Idx) (q : dot_S2048x1024_S1024x64_S2048x64_1_0_0_1_n_n.contr.Idx) :
    (dot_S2048x1024_S1024x64_S2048x64_1_0_0_1_n_n.rhsIdx i q 1).val = (i 1).val := by
  unfold DotDims.rhsIdx
  rw [dif_neg (show ¬(1 : Fin S1024x64.rank) ∈ dot_S2048x1024_S1024x64_S2048x64_1_0_0_1_n_n.rhsBatch by decide), dif_pos (show (1 : Fin S1024x64.rank) ∈ dot_S2048x1024_S1024x64_S2048x64_1_0_0_1_n_n.rhsNonContracting by decide)]
  rfl
theorem dotWeight_rhsCon (i : S2048x64.Idx) (q : dot_S2048x1024_S1024x64_S2048x64_1_0_0_1_n_n.contr.Idx) :
    (dot_S2048x1024_S1024x64_S2048x64_1_0_0_1_n_n.rhsIdx i q 0).val = (q ⟨0, by decide⟩).val :=
  dot_S2048x1024_S1024x64_S2048x64_1_0_0_1_n_n.rhsIdx_val_of_single rfl i q

/-- The distance tile against the weight tile, contracted over the 1024 columns into the zero block, at (r, f). -/
theorem dotWeight_at (A : FVec Ideal S2048x1024 .f32) (B : FVec Ideal S1024x64 .f32) (r : Fin 2048) (f : Fin 64) :
    matmul dot_S2048x1024_S1024x64_S2048x64_1_0_0_1_n_n none A B (constant (F := Ideal) S2048x64 .f32 0x00000000#32) (ix2 r f)
      = ∑ k : Fin 1024, A (ix2 r k) * B (ix2 k f) := by
  refine (Ideal.matmul_constant_zero_apply dot_S2048x1024_S1024x64_S2048x64_1_0_0_1_n_n none A B (ix2 r f)).trans ?_
  rw [← Equiv.sum_comp (contrEquiv1 dot_S2048x1024_S1024x64_S2048x64_1_0_0_1_n_n 1024 rfl rfl).symm]
  refine Finset.sum_congr rfl fun k _ => ?_
  have hd := contrEquiv1_symm_val dot_S2048x1024_S1024x64_S2048x64_1_0_0_1_n_n 1024 rfl rfl k
  have el : dot_S2048x1024_S1024x64_S2048x64_1_0_0_1_n_n.lhsIdx (ix2 r f) ((contrEquiv1 dot_S2048x1024_S1024x64_S2048x64_1_0_0_1_n_n 1024 rfl rfl).symm k) = ix2 r k := funext fun a => Fin.ext (by
    match a with
    | ⟨0, _⟩ => exact dotWeight_lhsNon _ _
    | ⟨1, _⟩ => exact (dotWeight_lhsCon _ _).trans hd)
  have er : dot_S2048x1024_S1024x64_S2048x64_1_0_0_1_n_n.rhsIdx (ix2 r f) ((contrEquiv1 dot_S2048x1024_S1024x64_S2048x64_1_0_0_1_n_n 1024 rfl rfl).symm k) = ix2 k f := funext fun a => Fin.ext (by
    match a with
    | ⟨0, _⟩ => exact (dotWeight_rhsCon _ _).trans hd
    | ⟨1, _⟩ => exact dotWeight_rhsNon _ _)
  rw [el, er]

/-! ## The distance tile read at (r, k) -/

/-- The row tile's squared norms, kept as a column and spread over the 1024 columns, at (r, k). -/
theorem rowNorm_at (v7 : Vec Ideal S1x2048x1 .f32) (h : S1x2048x1.ShapeCasts S2048x1) (hb : S2048x1.Broadcasts S2048x1024)
    (r : Fin 2048) (k : Fin 1024) :
    broadcastTo S2048x1024 (shapeCast S2048x1 v7 h) hb (ix2 r k) = v7 (ix3 0 r 0) :=
  (Cert.Lib.Column.broadcastTo_a1_ab_apply _ hb r k).trans (shapeCast_1ab_ab_apply v7 h r 0)

/-- The column tile's squared norms, one row spread over the 2048 rows, at (r, k). -/
theorem colNorm_at (v9 : Vec Ideal S1x1x1024 .f32) (h : S1x1x1024.ShapeCasts S1x1024) (hb : S1x1024.Broadcasts S2048x1024)
    (r : Fin 2048) (k : Fin 1024) :
    broadcastTo S2048x1024 (shapeCast S1x1024 v9 h) hb (ix2 r k) = v9 (ix3 0 0 k) :=
  (broadcastTo_1b_ab_apply _ hb r k).trans (shapeCast_1ab_ab_apply v9 h 0 k)

/-- The inner products of the row tile's points with the column tile's, at (r, k). -/
theorem inner_at (v3 : Vec Ideal S1x2048x3 .f32) (v5 : Vec Ideal S1x1024x3 .f32)
    (h3 : S1x2048x3.ShapeCasts S2048x3) (h5 : S1x1024x3.ShapeCasts S1024x3) (r : Fin 2048) (k : Fin 1024) :
    matmul dot_S2048x3_S1024x3_S2048x1024_1_1_0_0_n_n none (shapeCast S2048x3 v3 h3 : FVec Ideal S2048x3 .f32)
        (shapeCast S1024x3 v5 h5 : FVec Ideal S1024x3 .f32) (constant (F := Ideal) S2048x1024 .f32 0x00000000#32) (ix2 r k)
      = ∑ d : Fin 3, v3 (ix3 0 r d) * v5 (ix3 0 k d) :=
  (dotCoord_at _ _ r k).trans (Finset.sum_congr rfl fun d _ => by
    rw [shapeCast_1ab_ab_apply v3 h3 r d, shapeCast_1ab_ab_apply v5 h5 k d])

/-! ## The accumulator update read at (r, f) -/

/-- The accumulator update at (r, f): the accumulator there plus the sum over the tile's 1024 columns of the
    clamped distance between point r and point k times the weight at (k, f). -/
theorem pay3_at (v3 : Vec Ideal S1x2048x3 .f32) (v5 : Vec Ideal S1x1024x3 .f32) (v7 : Vec Ideal S1x2048x1 .f32)
    (v9 : Vec Ideal S1x1x1024 .f32) (v21 : Vec Ideal S1024x64 .f32) (v24 : Vec Ideal S2048x64 .f32)
    (r : Fin 2048) (f : Fin 64) :
    k0_pay3 (F := Ideal) v3 v5 v7 v9 v21 v24 (ix2 r f)
      = v24 (ix2 r f) + ∑ k : Fin 1024,
          Ideal.sqrt (max ((v7 (ix3 0 r 0) + v9 (ix3 0 0 k))
              - Ideal.ofBits .f32 0x40000000#32 * ∑ d : Fin 3, v3 (ix3 0 r d) * v5 (ix3 0 k d))
            (Ideal.ofBits .f32 0x00000000#32))
            * v21 (ix2 k f) := by
  unfold k0_pay3
  refine (congrFun (shapeCast_self _ _) (ix2 r f)).trans ?_
  refine (addf_apply _ _ _).trans ?_
  refine congrArg (fun t => v24 (ix2 r f) + t) ?_
  refine (dotWeight_at _ _ r f).trans ?_
  refine Finset.sum_congr rfl fun k _ => ?_
  rw [shapeCast_self v21]
  refine congrArg (fun t => t * v21 (ix2 k f)) ?_
  show Ideal.sqrt (max ((_ + _) - Ideal.ofBits .f32 0x40000000#32 * _) (Ideal.ofBits .f32 0x00000000#32)) = _
  rw [rowNorm_at v7 _ _ r k, colNorm_at v9 _ _ r k, inner_at v3 v5 _ _ r k]

/-! ## The epilogue read at (r, f) -/

/-- The mean of a row of 64 values: their sum divided by the word for 64. -/
def rowMean (x : Fin 64 → EReal) : EReal :=
  Ideal.div (∑ g : Fin 64, x g) (Ideal.ofBits .f32 0x42800000#32)

/-- The variance of a row of 64 values about its mean: the sum of squared deviations divided by the word for 64. -/
def rowVar (x : Fin 64 → EReal) : EReal :=
  Ideal.div (∑ g : Fin 64, (x g - rowMean x) * (x g - rowMean x)) (Ideal.ofBits .f32 0x42800000#32)

/-- Row r of the accumulator with the bias added. -/
def biasedRow (v32 : Vec Ideal S2048x64 .f32) (v33 : Vec Ideal S1x64 .f32) (r : Fin 2048) (g : Fin 64) : EReal :=
  v32 (ix2 r g) + v33 (ix2 0 g)

/-- Entry f of a row of 64 values, normalised by the row's mean and variance, scaled by `gam` and shifted by `bet`. -/
def normAffine (x : Fin 64 → EReal) (f : Fin 64) (gam bet : EReal) : EReal :=
  ((x f - rowMean x) * Ideal.rsqrt (rowVar x + Ideal.ofBits .f32 0x3727C5AC#32)) * gam + bet

/-- The normalised, scaled and shifted value at (r, f). -/
def affineAt (v32 : Vec Ideal S2048x64 .f32) (v33 v55 v59 : Vec Ideal S1x64 .f32) (r : Fin 2048) (f : Fin 64) : EReal :=
  normAffine (biasedRow v32 v33 r) f (v55 (ix2 0 f)) (v59 (ix2 0 f))

/-- One row of 64 spread over the 2048 rows, at (r, g). -/
theorem rowBcast_at (v : Vec Ideal S1x64 .f32) (h : S1x64.ShapeCasts S1x64) (hb : S1x64.Broadcasts S2048x64)
    (r : Fin 2048) (g : Fin 64) :
    broadcastTo S2048x64 (shapeCast S1x64 v h) hb (ix2 r g) = v (ix2 0 g) :=
  (broadcastTo_1b_ab_apply _ hb r g).trans (congrFun (shapeCast_self v h) (ix2 0 g))

/-- The accumulator with the bias row added. -/
def biasedV (v32 : Vec Ideal S2048x64 .f32) (v33 : Vec Ideal S1x64 .f32) : FVec Ideal S2048x64 .f32 :=
  addf v32 (broadcastTo S2048x64 (shapeCast S1x64 v33 shapeCasts_S1x64_S1x64) broadcasts_S1x64_S2048x64)

theorem biasedV_at (v32 : Vec Ideal S2048x64 .f32) (v33 : Vec Ideal S1x64 .f32) (r : Fin 2048) (g : Fin 64) :
    biasedV v32 v33 (ix2 r g) = biasedRow v32 v33 r g :=
  congrArg (fun t => v32 (ix2 r g) + t) (rowBcast_at v33 _ _ r g)

/-- A sum along the 64 lanes of a 2048-by-64 block, at row r. -/
theorem laneSum_at (x : FVec Ideal S2048x64 .f32) (h : S2048x64.Reduces [1] S2048) (hφ : FKind.Formats .f32)
    (hacc : (0x00000000#32 : BitVec 32) = FKind.add.neutral .f32 hφ) (r : Fin 2048) :
    multiReduction (F := Ideal) .add [1] S2048 x 0x00000000#32 h hφ hacc (ix1 r) = ∑ g : Fin 64, x (ix2 r g) := by
  refine (Ideal.multiReduction_add_single x _ h hφ hacc (ix1 r)).trans ?_
  refine Finset.sum_congr rfl fun g _ => congrArg x ?_
  funext c
  apply Fin.ext
  match c with
  | ⟨0, _⟩ => rfl
  | ⟨1, _⟩ => rfl

/-- The lane sums kept as a column and divided by the word for 64. -/
def meanColV (x : FVec Ideal S2048x64 .f32) : FVec Ideal S2048x1 .f32 :=
  divf (shapeCast S2048x1 (multiReduction (F := Ideal) .add [1] S2048 x 0x00000000#32 reduces_S2048x64_S2048 (.inl rfl) rfl)
      shapeCasts_S2048_S2048x1)
    (broadcast S2048x1 (Scalar.ofBits (F := Ideal) .f32 0x42800000#32))

theorem meanColV_at (x : FVec Ideal S2048x64 .f32) (r : Fin 2048) (u : Fin 1) :
    meanColV x (ix2 r u) = rowMean fun g => x (ix2 r g) :=
  congrArg (fun t => Ideal.div t (Ideal.ofBits .f32 0x42800000#32))
    ((Cert.Lib.Column.shapeCast_a_a1_apply _ shapeCasts_S2048_S2048x1 r u).trans (laneSum_at x _ _ _ r))

/-- The block with each row's mean subtracted. -/
def centeredV (x : FVec Ideal S2048x64 .f32) : FVec Ideal S2048x64 .f32 :=
  subf x (broadcastTo S2048x64 (meanColV x) broadcasts_S2048x1_S2048x64)

theorem centeredV_at (x : FVec Ideal S2048x64 .f32) (r : Fin 2048) (g : Fin 64) :
    centeredV x (ix2 r g) = x (ix2 r g) - rowMean fun g' => x (ix2 r g') :=
  congrArg (fun t => x (ix2 r g) - t)
    ((Cert.Lib.Column.broadcastTo_a1_ab_apply _ broadcasts_S2048x1_S2048x64 r g).trans (meanColV_at x r 0))

/-- Each row's variance, as a column. -/
def varColV (x : FVec Ideal S2048x64 .f32) : FVec Ideal S2048x1 .f32 :=
  meanColV (mulf (centeredV x) (centeredV x))

theorem varColV_at (x : FVec Ideal S2048x64 .f32) (r : Fin 2048) (u : Fin 1) :
    varColV x (ix2 r u) = rowVar fun g => x (ix2 r g) := by
  refine (meanColV_at _ r u).trans ?_
  unfold rowVar
  refine congrArg (fun t => Ideal.div t (Ideal.ofBits .f32 0x42800000#32)) (Finset.sum_congr rfl fun g _ => ?_)
  refine (mulf_apply _ _ _).trans ?_
  rw [centeredV_at x r g]

/-- The normalised block: centred, times the reciprocal square root of variance plus the small word. -/
def normV (x : FVec Ideal S2048x64 .f32) : FVec Ideal S2048x64 .f32 :=
  mulf (centeredV x)
    (broadcastTo S2048x64
      (rsqrt (addf (varColV x) (broadcast S2048x1 (Scalar.ofBits (F := Ideal) .f32 0x3727C5AC#32))))
      broadcasts_S2048x1_S2048x64)

theorem normV_at (x : FVec Ideal S2048x64 .f32) (r : Fin 2048) (f : Fin 64) :
    normV x (ix2 r f)
      = (x (ix2 r f) - rowMean fun g => x (ix2 r g))
          * Ideal.rsqrt ((rowVar fun g => x (ix2 r g)) + Ideal.ofBits .f32 0x3727C5AC#32) := by
  refine (mulf_apply _ _ _).trans ?_
  rw [centeredV_at x r f]
  refine congrArg (fun t => (x (ix2 r f) - rowMean fun g => x (ix2 r g)) * t) ?_
  refine (Cert.Lib.Column.broadcastTo_a1_ab_apply _ broadcasts_S2048x1_S2048x64 r f).trans ?_
  show Ideal.rsqrt (varColV x (ix2 r 0) + Ideal.ofBits .f32 0x3727C5AC#32) = _
  rw [varColV_at x r 0]

/-- The normalised block scaled by one row and shifted by another. -/
def affineV (v32 : Vec Ideal S2048x64 .f32) (v33 v55 v59 : Vec Ideal S1x64 .f32) : FVec Ideal S2048x64 .f32 :=
  addf (mulf (normV (biasedV v32 v33))
      (broadcastTo S2048x64 (shapeCast S1x64 v55 shapeCasts_S1x64_S1x64) broadcasts_S1x64_S2048x64))
    (broadcastTo S2048x64 (shapeCast S1x64 v59 shapeCasts_S1x64_S1x64) broadcasts_S1x64_S2048x64)

theorem affineV_at (v32 : Vec Ideal S2048x64 .f32) (v33 v55 v59 : Vec Ideal S1x64 .f32) (r : Fin 2048) (f : Fin 64) :
    affineV v32 v33 v55 v59 (ix2 r f) = affineAt v32 v33 v55 v59 r f := by
  refine (addf_apply _ _ _).trans ?_
  rw [rowBcast_at v59 _ _ r f]
  refine congrArg (fun t => t + v59 (ix2 0 f)) ?_
  refine (mulf_apply _ _ _).trans ?_
  rw [rowBcast_at v55 _ _ r f, normV_at (biasedV v32 v33) r f]
  have e : (fun g => biasedV v32 v33 (ix2 r g)) = biasedRow v32 v33 r := funext fun g => biasedV_at v32 v33 r g
  rw [e, biasedV_at v32 v33 r f]

/-- The epilogue is the affine block times its logistic, with a leading unit axis added. -/
theorem k0_pay1_eq (v32 : Vec Ideal S2048x64 .f32) (v33 v55 v59 : Vec Ideal S1x64 .f32) :
    k0_pay1 (F := Ideal) v32 v33 v55 v59
      = shapeCast S1x2048x64 (mulf (affineV v32 v33 v55 v59) (logistic (affineV v32 v33 v55 v59)))
          shapeCasts_S2048x64_S1x2048x64 := rfl

/-- The epilogue at (r, f): the normalised, scaled and shifted value times its logistic. -/
theorem pay1_at (v32 : Vec Ideal S2048x64 .f32) (v33 v55 v59 : Vec Ideal S1x64 .f32) (r : Fin 2048) (f : Fin 64) :
    k0_pay1 (F := Ideal) v32 v33 v55 v59 (ix3 0 r f)
      = affineAt v32 v33 v55 v59 r f * Ideal.logistic (affineAt v32 v33 v55 v59 r f) := by
  rw [k0_pay1_eq]
  refine (shapeCast_ab_1ab_apply _ shapeCasts_S2048x64_S1x2048x64 0 r f).trans ?_
  show affineV v32 v33 v55 v59 (ix2 r f) * Ideal.logistic (affineV v32 v33 v55 v59 (ix2 r f)) = _
  rw [affineV_at]

/-- The same with the biased row named by the caller: whatever function `x` the row of accumulator plus bias is. -/
theorem pay1_at_of (v32 : Vec Ideal S2048x64 .f32) (v33 v55 v59 : Vec Ideal S1x64 .f32) (r : Fin 2048) (f : Fin 64)
    (x : Fin 64 → EReal) (hx : ∀ g : Fin 64, v32 (ix2 r g) + v33 (ix2 0 g) = x g) :
    k0_pay1 (F := Ideal) v32 v33 v55 v59 (ix3 0 r f)
      = normAffine x f (v55 (ix2 0 f)) (v59 (ix2 0 f)) * Ideal.logistic (normAffine x f (v55 (ix2 0 f)) (v59 (ix2 0 f))) := by
  have e : biasedRow v32 v33 r = x := funext hx
  rw [pay1_at, affineAt, e]

end Cert.PayAt

end
-- ==== Proof.Spec.lean ====
/-
  The two formulas of this certificate, as plain functions of coordinates over the extended reals.

  Inputs: positions `P b n d` (4 batches, 4096 points, 3 coordinates), a weight matrix `W f j`
  (64 features by 4096 points), and three feature vectors `bias`, `gam`, `bet` (64 entries each).

  Both formulas compute, for batch `b`, point `n` and feature `f`:
    x     = Σ_j dist(n, j) · W f j + bias f            (a linear layer over the distances from point n)
    mu    = (Σ_f x) / 64,   var = (Σ_f (x − mu)²) / 64   (layer normalisation over the 64 features)
    xn    = (x − mu) · (var + ε)^(−1/2) · gam f + bet f
    out   = xn · 1 / (1 + e^(−xn))                     (SiLU)
  They differ in how the distance is formed and in how the sum over j is grouped:
    * the reference forms  Σ_d (P n d − P j d)²  and takes the square root only where it is positive;
      the kernel forms  ‖P n‖² + ‖P j‖² − 2·⟨P n, P j⟩,  clamps it at zero from below and takes the root;
    * the reference sums over all 4096 points at once; the kernel sums four tiles of 1024 points,
      adding each tile's partial sum to a running total that starts at zero;
    * the reference divides by √(var + ε); the kernel multiplies by the reciprocal square root;
    * the reference spells the logistic function out; the kernel names it.
  Float literals stay as their bit patterns: the same pattern appears on both sides.
-/
import Idealize.ShloMosaic.PureOps.Ideal

noncomputable section

namespace Cert.Spec

open Idealize.ShloMosaic

/-- The literals both programs use: 0, 1, 2, 64 and the normalisation's ε (the single-precision value nearest 1e-5). -/
abbrev zero : EReal := Ideal.ofBits .f32 0x00000000#32
abbrev one : EReal := Ideal.ofBits .f32 0x3F800000#32
abbrev two : EReal := Ideal.ofBits .f32 0x40000000#32
abbrev c64 : EReal := Ideal.ofBits .f32 0x42800000#32
abbrev eps : EReal := Ideal.ofBits .f32 0x3727C5AC#32

variable (P : Fin 4 → Fin 4096 → Fin 3 → EReal) (W : Fin 64 → Fin 4096 → EReal) (bias gam bet : Fin 64 → EReal)

/-! ## The reference's formula -/

/-- Squared distance between points `n` and `j` of batch `b`, as a sum of squared coordinate differences. -/
def sqR (b : Fin 4) (n j : Fin 4096) : EReal :=
  zero + ∑ d : Fin 3, (P b n d - P b j d) * (P b n d - P b j d)

/-- The distance: the square root where the squared distance is positive (taken of 1 elsewhere and discarded), 0 elsewhere. -/
def distR (b : Fin 4) (n j : Fin 4096) : EReal :=
  if zero < sqR P b n j then Ideal.sqrt (if zero < sqR P b n j then sqR P b n j else one) else zero

/-- The linear layer: distances from point `n` to all 4096 points against row `f` of the weights, plus the bias. -/
def xR (b : Fin 4) (n : Fin 4096) (f : Fin 64) : EReal :=
  (∑ j : Fin 4096, distR P b n j * W f j) + bias f

def muR (b : Fin 4) (n : Fin 4096) : EReal :=
  Ideal.div (zero + ∑ f : Fin 64, xR P W bias b n f) c64

def varR (b : Fin 4) (n : Fin 4096) : EReal :=
  Ideal.div (zero + ∑ f : Fin 64, (xR P W bias b n f - muR P W bias b n) * (xR P W bias b n f - muR P W bias b n)) c64

def xnR (b : Fin 4) (n : Fin 4096) (f : Fin 64) : EReal :=
  Ideal.div (xR P W bias b n f - muR P W bias b n) (Ideal.sqrt (varR P W bias b n + eps)) * gam f + bet f

def outR (b : Fin 4) (n : Fin 4096) (f : Fin 64) : EReal :=
  xnR P W bias gam bet b n f * Ideal.div one (one + Ideal.exp (-(xnR P W bias gam bet b n f)))

/-! ## The kernel's formula -/

/-- Squared norm of point `n`. -/
def rK (b : Fin 4) (n : Fin 4096) : EReal :=
  zero + ∑ d : Fin 3, P b n d * P b n d

/-- Squared distance by the norms and the inner product. -/
def sqK (b : Fin 4) (n j : Fin 4096) : EReal :=
  (rK P b n + rK P b j) - two * ∑ d : Fin 3, P b n d * P b j d

def distK (b : Fin 4) (n j : Fin 4096) : EReal :=
  Ideal.sqrt (max (sqK P b n j) zero)

/-- Point `k` of tile `mt` among the 4096 points. -/
def tileIdx (mt : Fin 4) (k : Fin 1024) : Fin 4096 := ⟨mt.val * 1024 + k.val, by have := mt.isLt; have := k.isLt; omega⟩

/-- One tile's partial sum of the linear layer. -/
def partK (b : Fin 4) (n : Fin 4096) (f : Fin 64) (mt : Fin 4) : EReal :=
  ∑ k : Fin 1024, distK P b n (tileIdx mt k) * W f (tileIdx mt k)

/-- The running total after the four tiles, started at zero. -/
def accK (b : Fin 4) (n : Fin 4096) (f : Fin 64) : EReal :=
  (((zero + partK P W b n f 0) + partK P W b n f 1) + partK P W b n f 2) + partK P W b n f 3

def xK (b : Fin 4) (n : Fin 4096) (f : Fin 64) : EReal :=
  accK P W b n f + bias f

def muK (b : Fin 4) (n : Fin 4096) : EReal :=
  Ideal.div (∑ f : Fin 64, xK P W bias b n f) c64

def varK (b : Fin 4) (n : Fin 4096) : EReal :=
  Ideal.div (∑ f : Fin 64, (xK P W bias b n f - muK P W bias b n) * (xK P W bias b n f - muK P W bias b n)) c64

def xnK (b : Fin 4) (n : Fin 4096) (f : Fin 64) : EReal :=
  ((xK P W bias b n f - muK P W bias b n) * Ideal.rsqrt (varK P W bias b n + eps)) * gam f + bet f

def outK (b : Fin 4) (n : Fin 4096) (f : Fin 64) : EReal :=
  xnK P W bias gam bet b n f * Ideal.logistic (xnK P W bias gam bet b n f)

end Cert.Spec

end
-- ==== Proof.KI.Value.lean ====
/-
  What the idealized kernel's output array holds after the run, index by index: the kernel's formula of the spec
  (`Cert.Spec.outK`) of the five argument arrays.

  One accumulation step adds one column tile's partial sum: the distance from row `n` to each of the tile's 1024 points
  (from the squared norms and the inner product, clamped at zero, square root) against the transposed weights. The four
  steps of a row tile start from the zero block, so on the last column tile the accumulator holds the spec's running
  total; the epilogue of that, with the bias, scale and shift vectors, is what the point writes back. The 32 points'
  output blocks tile the output array.
-/
import proofs.«178833_j3178275799379_2_alg».proof.Proof.KI.Frame
import proofs.«178833_j3178275799379_2_alg».proof.Proof.KI.Blocks
import proofs.«178833_j3178275799379_2_alg».proof.Proof.KI.HostAt
import proofs.«178833_j3178275799379_2_alg».proof.Proof.PayAt
import proofs.«178833_j3178275799379_2_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open ValueIdx

variable (m : (ℓ : Loc nD τ sig) → Buf (Elt Ideal) ℓ) (ρ : Dev nD → PrngReg)

/-! ## The argument arrays, by coordinates -/

def Pc (c : Dev nD) : Fin 4 → Fin 4096 → Fin 3 → EReal := fun b n d => m ((c : Thread nD τ).loc main_arg0) (ix3 b n d)
def Wc (c : Dev nD) : Fin 64 → Fin 4096 → EReal := fun f j => m ((c : Thread nD τ).loc main_arg1) (ix2 f j)
def biasc (c : Dev nD) : Fin 64 → EReal := fun f => m ((c : Thread nD τ).loc main_arg2) (ix1 f)
def gamc (c : Dev nD) : Fin 64 → EReal := fun f => m ((c : Thread nD τ).loc main_arg3) (ix1 f)
def betc (c : Dev nD) : Fin 64 → EReal := fun f => m ((c : Thread nD τ).loc main_arg4) (ix1 f)

/-- The output array's contents after the run. -/
def Gout (c : Dev nD) : S4x4096x64.Idx → EReal :=
  fun i => Cert.Spec.outK (Pc m c) (Wc m c) (biasc m c) (gamc m c) (betc m c) (i 0) (i 1) (i 2)

/-- The column tile of a point, as the spec counts tiles. -/
def mtOf (t : Fin cfg0.N) : Fin 4 := ⟨t.val % 4, Nat.mod_lt _ (by decide)⟩

theorem colOf_eq (t : Fin cfg0.N) (k : Fin 1024) : colOf t k = Cert.Spec.tileIdx (mtOf t) k := rfl

/-! ## One accumulation step -/

/-- A coordinate of the row tile's point `r`, and of the column tile's point `k`. -/
theorem blkP0 (c : Dev nD) (t : Fin cfg0.N) (r : Fin 2048) (d : Fin 3) :
    iblk m c 0 t (ix3 0 r d) = Pc m c (bOf t) (rowOf t r) d := by rw [blk0_at, V_main_arg0]; rfl
theorem blkP1 (c : Dev nD) (t : Fin cfg0.N) (k : Fin 1024) (d : Fin 3) :
    iblk m c 1 t (ix3 0 k d) = Pc m c (bOf t) (colOf t k) d := by rw [blk1_at, V_main_arg0]; rfl

theorem step_at (c : Dev nD) (t : Fin cfg0.N) (v24 : Vec Ideal S2048x64 .f32) (r : Fin 2048) (g : Fin 64) :
    k0_pay3 (F := Ideal) (iblk m c 0 t) (iblk m c 1 t) (iblk m c 2 t) (iblk m c 3 t) (iblk m c 4 t) v24 (ix2 r g)
      = v24 (ix2 r g) + Cert.Spec.partK (Pc m c) (Wc m c) (bOf t) (rowOf t r) g (mtOf t) := by
  refine (Cert.PayAt.pay3_at (iblk m c 0 t) (iblk m c 1 t) (iblk m c 2 t) (iblk m c 3 t) (iblk m c 4 t) v24 r g).trans ?_
  refine congrArg (v24 (ix2 r g) + ·) ?_
  unfold Cert.Spec.partK
  refine Finset.sum_congr rfl fun k _ => ?_
  rw [blk2_at, blk3_at, blk4_at, V_v2_at, V_v3_at, V_v4_at, ← colOf_eq]
  unfold Cert.Spec.distK Cert.Spec.sqK Cert.Spec.rK
  simp only [blkP0 m c t r, blkP1 m c t k]
  rfl

/-! ## The four steps of a row tile -/

theorem bOf_sub (t : Fin cfg0.N) (h3 : t.val % 4 = 3) (k : ℕ) (hk : k ≤ 3) (h : t.val - k < cfg0.N) :
    bOf ⟨t.val - k, h⟩ = bOf t := Fin.ext (by show (t.val - k) / 8 = t.val / 8; omega)
theorem rowOf_sub (t : Fin cfg0.N) (h3 : t.val % 4 = 3) (k : ℕ) (hk : k ≤ 3) (h : t.val - k < cfg0.N) (r : Fin 2048) :
    rowOf ⟨t.val - k, h⟩ r = rowOf t r := Fin.ext (by show (t.val - k) / 4 % 2 * 2048 + r.val = t.val / 4 % 2 * 2048 + r.val; omega)

/-- On the last column tile the accumulator holds the spec's running total of the four tiles. -/
theorem acc_at (c : Dev nD) (t : Fin cfg0.N) (h3 : t.val % 4 = 3) (r : Fin 2048) (g : Fin 64) :
    accAt m c t.val t.isLt (ix2 r g) = Cert.Spec.accK (Pc m c) (Wc m c) (bOf t) (rowOf t r) g := by
  have hN := tlt t
  have l1 : t.val - 1 < cfg0.N := Nat.lt_of_le_of_lt (Nat.sub_le _ _) t.isLt
  have l2 : t.val - 2 < cfg0.N := Nat.lt_of_le_of_lt (Nat.sub_le _ _) t.isLt
  have l3 : t.val - 3 < cfg0.N := Nat.lt_of_le_of_lt (Nat.sub_le _ _) t.isLt
  have e3 : accAt m c t.val t.isLt = k0_pay3 (iblk m c 0 t) (iblk m c 1 t) (iblk m c 2 t) (iblk m c 3 t) (iblk m c 4 t) (accAt m c (t.val - 1) l1) :=
    accAt_next m c t (by omega)
  have e2 : accAt m c (t.val - 1) l1 = k0_pay3 (iblk m c 0 ⟨t.val - 1, l1⟩) (iblk m c 1 ⟨t.val - 1, l1⟩) (iblk m c 2 ⟨t.val - 1, l1⟩) (iblk m c 3 ⟨t.val - 1, l1⟩) (iblk m c 4 ⟨t.val - 1, l1⟩) (accAt m c (t.val - 1 - 1) (by omega)) :=
    accAt_next m c ⟨t.val - 1, l1⟩ (by show ¬(t.val - 1) % 4 = 0; omega)
  have e1 : accAt m c (t.val - 2) l2 = k0_pay3 (iblk m c 0 ⟨t.val - 2, l2⟩) (iblk m c 1 ⟨t.val - 2, l2⟩) (iblk m c 2 ⟨t.val - 2, l2⟩) (iblk m c 3 ⟨t.val - 2, l2⟩) (iblk m c 4 ⟨t.val - 2, l2⟩) (accAt m c (t.val - 2 - 1) (by omega)) :=
    accAt_next m c ⟨t.val - 2, l2⟩ (by show ¬(t.val - 2) % 4 = 0; omega)
  have e0 : accAt m c (t.val - 3) l3 = k0_pay3 (iblk m c 0 ⟨t.val - 3, l3⟩) (iblk m c 1 ⟨t.val - 3, l3⟩) (iblk m c 2 ⟨t.val - 3, l3⟩) (iblk m c 3 ⟨t.val - 3, l3⟩) (iblk m c 4 ⟨t.val - 3, l3⟩) (k0_pay2 (F := Ideal)) :=
    accAt_first m c ⟨t.val - 3, l3⟩ (by show (t.val - 3) % 4 = 0; omega)
  have s1 : accAt m c (t.val - 1 - 1) (by omega) = accAt m c (t.val - 2) l2 := by congr 1
  have s2 : accAt m c (t.val - 2 - 1) (by omega) = accAt m c (t.val - 3) l3 := by congr 1
  rw [e3, step_at, e2, step_at, s1, e1, step_at, s2, e0, step_at, Cert.PayAt.pay2_at]
  rw [bOf_sub t h3 1 (by omega), bOf_sub t h3 2 (by omega), bOf_sub t h3 3 (by omega),
    rowOf_sub t h3 1 (by omega), rowOf_sub t h3 2 (by omega), rowOf_sub t h3 3 (by omega)]
  have m3 : mtOf t = 3 := Fin.ext (by show t.val % 4 = 3; exact h3)
  have m2 : mtOf ⟨t.val - 1, l1⟩ = 2 := Fin.ext (by show (t.val - 1) % 4 = 2; omega)
  have m1 : mtOf ⟨t.val - 2, l2⟩ = 1 := Fin.ext (by show (t.val - 2) % 4 = 1; omega)
  have m0 : mtOf ⟨t.val - 3, l3⟩ = 0 := Fin.ext (by show (t.val - 3) % 4 = 0; omega)
  rw [m3, m2, m1, m0]
  rfl

/-! ## What a point on the last column tile writes back -/

theorem emb8 (t : Fin cfg0.N) (j : S1x2048x64.Idx) :
    ((cfg0.win 8).blk t).view.emb j = ix3 (bOf t) (rowOf t (j 1)) (j 2) := by
  obtain ⟨-, -, -, -, -, -, -, -, ⟨e0, e1, e2⟩⟩ := idx_facts t
  refine funext fun a => Fin.ext ?_
  match a with
  | ⟨0, _⟩ => show win0_8.index t (0 : Fin 3) * 1 + 1 * (j 0).val = t.val / 8; have hj0 : (j 0).val < 1 := (j 0).isLt; omega
  | ⟨1, _⟩ => show win0_8.index t (1 : Fin 3) * 2048 + 1 * (j 1).val = (t.val / 4) % 2 * 2048 + (j 1).val; omega
  | ⟨2, _⟩ => show win0_8.index t (2 : Fin 3) * 64 + 1 * (j 2).val = (j 2).val; omega

/-- The epilogue of the accumulated row, at explicit coordinates, is the spec's kernel formula at the row's place. -/
theorem flushed8_at (c : Dev nD) (t : Fin cfg0.N) (h3 : t.val % 4 = 3) (r : Fin 2048) (f : Fin 64) :
    k0_pay1 (F := Ideal) (accAt m c t.val t.isLt) (iblk m c 5 t) (iblk m c 6 t) (iblk m c 7 t) (ix3 0 r f)
      = Gout m c (ix3 (bOf t) (rowOf t r) f) := by
  refine (Cert.PayAt.pay1_at_of (accAt m c t.val t.isLt) (iblk m c 5 t) (iblk m c 6 t) (iblk m c 7 t) r f
    (Cert.Spec.xK (Pc m c) (Wc m c) (biasc m c) (bOf t) (rowOf t r)) (fun g => ?_)).trans ?_
  · rw [acc_at m c t h3 r g, blk5_at, V_v5_at]; rfl
  · rw [blk6_at, blk7_at, V_v6_at, V_v7_at]; rfl

theorem flushed8_eq (c : Dev nD) (t : Fin cfg0.N) (h3 : t.val % 4 = 3) :
    (dats m 0 c).flushed 8 t = ((cfg0.win 8).blk t).view.read (Elt Ideal) (Gout m c) := by
  show (cfg0.win 8).cut (grid0.coords t) ((dats m 0 c).after 8 t) = _
  rw [after8]
  unfold outAt
  have key : ∀ j : S1x2048x64.Idx,
      k0_pay1 (F := Ideal) (accAt m c t.val t.isLt) (iblk m c 5 t) (iblk m c 6 t) (iblk m c 7 t) j
        = Gout m c (((cfg0.win 8).blk t).view.emb j) := fun j => by
    have hj : j = ix3 0 (j 1) (j 2) := funext fun a => by
      match a with
      | ⟨0, _⟩ => exact Fin.ext (by show (j 0).val = 0; have hj0 : (j 0).val < 1 := (j 0).isLt; omega)
      | ⟨1, _⟩ => rfl
      | ⟨2, _⟩ => rfl
    calc k0_pay1 (F := Ideal) (accAt m c t.val t.isLt) (iblk m c 5 t) (iblk m c 6 t) (iblk m c 7 t) j
        = k0_pay1 (F := Ideal) (accAt m c t.val t.isLt) (iblk m c 5 t) (iblk m c 6 t) (iblk m c 7 t) (ix3 0 (j 1) (j 2)) :=
          congrArg (k0_pay1 (F := Ideal) (accAt m c t.val t.isLt) (iblk m c 5 t) (iblk m c 6 t) (iblk m c 7 t)) hj
      _ = Gout m c (ix3 (bOf t) (rowOf t (j 1)) (j 2)) := flushed8_at m c t h3 (j 1) (j 2)
      _ = Gout m c (((cfg0.win 8).blk t).view.emb j) := congrArg (Gout m c) (emb8 t j).symm
  funext j
  exact key j

/-- The output array after the run. -/
theorem final8 (c : Dev nD) : (dats m 0 c).arrAt 8 cfg0.N = Gout m c :=
  (dats m 0 c).arrAt_eq_of_cover 8 (Gout m c) (fun t ht => flushed8_eq m c t ((flush0_8 t).mp ht)) cover8

/-- The run, read: the output array at the spec's kernel formula of the arguments, the arguments unchanged. -/
theorem run_value : θ_run defs (onTc (τ := τ) (main (F := Ideal))) ⟨m, fun _ => 0, ρ⟩ (fun r => ∀ c : Dev nD,
      r.2.mem ((c.tc : Thread nD τ).loc main_v8) = Gout m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h c).1 8).trans (final8 m c), kept_args m r h c⟩) (run_main m ρ)

end Cert.KernelIdeal.Hand

end
-- ==== Proof.RefIsSpec.lean ====
/-
  The reference program, read at one output element, is the reference formula of the specification.

  Write P b n d, W f j, bias f, gam f, bet f for the five argument arrays read at their coordinates. The
  reference program is a chain of whole-array operations; reading its result at the element (b, n, f) and
  following each operation back to the elements of its operands it depends on gives, stage by stage:

    * the squared distance at (b, n, j):  0 + Σ_d (P b n d − P b j d)²   — the two broadcasts read P at
      (b, n, d) and at (b, j, d), the reduction sums the last axis starting from the literal zero;
    * the distance at (b, n, j): two selections on "the squared distance is greater than 0": the inner one
      feeds the square root the squared distance or the literal 1, the outer one keeps the root or the literal 0;
    * the linear layer at (b, n, f):  Σ_j dist(b, n, j) · W f j + bias f   — the contraction runs over the
      4096 points, the bias is broadcast along the first two axes;
    * the mean and the variance at (b, n): the sums over the 64 features, started at the literal zero, divided by 64;
    * the normalised value at (b, n, f): (x − mean) / √(variance + ε) · gam f + bet f;
    * the result: xn · (1 / (1 + e^(−xn))).

  Each stage below is one lemma: the read-at-an-index equations of the program's operations are chained from
  the stage's operation down to the previous stage, the composed index maps are identified with plain coordinate
  triples (every such identity holds coordinate by coordinate by computation), and the previous stage's
  lemma closes the step. A comparison "a > z" on extended reals is the bit of `z < a`, and a selection on
  that bit is the conditional on `z < a`; everything else is the ideal instance's textbook operation by
  definition. No algebraic law is used: the specification's reference formula was written operation for
  operation as the program computes.
-/
import proofs.«178833_j3178275799379_2_alg».proof.Proof.Gen.ReferenceIdeal.Read
import proofs.«178833_j3178275799379_2_alg».proof.Proof.Spec
import Idealize.ShloMosaic.Lib.ValueIdx

noncomputable section

namespace Cert.RefIsSpec

open Cert.ReferenceIdeal Cert.ReferenceIdeal.Gen Cert.ReferenceIdeal.Read Idealize.ShloMosaic Idealize.ShloMosaic.ValueIdx

/-- A selection on the bit of "x is greater than y" is the conditional on `y < x`. -/
theorem select_ogt {α : Type} (x y : EReal) (a c : α) :
    Scalar.select (Ideal.cmp .ogt x y) a c = if y < x then a else c := by
  unfold Scalar.select Ideal.cmp
  by_cases h : y < x <;> simp [h]

/-- The squared distance between points `n` and `j` of batch `b`: the reduction over the coordinate axis reads the
    product of the difference with itself, and the two broadcasts under the difference read `P b n d` and `P b j d`. -/
theorem sq_at (x0 : (⟨S4x4096x3, .f32⟩ : BufTy).Contents (Elt Ideal)) (b : Fin 4) (n j : Fin 4096) :
    val_main_v6 (F := Ideal) x0 (ix3 b n j) = Cert.Spec.sqR (fun b n d => x0 (ix3 b n d)) b n j := by
  rw [val_main_v6_apply]
  unfold Cert.Spec.sqR
  refine congrArg₂ (· + ·) rfl (Finset.sum_congr rfl fun d _ => ?_)
  rw [val_main_v5_apply, val_main_v4_apply, val_main_v2_apply, val_main_v3_apply, val_main_v0_apply, val_main_v1_apply]
  -- the first operand is broadcast along the third axis: it is read at (b, n, d)
  have e1 : idx_main_v0 (idx_main_v2 (idx_main_v6 (ix3 b n j) d)) = ix3 b n d :=
    funext fun a => Fin.ext (by match a with | ⟨0, _⟩ => rfl | ⟨1, _⟩ => rfl | ⟨2, _⟩ => rfl)
  -- the second along the second axis: it is read at (b, j, d)
  have e2 : idx_main_v1 (idx_main_v3 (idx_main_v6 (ix3 b n j) d)) = ix3 b j d :=
    funext fun a => Fin.ext (by match a with | ⟨0, _⟩ => rfl | ⟨1, _⟩ => rfl | ⟨2, _⟩ => rfl)
  rw [e1, e2]
  rfl

/-- The distance: both selections test "the squared distance is greater than the literal 0"; the inner one chooses
    the square root's argument (the squared distance, else the literal 1), the outer one the result (the root, else
    the literal 0). -/
theorem dist_at (x0 : (⟨S4x4096x3, .f32⟩ : BufTy).Contents (Elt Ideal)) (b : Fin 4) (n j : Fin 4096) :
    val_main_v13 (F := Ideal) x0 (ix3 b n j) = Cert.Spec.distR (fun b n d => x0 (ix3 b n d)) b n j := by
  rw [val_main_v13_apply, val_main_v11_apply, val_main_v12_apply, val_main_v9_apply, val_main_v8_apply,
    val_main_v7_apply, val_main_v10_apply, val_main_call0_v1_apply, val_main_call1_v1_apply,
    val_main_call0_v0_apply, val_main_call1_v0_apply, val_main_cst_0_apply, val_main_cst_1_apply,
    val_main_cst_2_apply, val_main_cst_3_apply, sq_at]
  simp only [Ideal.cmpf_def, select_ogt, Ideal.hostUnary_sqrt_def, Ideal.ofBits_def]
  rfl

/-- The linear layer: the contraction pairs the distance at `(b, n, k)` with the weight at `(f, k)` over the 4096
    points `k`, and the bias, broadcast along the batch and point axes, is read at `f`. -/
theorem x_at (x0 : (⟨S4x4096x3, .f32⟩ : BufTy).Contents (Elt Ideal)) (x1 : (⟨S64x4096, .f32⟩ : BufTy).Contents (Elt Ideal))
    (x2 : (⟨S64, .f32⟩ : BufTy).Contents (Elt Ideal)) (b : Fin 4) (n : Fin 4096) (f : Fin 64) :
    val_main_v17 (F := Ideal) x0 x1 x2 (ix3 b n f)
      = Cert.Spec.xR (fun b n d => x0 (ix3 b n d)) (fun f j => x1 (ix2 f j)) (fun f => x2 (ix1 f)) b n f := by
  rw [val_main_v17_apply, val_main_v14_apply, val_main_v16_apply, val_main_v15_apply]
  have e3 : idx_main_v15 (idx_main_v16 (ix3 b n f)) = ix1 f :=
    funext fun a => Fin.ext (by match a with | ⟨0, _⟩ => rfl)
  rw [e3]
  unfold Cert.Spec.xR
  refine congrArg₂ (· + ·) (Finset.sum_congr rfl fun k _ => ?_) rfl
  have e1 : lidx_main_v14 (ix3 b n f) k = ix3 b n k :=
    funext fun a => Fin.ext (by match a with | ⟨0, _⟩ => rfl | ⟨1, _⟩ => rfl | ⟨2, _⟩ => rfl)
  have e2 : ridx_main_v14 (ix3 b n f) k = ix2 f k :=
    funext fun a => Fin.ext (by match a with | ⟨0, _⟩ => rfl | ⟨1, _⟩ => rfl)
  rw [e1, e2, dist_at]

/-- The mean over the 64 features, kept with a last axis of extent one (`z` is that axis's only coordinate): the sum
    of the linear layer over `f`, started at the literal zero, divided by the literal 64. -/
theorem mu_at (x0 : (⟨S4x4096x3, .f32⟩ : BufTy).Contents (Elt Ideal)) (x1 : (⟨S64x4096, .f32⟩ : BufTy).Contents (Elt Ideal))
    (x2 : (⟨S64, .f32⟩ : BufTy).Contents (Elt Ideal)) (b : Fin 4) (n : Fin 4096) (z : Fin 1) :
    val_main_v21 (F := Ideal) x0 x1 x2 (ix3 b n z)
      = Cert.Spec.muR (fun b n d => x0 (ix3 b n d)) (fun f j => x1 (ix2 f j)) (fun f => x2 (ix1 f)) b n := by
  rw [val_main_v21_apply, val_main_v19_apply, val_main_v18_apply, val_main_v20_apply, val_main_cst_5_apply,
    val_main_cst_4_apply]
  unfold Cert.Spec.muR
  simp only [Ideal.hostDivf_def, Ideal.ofBits_def]
  refine congrArg₂ Ideal.div (congrArg₂ (· + ·) rfl (Finset.sum_congr rfl fun k _ => ?_)) rfl
  have e1 : idx_main_v18 (idx_main_v19 (ix3 b n z)) k = ix3 b n k :=
    funext fun a => Fin.ext (by match a with | ⟨0, _⟩ => rfl | ⟨1, _⟩ => rfl | ⟨2, _⟩ => rfl)
  rw [e1, x_at]

/-- The variance: the sum over `f` of the squared deviation of the linear layer from the mean (the mean broadcast
    back along the feature axis is read at the extent-one axis's coordinate 0), started at the literal zero, divided
    by the literal 64. -/
theorem var_at (x0 : (⟨S4x4096x3, .f32⟩ : BufTy).Contents (Elt Ideal)) (x1 : (⟨S64x4096, .f32⟩ : BufTy).Contents (Elt Ideal))
    (x2 : (⟨S64, .f32⟩ : BufTy).Contents (Elt Ideal)) (b : Fin 4) (n : Fin 4096) (z : Fin 1) :
    val_main_v28 (F := Ideal) x0 x1 x2 (ix3 b n z)
      = Cert.Spec.varR (fun b n d => x0 (ix3 b n d)) (fun f j => x1 (ix2 f j)) (fun f => x2 (ix1 f)) b n := by
  rw [val_main_v28_apply, val_main_v26_apply, val_main_v25_apply, val_main_v27_apply, val_main_cst_7_apply,
    val_main_cst_6_apply]
  unfold Cert.Spec.varR
  simp only [Ideal.hostDivf_def, Ideal.ofBits_def]
  refine congrArg₂ Ideal.div (congrArg₂ (· + ·) rfl (Finset.sum_congr rfl fun k _ => ?_)) rfl
  have e1 : idx_main_v25 (idx_main_v26 (ix3 b n z)) k = ix3 b n k :=
    funext fun a => Fin.ext (by match a with | ⟨0, _⟩ => rfl | ⟨1, _⟩ => rfl | ⟨2, _⟩ => rfl)
  have e2 : idx_main_v22 (ix3 b n k) = ix3 b n (0 : Fin 1) :=
    funext fun a => Fin.ext (by match a with | ⟨0, _⟩ => rfl | ⟨1, _⟩ => rfl | ⟨2, _⟩ => rfl)
  rw [e1, val_main_v24_apply, val_main_v23_apply, val_main_v22_apply, e2, x_at, mu_at]
  rfl

/-- The normalised value: the deviation from the mean divided by the square root of the variance plus ε, times the
    scale at `f`, plus the shift at `f` (mean and root are broadcast back along the feature axis, scale and shift along
    the batch and point axes). -/
theorem xn_at (x0 : (⟨S4x4096x3, .f32⟩ : BufTy).Contents (Elt Ideal)) (x1 : (⟨S64x4096, .f32⟩ : BufTy).Contents (Elt Ideal))
    (x2 x3 x4 : (⟨S64, .f32⟩ : BufTy).Contents (Elt Ideal)) (b : Fin 4) (n : Fin 4096) (f : Fin 64) :
    val_main_v41 (F := Ideal) x0 x1 x2 x3 x4 (ix3 b n f)
      = Cert.Spec.xnR (fun b n d => x0 (ix3 b n d)) (fun f j => x1 (ix2 f j)) (fun f => x2 (ix1 f))
          (fun f => x3 (ix1 f)) (fun f => x4 (ix1 f)) b n f := by
  have e1 : idx_main_v29 (ix3 b n f) = ix3 b n (0 : Fin 1) :=
    funext fun a => Fin.ext (by match a with | ⟨0, _⟩ => rfl | ⟨1, _⟩ => rfl | ⟨2, _⟩ => rfl)
  have e2 : idx_main_v34 (ix3 b n f) = ix3 b n (0 : Fin 1) :=
    funext fun a => Fin.ext (by match a with | ⟨0, _⟩ => rfl | ⟨1, _⟩ => rfl | ⟨2, _⟩ => rfl)
  have e3 : idx_main_v36 (idx_main_v37 (ix3 b n f)) = ix1 f :=
    funext fun a => Fin.ext (by match a with | ⟨0, _⟩ => rfl)
  have e4 : idx_main_v39 (idx_main_v40 (ix3 b n f)) = ix1 f :=
    funext fun a => Fin.ext (by match a with | ⟨0, _⟩ => rfl)
  rw [val_main_v41_apply, val_main_v38_apply, val_main_v35_apply, val_main_v30_apply, val_main_v29_apply, e1,
    val_main_v34_apply, e2, val_main_v33_apply, val_main_v32_apply, val_main_v31_apply, val_main_cst_8_apply,
    val_main_v37_apply, val_main_v36_apply, e3, val_main_v40_apply, val_main_v39_apply, e4, x_at, mu_at, var_at]
  rfl

/-- THE REFERENCE AT AN ELEMENT: the normalised value times the quotient of the literal 1 by the literal 1 plus the
    exponential of the negated normalised value. -/
theorem ref_at (x0 : (⟨S4x4096x3, .f32⟩ : BufTy).Contents (Elt Ideal)) (x1 : (⟨S64x4096, .f32⟩ : BufTy).Contents (Elt Ideal))
    (x2 x3 x4 : (⟨S64, .f32⟩ : BufTy).Contents (Elt Ideal)) (b : Fin 4) (n : Fin 4096) (f : Fin 64) :
    val_main_v48 (F := Ideal) x0 x1 x2 x3 x4 (ix3 b n f)
      = Cert.Spec.outR (fun b n d => x0 (ix3 b n d)) (fun f j => x1 (ix2 f j)) (fun f => x2 (ix1 f))
          (fun f => x3 (ix1 f)) (fun f => x4 (ix1 f)) b n f := by
  rw [val_main_v48_apply, val_main_v47_apply, val_main_v46_apply, val_main_cst_10_apply, val_main_v45_apply,
    val_main_v44_apply, val_main_cst_9_apply, val_main_v43_apply, val_main_v42_apply, xn_at]
  rfl

end Cert.RefIsSpec

end
-- ==== Proof.Bridge.lean ====
import proofs.«178833_j3178275799379_2_alg».proof.Proof.Spec
import Idealize.ShloMosaic.PureOps.Ideal.Laws
import Mathlib

/-!
  The kernel's formula and the reference's formula agree at every batch, point and feature, once the
  positions, the weights and the bias are finite (the scale and the shift may be any extended reals).

  The argument runs over the reals.  With real positions, both squared distances are the coercion of the
  same nonnegative real  s = Σ_d (p n d − p j d)²  (the kernel's by  ‖a‖² + ‖b‖² − 2⟨a,b⟩ = ‖a − b‖²),
  so both distances are the coercion of √s.  The four tile sums regroup into the one sum over all points,
  so the two linear layers agree and are real; so are the mean and the variance, and the variance is
  nonnegative.  Multiplying by the reciprocal square root of a positive real is dividing by its square
  root, and the named logistic function is its spelled-out formula.
-/

noncomputable section

namespace Cert.Bridge

open Idealize.ShloMosaic Cert.Spec
open scoped BigOperators

/-! ## The literals -/

theorem zero_eq : zero = 0 := by
  simp [zero, Ideal.ofBits, Ideal.ieee]

theorem one_eq : one = 1 := by
  simp [one, Ideal.ofBits, Ideal.ieee, -EReal.coe_mul]; norm_num

theorem two_eq : two = ((2 : ℝ) : EReal) := by
  simp [two, Ideal.ofBits, Ideal.ieee, -EReal.coe_mul]; norm_num

theorem c64_eq : c64 = ((64 : ℝ) : EReal) := by
  simp [c64, Ideal.ofBits, Ideal.ieee, -EReal.coe_mul]; norm_num

/-- The normalisation's ε is a positive real. -/
theorem eps_eq : ∃ e : ℝ, 0 < e ∧ eps = (e : EReal) := by
  simp [eps, Ideal.ofBits, Ideal.ieee, -EReal.coe_mul]

/-! ## Coercion through a finite sum -/

theorem coe_sum {ι : Type*} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-! ## Two identities of the operations -/

/-- Multiplying by the reciprocal square root of a positive real is dividing by its square root. -/
theorem mul_rsqrt_eq_div_sqrt (a : EReal) {y : ℝ} (hy : 0 < y) :
    a * Ideal.rsqrt (y : EReal) = Ideal.div a (Ideal.sqrt (y : EReal)) := by
  have hs : Real.sqrt y ≠ 0 := (Real.sqrt_pos.mpr hy).ne'
  rw [Ideal.rsqrt_coe, Ideal.sqrt_coe, if_neg (not_lt.mpr hy.le), if_neg hy.ne', if_neg (not_lt.mpr hy.le),
    Ideal.div_coe hs, one_div]

/-- The named logistic function is its formula. -/
theorem logistic_eq (x : EReal) : Ideal.logistic x = Ideal.div one (one + Ideal.exp (-x)) := by
  rw [one_eq]; rfl

/-! ## The tiles cover the points -/

/-- Four tile sums added to a zero start are the one sum over all 4096 points. -/
theorem sum_tiles (g : Fin 4096 → EReal) :
    (((zero + ∑ k : Fin 1024, g (tileIdx 0 k)) + ∑ k : Fin 1024, g (tileIdx 1 k))
        + ∑ k : Fin 1024, g (tileIdx 2 k)) + ∑ k : Fin 1024, g (tileIdx 3 k)
      = ∑ j : Fin 4096, g j := by
  have h1 : ∑ j : Fin 4096, g j = ∑ x : Fin 4 × Fin 1024, g (tileIdx x.1 x.2) := by
    rw [← Equiv.sum_comp (finProdFinEquiv : Fin 4 × Fin 1024 ≃ Fin 4096) g]
    refine Finset.sum_congr rfl (fun x _ => ?_)
    congr 1
    apply Fin.ext
    simp only [tileIdx, finProdFinEquiv, Equiv.coe_fn_mk]
    omega
  rw [h1, Fintype.sum_prod_type, Fin.sum_univ_four, zero_eq, zero_add]

/-! ## The real quantities -/

section Real

variable (p : Fin 4 → Fin 4096 → Fin 3 → ℝ) (w : Fin 64 → Fin 4096 → ℝ) (β : Fin 64 → ℝ)

/-- The inputs as extended reals. -/
abbrev cP : Fin 4 → Fin 4096 → Fin 3 → EReal := fun b n d => ((p b n d : ℝ) : EReal)
abbrev cW : Fin 64 → Fin 4096 → EReal := fun f j => ((w f j : ℝ) : EReal)
abbrev cB : Fin 64 → EReal := fun f => ((β f : ℝ) : EReal)

/-- The squared distance between points n and j. -/
def sqr (b : Fin 4) (n j : Fin 4096) : ℝ := ∑ d : Fin 3, (p b n d - p b j d) * (p b n d - p b j d)

theorem sqr_nonneg (b : Fin 4) (n j : Fin 4096) : 0 ≤ sqr p b n j :=
  Finset.sum_nonneg (fun _ _ => mul_self_nonneg _)

/-- The distance. -/
def dstr (b : Fin 4) (n j : Fin 4096) : ℝ := Real.sqrt (sqr p b n j)

/-- The linear layer. -/
def xr (b : Fin 4) (n : Fin 4096) (f : Fin 64) : ℝ := (∑ j : Fin 4096, dstr p b n j * w f j) + β f

/-- The mean over the features. -/
def mur (b : Fin 4) (n : Fin 4096) : ℝ := (∑ f : Fin 64, xr p w β b n f) * (1 / 64)

/-- The variance over the features. -/
def varr (b : Fin 4) (n : Fin 4096) : ℝ :=
  (∑ f : Fin 64, (xr p w β b n f - mur p w β b n) * (xr p w β b n f - mur p w β b n)) * (1 / 64)

theorem varr_nonneg (b : Fin 4) (n : Fin 4096) : 0 ≤ varr p w β b n :=
  mul_nonneg (Finset.sum_nonneg (fun _ _ => mul_self_nonneg _)) (by norm_num)

/-! ### The squared distance, both ways -/

theorem sqR_coe (b : Fin 4) (n j : Fin 4096) : sqR (cP p) b n j = ((sqr p b n j : ℝ) : EReal) := by
  simp only [sqR, sqr, zero_eq, zero_add, Fin.sum_univ_three, EReal.coe_add, EReal.coe_mul, EReal.coe_sub]

theorem sqK_coe (b : Fin 4) (n j : Fin 4096) : sqK (cP p) b n j = ((sqr p b n j : ℝ) : EReal) := by
  have h : sqr p b n j
      = ((p b n 0 * p b n 0 + p b n 1 * p b n 1 + p b n 2 * p b n 2)
          + (p b j 0 * p b j 0 + p b j 1 * p b j 1 + p b j 2 * p b j 2))
        - 2 * (p b n 0 * p b j 0 + p b n 1 * p b j 1 + p b n 2 * p b j 2) := by
    simp only [sqr, Fin.sum_univ_three]; ring
  rw [h]
  simp only [sqK, rK, zero_eq, two_eq, zero_add, Fin.sum_univ_three, EReal.coe_add, EReal.coe_mul, EReal.coe_sub]

/-! ### The distance, both ways -/

theorem distR_coe (b : Fin 4) (n j : Fin 4096) : distR (cP p) b n j = ((dstr p b n j : ℝ) : EReal) := by
  unfold distR
  rw [sqR_coe, zero_eq, one_eq]
  by_cases h : 0 < sqr p b n j
  · have h' : (0 : EReal) < ((sqr p b n j : ℝ) : EReal) := by exact_mod_cast h
    rw [if_pos h', if_pos h', Ideal.sqrt_coe, if_neg (not_lt.mpr h.le)]; rfl
  · have h0 : sqr p b n j = 0 := le_antisymm (not_lt.mp h) (sqr_nonneg p b n j)
    have h' : ¬ (0 : EReal) < ((sqr p b n j : ℝ) : EReal) := by rw [h0]; simp
    rw [if_neg h', dstr, h0, Real.sqrt_zero, EReal.coe_zero]

theorem distK_coe (b : Fin 4) (n j : Fin 4096) : distK (cP p) b n j = ((dstr p b n j : ℝ) : EReal) := by
  unfold distK
  have h0 : (0 : EReal) ≤ ((sqr p b n j : ℝ) : EReal) := by exact_mod_cast sqr_nonneg p b n j
  rw [sqK_coe, zero_eq, max_eq_left h0, Ideal.sqrt_coe, if_neg (not_lt.mpr (sqr_nonneg p b n j))]; rfl

/-! ### The linear layer, both ways -/

/-- The kernel's running total is the sum over all points. -/
theorem accK_eq (P : Fin 4 → Fin 4096 → Fin 3 → EReal) (W : Fin 64 → Fin 4096 → EReal)
    (b : Fin 4) (n : Fin 4096) (f : Fin 64) :
    accK P W b n f = ∑ j : Fin 4096, distK P b n j * W f j := by
  unfold accK partK
  exact sum_tiles (fun j => distK P b n j * W f j)

theorem xR_coe (b : Fin 4) (n : Fin 4096) (f : Fin 64) :
    xR (cP p) (cW w) (cB β) b n f = ((xr p w β b n f : ℝ) : EReal) := by
  have h : ∑ j : Fin 4096, distR (cP p) b n j * cW w f j
      = ∑ j : Fin 4096, ((dstr p b n j * w f j : ℝ) : EReal) :=
    Finset.sum_congr rfl (fun j _ => by rw [distR_coe, EReal.coe_mul])
  unfold xR xr
  rw [h, EReal.coe_add, coe_sum]

theorem xK_coe (b : Fin 4) (n : Fin 4096) (f : Fin 64) :
    xK (cP p) (cW w) (cB β) b n f = ((xr p w β b n f : ℝ) : EReal) := by
  have h : ∑ j : Fin 4096, distK (cP p) b n j * cW w f j
      = ∑ j : Fin 4096, ((dstr p b n j * w f j : ℝ) : EReal) :=
    Finset.sum_congr rfl (fun j _ => by rw [distK_coe, EReal.coe_mul])
  unfold xK xr
  rw [accK_eq, h, EReal.coe_add, coe_sum]

/-! ### The mean and the variance, both ways -/

theorem muR_coe (b : Fin 4) (n : Fin 4096) :
    muR (cP p) (cW w) (cB β) b n = ((mur p w β b n : ℝ) : EReal) := by
  unfold muR mur
  rw [zero_eq, zero_add, c64_eq, Ideal.div_coe (by norm_num : (64 : ℝ) ≠ 0), EReal.coe_mul, coe_sum]
  congr 1
  exact Finset.sum_congr rfl (fun f _ => xR_coe p w β b n f)

theorem muK_coe (b : Fin 4) (n : Fin 4096) :
    muK (cP p) (cW w) (cB β) b n = ((mur p w β b n : ℝ) : EReal) := by
  unfold muK mur
  rw [c64_eq, Ideal.div_coe (by norm_num : (64 : ℝ) ≠ 0), EReal.coe_mul, coe_sum]
  congr 1
  exact Finset.sum_congr rfl (fun f _ => xK_coe p w β b n f)

theorem varR_coe (b : Fin 4) (n : Fin 4096) :
    varR (cP p) (cW w) (cB β) b n = ((varr p w β b n : ℝ) : EReal) := by
  unfold varR varr
  rw [zero_eq, zero_add, c64_eq, Ideal.div_coe (by norm_num : (64 : ℝ) ≠ 0), EReal.coe_mul, coe_sum]
  congr 1
  refine Finset.sum_congr rfl (fun f _ => ?_)
  rw [xR_coe, muR_coe, EReal.coe_mul, EReal.coe_sub]

theorem varK_coe (b : Fin 4) (n : Fin 4096) :
    varK (cP p) (cW w) (cB β) b n = ((varr p w β b n : ℝ) : EReal) := by
  unfold varK varr
  rw [c64_eq, Ideal.div_coe (by norm_num : (64 : ℝ) ≠ 0), EReal.coe_mul, coe_sum]
  congr 1
  refine Finset.sum_congr rfl (fun f _ => ?_)
  rw [xK_coe, muK_coe, EReal.coe_mul, EReal.coe_sub]

/-! ### The normalised value and the output, both ways -/

theorem xnK_eq_xnR (gam bet : Fin 64 → EReal) (b : Fin 4) (n : Fin 4096) (f : Fin 64) :
    xnK (cP p) (cW w) (cB β) gam bet b n f = xnR (cP p) (cW w) (cB β) gam bet b n f := by
  obtain ⟨e, he, hE⟩ := eps_eq
  have hy : 0 < varr p w β b n + e := add_pos_of_nonneg_of_pos (varr_nonneg p w β b n) he
  unfold xnK xnR
  rw [xK_coe, muK_coe, varK_coe, xR_coe, muR_coe, varR_coe, hE, ← EReal.coe_add,
    mul_rsqrt_eq_div_sqrt _ hy]

theorem outK_eq_outR_coe (gam bet : Fin 64 → EReal) (b : Fin 4) (n : Fin 4096) (f : Fin 64) :
    outK (cP p) (cW w) (cB β) gam bet b n f = outR (cP p) (cW w) (cB β) gam bet b n f := by
  unfold outK outR
  rw [xnK_eq_xnR, logistic_eq]

end Real

/-! ## The statement -/

/-- With finite positions, weights and bias, the kernel's output is the reference's output. -/
theorem outK_eq_outR (P : Fin 4 → Fin 4096 → Fin 3 → EReal) (W : Fin 64 → Fin 4096 → EReal)
    (bias gam bet : Fin 64 → EReal)
    (hP : ∀ b n d, ∃ r : ℝ, P b n d = (r : EReal)) (hW : ∀ f j, ∃ r : ℝ, W f j = (r : EReal))
    (hb : ∀ f, ∃ r : ℝ, bias f = (r : EReal))
    (b : Fin 4) (n : Fin 4096) (f : Fin 64) :
    Cert.Spec.outK P W bias gam bet b n f = Cert.Spec.outR P W bias gam bet b n f := by
  choose p hp using hP
  choose w hw using hW
  choose β hβ using hb
  have hP' : P = cP p := by funext b n d; exact hp b n d
  have hW' : W = cW w := by funext f j; exact hw f j
  have hb' : bias = cB β := by funext f; exact hβ f
  subst hP' hW' hb'
  exact outK_eq_outR_coe p w β gam bet b n f

end Cert.Bridge

end
-- ==== Proof.Finite.lean ====
/-
  Finiteness of the inputs. The printed predicate is the conjunction, over the five argument arrays, of
  "every element has absolute value below +∞"; when it evaluates to 1, every element of every array is a real number.
  Each conjunct is a reduction by `and` over all axes of the elementwise comparison |x| < +∞, so it gives the
  comparison at every index; at an extended real, max x (-x) < ⊤ excludes ⊥ and ⊤.
-/
import proofs.«178833_j3178275799379_2_alg».proof.Defs
import proofs.«178833_j3178275799379_2_alg».proof.Proof.Gen.Pre_finite_inputs
import Idealize.ShloMosaic.Lib.ReduceAll
import Idealize.ShloMosaic.Lib.ValueIdx

noncomputable section

namespace Cert.Finite

open Idealize.ShloMosaic Idealize.ShloMosaic.ValueIdx
open Cert.Pre_finite_inputs

/-- The scalar shape has one index. -/
instance subsingleton_S_ : Subsingleton S_.Idx := ⟨fun a b => funext fun d => d.elim0⟩

/-- The f32 pattern 0x7F800000 denotes +∞. -/
theorem ofBits_inf : Ideal.ofBits .f32 0x7F800000#32 = (⊤ : EReal) := by
  simp [Ideal.ofBits, Ideal.ieee]

/-- An extended real whose absolute value compares below +∞ is a real. -/
theorem real_of_abs_lt (x : EReal)
    (h : FloatOps.cmpf (F := Ideal) (φ := .f32) .olt (FloatOps.hostAbsf (F := Ideal) (φ := .f32) x)
      (Ideal.ofBits .f32 0x7F800000#32) = 1#1) :
    ∃ r : ℝ, x = (r : EReal) := by
  rw [ofBits_inf] at h
  change BitVec.ofBool (decide (max x (-x) < (⊤ : EReal))) = 1#1 at h
  have h' : max x (-x) < (⊤ : EReal) := by
    by_contra hn
    rw [decide_eq_false hn] at h
    exact absurd h (by decide)
  induction x using EReal.rec with
  | bot => exact absurd h' (by simp)
  | coe r => exact ⟨r, rfl⟩
  | top => exact absurd h' (by simp)

/-- The predicate holding, every element of each of the five arrays is a real. -/
theorem finite_of_pre_all
    (x0 : (⟨S4x4096x3, .f32⟩ : BufTy).Contents (Elt Ideal))
    (x1 : (⟨S64x4096, .f32⟩ : BufTy).Contents (Elt Ideal))
    (x2 x3 x4 : (⟨S64, .f32⟩ : BufTy).Contents (Elt Ideal))
    [Facts] (h : fn (F := Ideal) x0 x1 x2 x3 x4 = (fun _ => 1#1)) :
    (∀ i, ∃ r : ℝ, x0 i = (r : EReal)) ∧ (∀ i, ∃ r : ℝ, x1 i = (r : EReal)) ∧
      (∀ i, ∃ r : ℝ, x2 i = (r : EReal)) ∧ (∀ i, ∃ r : ℝ, x3 i = (r : EReal)) ∧
      (∀ i, ∃ r : ℝ, x4 i = (r : EReal)) := by
  have e := congrFun h ix0
  dsimp only [fn, fn_part1] at e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  refine ⟨fun i => ?_, fun i => ?_, fun i => ?_, fun i => ?_, fun i => ?_⟩
  · exact real_of_abs_lt (x0 i) (Host.reduce_andi_all _ _ _ _ ix0 e0 i)
  · exact real_of_abs_lt (x1 i) (Host.reduce_andi_all _ _ _ _ ix0 e1 i)
  · exact real_of_abs_lt (x2 i) (Host.reduce_andi_all _ _ _ _ ix0 e2 i)
  · exact real_of_abs_lt (x3 i) (Host.reduce_andi_all _ _ _ _ ix0 e3 i)
  · exact real_of_abs_lt (x4 i) (Host.reduce_andi_all _ _ _ _ ix0 e4 i)

/-- The predicate holding, every element of the first three arrays is a real. -/
theorem finite_of_pre
    (x0 : (⟨S4x4096x3, .f32⟩ : BufTy).Contents (Elt Ideal))
    (x1 : (⟨S64x4096, .f32⟩ : BufTy).Contents (Elt Ideal))
    (x2 x3 x4 : (⟨S64, .f32⟩ : BufTy).Contents (Elt Ideal))
    [Facts] (h : fn (F := Ideal) x0 x1 x2 x3 x4 = (fun _ => 1#1)) :
    (∀ i, ∃ r : ℝ, x0 i = (r : EReal)) ∧ (∀ i, ∃ r : ℝ, x1 i = (r : EReal)) ∧
      (∀ i, ∃ r : ℝ, x2 i = (r : EReal)) :=
  let ⟨h0, h1, h2, _, _⟩ := finite_of_pre_all x0 x1 x2 x3 x4 h
  ⟨h0, h1, h2⟩

end Cert.Finite

end
-- ==== Proof.lean ====
/-
  The certificate: a tiled all-pairs-distance kernel against its plain reference, over the extended reals.

  Both programs take points P (4 batches of 4096 points in three coordinates), a weight matrix W (64 by 4096) and three
  feature vectors, and return, for every batch and point n, the 64 numbers
      SiLU(LayerNorm(Σ_j dist(n, j) · W f j + bias f) · gamma f + beta f).
  The reference forms dist(n, j) from the squared coordinate differences, taking the root only where the sum is positive,
  sums over all 4096 points at once, and divides by the root of the variance. The kernel walks a grid of 4 · 2 · 4 points
  (batch, tile of 2048 rows, tile of 1024 columns); at each it forms the tile's squared distances as
  ‖P n‖² + ‖P j‖² − 2⟨P n, P j⟩, clamps them at zero, takes roots, multiplies by the matching rows of the transposed
  weights and adds the product to an accumulator that it zeroes at the first column tile; at the last column tile it
  normalises, scales, shifts and activates the accumulated rows (multiplying by the reciprocal root of the variance)
  and stores them, and only then is the output block written back.

  The two agree on finite inputs: the norm-and-inner-product form of the squared distance is the sum of squared
  differences (an identity of real numbers, false at infinities, hence the precondition), which is non-negative, so the
  clamp is idle and the guarded root is the plain root; the four tile sums regroup into the one sum; the variance plus
  the positive ε is a positive real, where multiplying by the reciprocal root is dividing by the root; and the logistic
  function is by definition the quotient the reference spells out.

  The frames (each program runs to its end without a fault and leaves its arguments as they were) are proved for the
  kernel at any float instance and cited at the word-level and at the ideal one; the reference's is its generated run.
  The ideal pass rewrote nothing, so there is nothing to preserve.
-/
import proofs.«178833_j3178275799379_2_alg».proof.Defs
import proofs.«178833_j3178275799379_2_alg».proof.Proof.Gen.Kernel
import proofs.«178833_j3178275799379_2_alg».proof.Proof.Gen.KernelIdeal
import proofs.«178833_j3178275799379_2_alg».proof.Proof.Gen.ReferenceIdeal
import proofs.«178833_j3178275799379_2_alg».proof.Proof.Gen.Pre_finite_inputs
import proofs.«178833_j3178275799379_2_alg».proof.Proof.Gen.ReferenceIdeal.Run
import proofs.«178833_j3178275799379_2_alg».proof.Proof.Gen.ReferenceIdeal.Read
import proofs.«178833_j3178275799379_2_alg».proof.Proof.K.Frame
import proofs.«178833_j3178275799379_2_alg».proof.Proof.KI.Value
import proofs.«178833_j3178275799379_2_alg».proof.Proof.RefIsSpec
import proofs.«178833_j3178275799379_2_alg».proof.Proof.Bridge
import proofs.«178833_j3178275799379_2_alg».proof.Proof.Finite
import Idealize.ShloMosaic.Adequacy
import Idealize.ShloMosaic.Init

noncomputable section

namespace Cert.Proof

open Idealize.ShloMosaic Idealize.ShloMosaic.TcCoe Idealize.SL.Sem ValueIdx

/-- The word-level kernel's frame. -/
theorem frame_k : Cert.frame_Kernel := fun m ρ _ => Cert.Kernel.Hand.frame (F := Bits) m ρ

/-- The idealized kernel's frame. -/
theorem frame_ki : Cert.frame_KernelIdeal := fun m ρ _ => Cert.KernelIdeal.Hand.frame (F := Ideal) m ρ

/-- The reference's frame: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On finite inputs the kernel's output array and the reference's result are one function of the arguments: the
    kernel's run ends with the spec's kernel formula, the reference's with its own formula read index by index, and the
    two formulas agree. -/
theorem algebraic : Cert.algebraic_KernelIdeal_ReferenceIdeal := by
  intro m ρ m' ρ' hpre hagree
  refine ⟨fun c => Cert.KernelIdeal.Hand.Gout m c, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4⟩ := hagree c
  obtain ⟨f0, f1, f2⟩ := Cert.Finite.finite_of_pre _ _ _ _ _ (hpre c)
  rw [Cert.ReferenceIdeal.Read.val_main_v48_eq]
  refine funext fun (i : Cert.ReferenceIdeal.S4x4096x64.Idx) => ?_
  have hi : i = ix3 (i 0) (i 1) (i 2) := eq_ix3 i
  have step1 : Cert.ReferenceIdeal.Read.val_main_v48 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) i
      = Cert.Spec.outR (fun b n d => m' ((c.tc : Thread Cert.ReferenceIdeal.nD Cert.ReferenceIdeal.τ).loc Cert.ReferenceIdeal.main_arg0) (ix3 b n d)) (fun f j => m' ((c.tc : Thread Cert.ReferenceIdeal.nD Cert.ReferenceIdeal.τ).loc Cert.ReferenceIdeal.main_arg1) (ix2 f j)) (fun f => m' ((c.tc : Thread Cert.ReferenceIdeal.nD Cert.ReferenceIdeal.τ).loc Cert.ReferenceIdeal.main_arg2) (ix1 f))
          (fun f => m' ((c.tc : Thread Cert.ReferenceIdeal.nD Cert.ReferenceIdeal.τ).loc Cert.ReferenceIdeal.main_arg3) (ix1 f)) (fun f => m' ((c.tc : Thread Cert.ReferenceIdeal.nD Cert.ReferenceIdeal.τ).loc Cert.ReferenceIdeal.main_arg4) (ix1 f)) (i 0) (i 1) (i 2) := by
    conv_lhs => rw [hi]
    exact Cert.RefIsSpec.ref_at _ _ _ _ _ (i 0) (i 1) (i 2)
  have h0 : (fun b n d => m' ((c.tc : Thread Cert.ReferenceIdeal.nD Cert.ReferenceIdeal.τ).loc Cert.ReferenceIdeal.main_arg0) (ix3 b n d))
      = Cert.KernelIdeal.Hand.Pc m c := funext fun b => funext fun n => funext fun d => congrFun e0 (ix3 b n d)
  have h1 : (fun f j => m' ((c.tc : Thread Cert.ReferenceIdeal.nD Cert.ReferenceIdeal.τ).loc Cert.ReferenceIdeal.main_arg1) (ix2 f j))
      = Cert.KernelIdeal.Hand.Wc m c := funext fun f => funext fun j => congrFun e1 (ix2 f j)
  have h2 : (fun f => m' ((c.tc : Thread Cert.ReferenceIdeal.nD Cert.ReferenceIdeal.τ).loc Cert.ReferenceIdeal.main_arg2) (ix1 f))
      = Cert.KernelIdeal.Hand.biasc m c := funext fun f => congrFun e2 (ix1 f)
  have h3 : (fun f => m' ((c.tc : Thread Cert.ReferenceIdeal.nD Cert.ReferenceIdeal.τ).loc Cert.ReferenceIdeal.main_arg3) (ix1 f))
      = Cert.KernelIdeal.Hand.gamc m c := funext fun f => congrFun e3 (ix1 f)
  have h4 : (fun f => m' ((c.tc : Thread Cert.ReferenceIdeal.nD Cert.ReferenceIdeal.τ).loc Cert.ReferenceIdeal.main_arg4) (ix1 f))
      = Cert.KernelIdeal.Hand.betc m c := funext fun f => congrFun e4 (ix1 f)
  rw [h0, h1, h2, h3, h4] at step1
  refine step1.trans ?_
  exact (Cert.Bridge.outK_eq_outR (Cert.KernelIdeal.Hand.Pc m c) (Cert.KernelIdeal.Hand.Wc m c) (Cert.KernelIdeal.Hand.biasc m c)
    (Cert.KernelIdeal.Hand.gamc m c) (Cert.KernelIdeal.Hand.betc m c)
    (fun b n d => f0 (ix3 b n d)) (fun f j => f1 (ix2 f j)) (fun f => f2 (ix1 f)) (i 0) (i 1) (i 2)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
